-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v38_1)) (v1 : (c : Dev Cert.KernelIdeal.nD) → Buf (Elt Ideal) ((c.tc : Thread Cert.KernelIdeal.nD Cert.KernelIdeal.τ).loc Cert.KernelIdeal.main_v74_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38_1) = v0 c
          ∧ r.2.mem ((c.tc : Thread Cert.KernelIdeal.nD Cert.KernelIdeal.τ).loc Cert.KernelIdeal.main_v74_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v114) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S150000x64 : Shape := ⟨2, ![150000, 64]⟩
abbrev S2x64x64 : Shape := ⟨3, ![2, 64, 64]⟩
abbrev S1000000 : Shape := ⟨1, ![1000000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S150000x64 : S_.BroadcastsInDim S150000x64 (![] : Fin 0 → Fin S150000x64.rank)
  reducesTo_S150000x64_S_d0_1 : S150000x64.ReducesTo [0, 1] S_
  bcast_S_S2x64x64 : S_.BroadcastsInDim S2x64x64 (![] : Fin 0 → Fin S2x64x64.rank)
  reducesTo_S2x64x64_S_d0_1_2 : S2x64x64.ReducesTo [0, 1, 2] S_
  bcast_S_S1000000 : S_.BroadcastsInDim S1000000 (![] : Fin 0 → Fin S1000000.rank)
  reducesTo_S1000000_S_d0 : S1000000.ReducesTo [0] S_

variable [Facts]

def fn_part1 {F : FTy → Type} [FloatOps F] (main_arg6 : FVec F S1000000 .f32) (main_arg9 : FVec F S1000000 .f32) (main_v13 : IVec S_ 1) (main_v16 : IVec S2x64x64 1) : IVec S_ 1 :=
  let main_c_5 : IVec S_ 1 := constantI S_ 1 1#1
  let main_v17 : IVec S_ 1 := (fun x v => Host.reduce IntOp.andi x v reducesTo_S2x64x64_S_d0_1_2 h_S_) main_v16 main_c_5
  let main_v18 : IVec S_ 1 := andi main_v13 main_v17
  let main_v19 : FVec F S1000000 .f32 := Host.absf main_arg6
  let main_cst_6 : FVec F S_ .f32 := constant S_ .f32 0x7F800000#32
  let main_v20 : FVec F S1000000 .f32 := broadcastInDim S1000000 ![] bcast_S_S1000000 main_cst_6
  let main_v21 : IVec S1000000 1 := cmpf .olt main_v19 main_v20
  let main_c_7 : IVec S_ 1 := constantI S_ 1 1#1
  let main_v22 : IVec S_ 1 := (fun x v => Host.reduce IntOp.andi x v reducesTo_S1000000_S_d0 h_S_) main_v21 main_c_7
  let main_v23 : IVec S_ 1 := andi main_v18 main_v22
  let main_v24 : FVec F S1000000 .f32 := Host.absf main_arg9
  let main_cst_8 : FVec F S_ .f32 := constant S_ .f32 0x7F800000#32
  let main_v25 : FVec F S1000000 .f32 := broadcastInDim S1000000 ![] bcast_S_S1000000 main_cst_8
  let main_v26 : IVec S1000000 1 := cmpf .olt main_v24 main_v25
  let main_c_9 : IVec S_ 1 := constantI S_ 1 1#1
  let main_v27 : IVec S_ 1 := (fun x v => Host.reduce IntOp.andi x v reducesTo_S1000000_S_d0 h_S_) main_v26 main_c_9
  let main_v28 : IVec S_ 1 := andi main_v23 main_v27
  main_v28

def fn {F : FTy → Type} [FloatOps F] (main_arg0 : FVec F S100000x64 .f32) (main_arg1 : FVec F S150000x64 .f32) (main_arg2 : FVec F S2x64x64 .f32) (main_arg3 : FVec F S2x64x64 .f32) (main_arg4 : IVec S1000000 32) (main_arg5 : IVec S1000000 32) (main_arg6 : FVec F S1000000 .f32) (main_arg7 : IVec S1000000 32) (main_arg8 : IVec S1000000 32) (main_arg9 : FVec F S1000000 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S150000x64 .f32 := Host.absf main_arg1
  let main_cst_0 : FVec F S_ .f32 := constant S_ .f32 0x7F800000#32
  let main_v5 : FVec F S150000x64 .f32 := broadcastInDim S150000x64 ![] bcast_S_S150000x64 main_cst_0
  let main_v6 : IVec S150000x64 1 := cmpf .olt main_v4 main_v5
  let main_c_1 : IVec S_ 1 := constantI S_ 1 1#1
  let main_v7 : IVec S_ 1 := (fun x v => Host.reduce IntOp.andi x v reducesTo_S150000x64_S_d0_1 h_S_) main_v6 main_c_1
  let main_v8 : IVec S_ 1 := andi main_v3 main_v7
  let main_v9 : FVec F S2x64x64 .f32 := Host.absf main_arg2
  let main_cst_2 : FVec F S_ .f32 := constant S_ .f32 0x7F800000#32
  let main_v10 : FVec F S2x64x64 .f32 := broadcastInDim S2x64x64 ![] bcast_S_S2x64x64 main_cst_2
  let main_v11 : IVec S2x64x64 1 := cmpf .olt main_v9 main_v10
  let main_c_3 : IVec S_ 1 := constantI S_ 1 1#1
  let main_v12 : IVec S_ 1 := (fun x v => Host.reduce IntOp.andi x v reducesTo_S2x64x64_S_d0_1_2 h_S_) main_v11 main_c_3
  let main_v13 : IVec S_ 1 := andi main_v8 main_v12
  let main_v14 : FVec F S2x64x64 .f32 := Host.absf main_arg3
  let main_cst_4 : FVec F S_ .f32 := constant S_ .f32 0x7F800000#32
  let main_v15 : FVec F S2x64x64 .f32 := broadcastInDim S2x64x64 ![] bcast_S_S2x64x64 main_cst_4
  let main_v16 : IVec S2x64x64 1 := cmpf .olt main_v14 main_v15
  fn_part1 (F := F) main_arg6 main_arg9 main_v13 main_v16
-- ==== Kernel.lean ====
abbrev S100000x64 : Shape := ⟨2, ![100000, 64]⟩
abbrev S150000x64 : Shape := ⟨2, ![150000, 64]⟩
abbrev S2x64x64 : Shape := ⟨3, ![2, 64, 64]⟩
abbrev S1000000 : Shape := ⟨1, ![1000000]⟩
abbrev S250000x64 : Shape := ⟨2, ![250000, 64]⟩
abbrev S1x64x64 : Shape := ⟨3, ![1, 64, 64]⟩
abbrev S64x64 : Shape := ⟨2, ![64, 64]⟩
abbrev S5000x64 : Shape := ⟨2, ![5000, 64]⟩
abbrev S1000000x1 : Shape := ⟨2, ![1000000, 1]⟩
abbrev S_ : Shape := ⟨0, ![]⟩
abbrev S1000000x64 : Shape := ⟨2, ![1000000, 64]⟩
abbrev S5000 : Shape := ⟨1, ![5000]⟩
abbrev S5000x1 : Shape := ⟨2, ![5000, 1]⟩

abbrev nBuf : Space → Nat
  | .hbm => 101
  | .vmem => 52
  | .smem => 0
  | _ => 0

abbrev bufTy : (tb : Table) → Fin (tcTables nBuf tb) → BufTy
  | .hbm, ⟨0, _⟩ => ⟨S100000x64, .f32⟩
  | .hbm, ⟨1, _⟩ => ⟨S150000x64, .f32⟩
  | .hbm, ⟨2, _⟩ => ⟨S2x64x64, .f32⟩
  | .hbm, ⟨3, _⟩ => ⟨S2x64x64, .f32⟩
  | .hbm, ⟨4, _⟩ => ⟨S1000000, .i32⟩
  | .hbm, ⟨5, _⟩ => ⟨S1000000, .i32⟩
  | .hbm, ⟨6, _⟩ => ⟨S1000000, .f32⟩
  | .hbm, ⟨7, _⟩ => ⟨S1000000, .i32⟩
  | .hbm, ⟨8, _⟩ => ⟨S1000000, .i32⟩
  | .hbm, ⟨9, _⟩ => ⟨S1000000, .f32⟩
  | .hbm, ⟨10, _⟩ => ⟨S250000x64, .f32⟩
  | .hbm, ⟨11, _⟩ => ⟨S250000x64, .f32⟩
  | .hbm, ⟨12, _⟩ => ⟨S1x64x64, .f32⟩
  | .hbm, ⟨13, _⟩ => ⟨S64x64, .f32⟩
  | .hbm, ⟨14, _⟩ => ⟨S250000x64, .f32⟩
  | .hbm, ⟨15, _⟩ => ⟨S1000000x1, .f32⟩
  | .hbm, ⟨16, _⟩ => ⟨S_, .i32⟩
  | .hbm, ⟨17, _⟩ => ⟨S1000000, .i32⟩
  | .hbm, ⟨18, _⟩ => ⟨S1000000, .i1⟩
  | .hbm, ⟨19, _⟩ => ⟨S_, .i32⟩
  | .hbm, ⟨20, _⟩ => ⟨S1000000, .i32⟩
  | .hbm, ⟨21, _⟩ => ⟨S1000000, .i32⟩
  | .hbm, ⟨22, _⟩ => ⟨S1000000, .i32⟩
  | .hbm, ⟨23, _⟩ => ⟨S1000000x1, .i32⟩
  | .hbm, ⟨24, _⟩ => ⟨S1000000x64, .f32⟩
  | .hbm, ⟨25, _⟩ => ⟨S1000000x64, .f32⟩
  | .hbm, ⟨26, _⟩ => ⟨S1000000x64, .f32⟩
  | .hbm, ⟨27, _⟩ => ⟨S_, .f32⟩
  | .hbm, ⟨28, _⟩ => ⟨S250000x64, .f32⟩
  | .hbm, ⟨29, _⟩ => ⟨S1000000x1, .i32⟩
  | .hbm, ⟨30, _⟩ => ⟨S250000x64, .f32⟩
  | .hbm, ⟨31, _⟩ => ⟨S250000x64, .f32⟩
  | .hbm, ⟨32, _⟩ => ⟨S250000x64, .f32⟩
  | .hbm, ⟨33, _⟩ => ⟨S100000x64, .f32⟩
  | .hbm, ⟨34, _⟩ => ⟨S150000x64, .f32⟩
  | .hbm, ⟨35, _⟩ => ⟨S250000x64, .f32⟩
  | .hbm, ⟨36, _⟩ => ⟨S1x64x64, .f32⟩
  | .hbm, ⟨37, _⟩ => ⟨S64x64, .f32⟩
  | .hbm, ⟨38, _⟩ => ⟨S250000x64, .f32⟩
  | .hbm, ⟨39, _⟩ => ⟨S1000000x1, .f32⟩
  | .hbm, ⟨40, _⟩ => ⟨S_, .i32⟩
  | .hbm, ⟨41, _⟩ => ⟨S1000000, .i32⟩
  | .hbm, ⟨42, _⟩ => ⟨S1000000, .i1⟩
  | .hbm, ⟨43, _⟩ => ⟨S_, .i32⟩
  | .hbm, ⟨44, _⟩ => ⟨S1000000, .i32⟩
  | .hbm, ⟨45, _⟩ => ⟨S1000000, .i32⟩
  | .hbm, ⟨46, _⟩ => ⟨S1000000, .i32⟩
  | .hbm, ⟨47, _⟩ => ⟨S1000000x1, .i32⟩
  | .hbm, ⟨48, _⟩ => ⟨S1000000x64, .f32⟩
  | .hbm, ⟨49, _⟩ => ⟨S1000000x64, .f32⟩
  | .hbm, ⟨50, _⟩ => ⟨S1000000x64, .f32⟩
  | .hbm, ⟨51, _⟩ => ⟨S_, .f32⟩
  | .hbm, ⟨52, _⟩ => ⟨S250000x64, .f32⟩
  | .hbm, ⟨53, _⟩ => ⟨S1000000x1, .i32⟩
  | .hbm, ⟨54, _⟩ => ⟨S250000x64, .f32⟩
  | .hbm, ⟨55, _⟩ => ⟨S250000x64, .f32⟩
  | .hbm, ⟨56, _⟩ => ⟨S250000x64, .f32⟩
  | .hbm, ⟨57, _⟩ => ⟨S100000x64, .f32⟩
  | .hbm, ⟨58, _⟩ => ⟨S150000x64, .f32⟩
  | .hbm, ⟨59, _⟩ => ⟨S1x64x64, .f32⟩
  | .hbm, ⟨60, _⟩ => ⟨S64x64, .f32⟩
  | .hbm, ⟨61, _⟩ => ⟨S100000x64, .f32⟩
  | .hbm, ⟨62, _⟩ => ⟨S1000000x1, .f32⟩
  | .hbm, ⟨63, _⟩ => ⟨S_, .i32⟩
  | .hbm, ⟨64, _⟩ => ⟨S1000000, .i32⟩
  | .hbm, ⟨65, _⟩ => ⟨S1000000, .i1⟩
  | .hbm, ⟨66, _⟩ => ⟨S_, .i32⟩
  | .hbm, ⟨67, _⟩ => ⟨S1000000, .i32⟩
  | .hbm, ⟨68, _⟩ => ⟨S1000000, .i32⟩
  | .hbm, ⟨69, _⟩ => ⟨S1000000, .i32⟩
  | .hbm, ⟨70, _⟩ => ⟨S1000000x1, .i32⟩
  | .hbm, ⟨71, _⟩ => ⟨S1000000x64, .f32⟩
  | .hbm, ⟨72, _⟩ => ⟨S1000000x64, .f32⟩
  | .hbm, ⟨73, _⟩ => ⟨S1000000x64, .f32⟩
  | .hbm, ⟨74, _⟩ => ⟨S_, .f32⟩
  | .hbm, ⟨75, _⟩ => ⟨S100000x64, .f32⟩
  | .hbm, ⟨76, _⟩ => ⟨S1000000x1, .i32⟩
  | .hbm, ⟨77, _⟩ => ⟨S100000x64, .f32⟩
  | .hbm, ⟨78, _⟩ => ⟨S100000x64, .f32⟩
  | .hbm, ⟨79, _⟩ => ⟨S100000x64, .f32⟩
  | .hbm, ⟨80, _⟩ => ⟨S1x64x64, .f32⟩
  | .hbm, ⟨81, _⟩ => ⟨S64x64, .f32⟩
  | .hbm, ⟨82, _⟩ => ⟨S100000x64, .f32⟩
  | .hbm, ⟨83, _⟩ => ⟨S1000000x1, .f32⟩
  | .hbm, ⟨84, _⟩ => ⟨S_, .i32⟩
  | .hbm, ⟨85, _⟩ => ⟨S1000000, .i32⟩
  | .hbm, ⟨86, _⟩ => ⟨S1000000, .i1⟩
  | .hbm, ⟨87, _⟩ => ⟨S_, .i32⟩
  | .hbm, ⟨88, _⟩ => ⟨S1000000, .i32⟩
  | .hbm, ⟨89, _⟩ => ⟨S1000000, .i32⟩
  | .hbm, ⟨90, _⟩ => ⟨S1000000, .i32⟩
  | .hbm, ⟨91, _⟩ => ⟨S1000000x1, .i32⟩
  | .hbm, ⟨92, _⟩ => ⟨S1000000x64, .f32⟩
  | .hbm, ⟨93, _⟩ => ⟨S1000000x64, .f32⟩
  | .hbm, ⟨94, _⟩ => ⟨S1000000x64, .f32⟩
  | .hbm, ⟨95, _⟩ => ⟨S_, .f32⟩
  | .hbm, ⟨96, _⟩ => ⟨S100000x64, .f32⟩
  | .hbm, ⟨97, _⟩ => ⟨S1000000x1, .i32⟩
  | .hbm, ⟨98, _⟩ => ⟨S100000x64, .f32⟩
  | .hbm, ⟨99, _⟩ => ⟨S100000x64, .f32⟩
  | .hbm, ⟨100, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S64x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S64x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x64, .f32⟩
  | .local _ .vmem, ⟨38, _⟩ => ⟨S5000x64, .f32⟩
  | .local _ .vmem, ⟨39, _⟩ => ⟨S5000x64, .f32⟩
  | .local _ .vmem, ⟨40, _⟩ => ⟨S5000x64, .f32⟩
  | .local _ .vmem, ⟨41, _⟩ => ⟨S64x64, .f32⟩
  | .local _ .vmem, ⟨42, _⟩ => ⟨S5000x64, .f32⟩
  | .local _ .vmem, ⟨43, _⟩ => ⟨S5000x64, .f32⟩
  | .local _ .vmem, ⟨44, _⟩ => ⟨S5000x64, .f32⟩
  | .local _ .vmem, ⟨45, _⟩ => ⟨S5000x64, .f32⟩
  | .local _ .vmem, ⟨46, _⟩ => ⟨S5000x64, .f32⟩
  | .local _ .vmem, ⟨47, _⟩ => ⟨S5000x64, .f32⟩
  | .local _ .vmem, ⟨48, _⟩ => ⟨S5000x64, .f32⟩
  | .local _ .vmem, ⟨49, _⟩ => ⟨S5000x64, .f32⟩
  | .local _ .vmem, ⟨50, _⟩ => ⟨S5000x64, .f32⟩
  | .local _ .vmem, ⟨51, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_c_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18_0 : Ref sig .tc := ⟨.hbm, 31, rfl⟩
abbrev main_v18_1 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_1 : Ref sig .tc := ⟨.hbm, 40, rfl⟩
abbrev main_v26 : Ref sig .tc := ⟨.hbm, 41, rfl⟩
abbrev main_v27 : Ref sig .tc := ⟨.hbm, 42, rfl⟩
abbrev main_c_2 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_3 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38_0 : Ref sig .tc := ⟨.hbm, 55, rfl⟩
abbrev main_v38_1 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_c_4 : Ref sig .tc := ⟨.hbm, 63, rfl⟩
abbrev main_v45 : Ref sig .tc := ⟨.hbm, 64, rfl⟩
abbrev main_v46 : Ref sig .tc := ⟨.hbm, 65, rfl⟩
abbrev main_c_5 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_6 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57_0 : Ref sig .tc := ⟨.hbm, 78, rfl⟩
abbrev main_v57_1 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_c_7 : Ref sig .tc := ⟨.hbm, 84, rfl⟩
abbrev main_v62 : Ref sig .tc := ⟨.hbm, 85, rfl⟩
abbrev main_v63 : Ref sig .tc := ⟨.hbm, 86, rfl⟩
abbrev main_c_8 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst_9 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74_0 : Ref sig .tc := ⟨.hbm, 99, rfl⟩
abbrev main_v74_1 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg2_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg1_1 : Ref sig .tc := ⟨.vmem, 34, rfl⟩
abbrev cc5_stg2_0 : Ref sig .tc := ⟨.vmem, 35, rfl⟩
abbrev cc5_stg2_1 : Ref sig .tc := ⟨.vmem, 36, rfl⟩
abbrev cc5_stg3_0 : Ref sig .tc := ⟨.vmem, 37, rfl⟩
abbrev cc5_stg3_1 : Ref sig .tc := ⟨.vmem, 38, rfl⟩
abbrev cc6_stg0_0 : Ref sig .tc := ⟨.vmem, 39, rfl⟩
abbrev cc6_stg0_1 : Ref sig .tc := ⟨.vmem, 40, rfl⟩
abbrev cc6_stg1_0 : Ref sig .tc := ⟨.vmem, 41, rfl⟩
abbrev cc6_stg2_0 : Ref sig .tc := ⟨.vmem, 42, rfl⟩
abbrev cc6_stg2_1 : Ref sig .tc := ⟨.vmem, 43, rfl⟩
abbrev cc7_stg0_0 : Ref sig .tc := ⟨.vmem, 44, rfl⟩
abbrev cc7_stg0_1 : Ref sig .tc := ⟨.vmem, 45, rfl⟩
abbrev cc7_stg1_0 : Ref sig .tc := ⟨.vmem, 46, rfl⟩
abbrev cc7_stg1_1 : Ref sig .tc := ⟨.vmem, 47, rfl⟩
abbrev cc7_stg2_0 : Ref sig .tc := ⟨.vmem, 48, rfl⟩
abbrev cc7_stg2_1 : Ref sig .tc := ⟨.vmem, 49, rfl⟩
abbrev cc7_stg3_0 : Ref sig .tc := ⟨.vmem, 50, rfl⟩
abbrev cc7_stg3_1 : Ref sig .tc := ⟨.vmem, 51, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem2_1 : DmaSem sig := 30
abbrev cc5_sem0_0 : DmaSem sig := 31
abbrev cc5_sem0_1 : DmaSem sig := 32
abbrev cc5_sem1_0 : DmaSem sig := 33
abbrev cc5_sem1_1 : DmaSem sig := 34
abbrev cc5_sem2_0 : DmaSem sig := 35
abbrev cc5_sem2_1 : DmaSem sig := 36
abbrev cc5_sem3_0 : DmaSem sig := 37
abbrev cc5_sem3_1 : DmaSem sig := 38
abbrev cc6_sem0_0 : DmaSem sig := 39
abbrev cc6_sem0_1 : DmaSem sig := 40
abbrev cc6_sem1_0 : DmaSem sig := 41
abbrev cc6_sem2_0 : DmaSem sig := 42
abbrev cc6_sem2_1 : DmaSem sig := 43
abbrev cc7_sem0_0 : DmaSem sig := 44
abbrev cc7_sem0_1 : DmaSem sig := 45
abbrev cc7_sem1_0 : DmaSem sig := 46
abbrev cc7_sem1_1 : DmaSem sig := 47
abbrev cc7_sem2_0 : DmaSem sig := 48
abbrev cc7_sem2_1 : DmaSem sig := 49
abbrev cc7_sem3_0 : DmaSem sig := 50
abbrev cc7_sem3_1 : DmaSem sig := 51

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S5000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S5000x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S5000x64 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

class Facts₀ : Prop where
  concatenates_S100000x64_S150000x64_S250000x64_d0 : Shape.Concatenates [S100000x64, S150000x64] S250000x64 0
  slices_S2x64x64_S1x64x64_0_0_0 : S2x64x64.Slices ![0, 0, 0] S1x64x64
  shapeCasts_S1x64x64_S64x64 : S1x64x64.ShapeCasts S64x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S1000000x1_S1000000x64_0_1 : S1000000x1.BroadcastsInDim S1000000x64 (![0, 1] : Fin 2 → Fin S1000000x64.rank)
  bcast_S_S250000x64 : S_.BroadcastsInDim S250000x64 (![] : Fin 0 → Fin S250000x64.rank)
  reduces_S5000x64_S5000 : S5000x64.Reduces [1] S5000
  shapeCasts_S5000_S5000x1 : S5000.ShapeCasts S5000x1
  broadcasts_S5000x1_S5000x64 : S5000x1.Broadcasts S5000x64
  slices_S250000x64_S100000x64_0_0 : S250000x64.Slices ![0, 0] S100000x64
  slices_S250000x64_S150000x64_100000_0 : S250000x64.Slices ![100000, 0] S150000x64
  slices_S2x64x64_S1x64x64_1_0_0 : S2x64x64.Slices ![1, 0, 0] S1x64x64
  bcast_S_S100000x64 : S_.BroadcastsInDim S100000x64 (![] : Fin 0 → Fin S100000x64.rank)
  dot_S5000x64_S64x64_S5000x64_1_0_0_1_n_n_wf : DotDims.WF S5000x64 S64x64 S5000x64 [1] [0] [0] [1] [] []
  gather_S250000x64_S1000000x1_S1000000x64_1_0_n_n_0_1_164_wf : GatherDims.WF S250000x64 S1000000x1 S1000000x64 [1] [0] [] [0] [] 1 ![1, 64]
  scatter_S250000x64_S1000000x1_S1000000x64_1_0_0_1_wf : ScatterDims.WF S250000x64 S1000000x1 S1000000x64 [1] [0] [0] 1
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S250000x64.size a
  hwx0_0 : ∀ i : grid0.Coords, EltTy.bits .f32 = 32 ∨ (Rect.block (s := S250000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S250000x64.size a
  hwx0_2 : ∀ i : grid0.Coords, EltTy.bits .f32 = 32 ∨ (Rect.block (s := S250000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S250000x64.size a
  hwx1_0 : ∀ i : grid1.Coords, EltTy.bits .f32 = 32 ∨ (Rect.block (s := S250000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S250000x64.size a
  hwx1_1 : ∀ i : grid1.Coords, EltTy.bits .f32 = 32 ∨ (Rect.block (s := S250000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S250000x64.size a
  hwx1_2 : ∀ i : grid1.Coords, EltTy.bits .f32 = 32 ∨ (Rect.block (s := S250000x64) S5000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S250000x64.size a
  hwx1_3 : ∀ i : grid1.Coords, EltTy.bits .f32 = 32 ∨ (Rect.block (s := S250000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S250000x64.size a
  hwx2_0 : ∀ i : grid2.Coords, EltTy.bits .f32 = 32 ∨ (Rect.block (s := S250000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S250000x64.size a
  hwx2_2 : ∀ i : grid2.Coords, EltTy.bits .f32 = 32 ∨ (Rect.block (s := S250000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S250000x64.size a
  hwx3_0 : ∀ i : grid3.Coords, EltTy.bits .f32 = 32 ∨ (Rect.block (s := S250000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S250000x64.size a
  hwx3_1 : ∀ i : grid3.Coords, EltTy.bits .f32 = 32 ∨ (Rect.block (s := S250000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S250000x64.size a
  hwx3_2 : ∀ i : grid3.Coords, EltTy.bits .f32 = 32 ∨ (Rect.block (s := S250000x64) S5000x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S250000x64.size a
  hwx3_3 : ∀ i : grid3.Coords, EltTy.bits .f32 = 32 ∨ (Rect.block (s := S250000x64) S5000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S100000x64.size a
  hwx4_2 : ∀ i : grid4.Coords, EltTy.bits .f32 = 32 ∨ (Rect.block (s := S100000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S100000x64.size a
  hwx5_1 : ∀ i : grid5.Coords, EltTy.bits .f32 = 32 ∨ (Rect.block (s := S100000x64) S5000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S100000x64.size a
  hwx5_2 : ∀ i : grid5.Coords, EltTy.bits .f32 = 32 ∨ (Rect.block (s := S100000x64) S5000x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x64.size a ≤ S100000x64.size a
  hwx5_3 : ∀ i : grid5.Coords, EltTy.bits .f32 = 32 ∨ (Rect.block (s := S100000x64) S5000x64.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S100000x64.size a
  hwx6_0 : ∀ i : grid6.Coords, EltTy.bits .f32 = 32 ∨ (Rect.block (s := S100000x64) S5000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x64.size a ≤ S100000x64.size a
  hwx6_2 : ∀ i : grid6.Coords, EltTy.bits .f32 = 32 ∨ (Rect.block (s := S100000x64) S5000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S100000x64.size a
  hwx7_0 : ∀ i : grid7.Coords, EltTy.bits .f32 = 32 ∨ (Rect.block (s := S100000x64) S5000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x64.size a ≤ S100000x64.size a
  hwx7_1 : ∀ i : grid7.Coords, EltTy.bits .f32 = 32 ∨ (Rect.block (s := S100000x64) S5000x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x64.size a ≤ S100000x64.size a
  hwx7_2 : ∀ i : grid7.Coords, EltTy.bits .f32 = 32 ∨ (Rect.block (s := S100000x64) S5000x64.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x64.size a ≤ S100000x64.size a
  hwx7_3 : ∀ i : grid7.Coords, EltTy.bits .f32 = 32 ∨ (Rect.block (s := S100000x64) S5000x64.size (cc7_transform_3 i) (hinb7_3 i)).WholeWords (EltTy.packing .f32)

variable [Facts₀]

def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S250000x64_S1000000x1_S1000000x64_1_0_n_n_0_1_164 : GatherDims S250000x64 S1000000x1 S1000000x64 where
  offsetDims := [1]
  collapsedSliceDims := [0]
  operandBatchingDims := []
  startIndicesBatchingDims := []
  startIndexMap := [0]
  indexVectorDim := 1
  sliceSizes := ![1, 64]
  wf := gather_S250000x64_S1000000x1_S1000000x64_1_0_n_n_0_1_164_wf
def scatter_S250000x64_S1000000x1_S1000000x64_1_0_0_1 : ScatterDims S250000x64 S1000000x1 S1000000x64 where
  updateWindowDims := [1]
  insertedWindowDims := [0]
  scatterDimsToOperandDims := [0]
  indexVectorDim := 1
  wf := scatter_S250000x64_S1000000x1_S1000000x64_1_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf

abbrev win0_0 : Pipeline.Window sig grid0 :=
  Pipeline.Window.ofSpec (Memref.whole main_v1) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v17) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18_0) S5000x64.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v18_1) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v21) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v23) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v24) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v37) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v18_1) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v38_0) S5000x64.size cc3_transform_2 reads3_2 true false 2 stage3_2 sem3_2
    hrank3 hreads3_2 hinb3_2 nbuf3_2 (Memref.isWhole_whole _) hwx3_2 hstage3_2

abbrev win3_3 : Pipeline.Window sig grid3 :=
  Pipeline.Window.ofSpec (Memref.whole main_v38_1) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_arg0) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v42) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v43) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v56) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg0) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v57_0) S5000x64.size cc5_transform_2 reads5_2 true false 2 stage5_2 sem5_2
    hrank5 hreads5_2 hinb5_2 nbuf5_2 (Memref.isWhole_whole _) hwx5_2 hstage5_2

abbrev win5_3 : Pipeline.Window sig grid5 :=
  Pipeline.Window.ofSpec (Memref.whole main_v57_1) S5000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v57_0) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v59) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v60) S5000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v73) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v57_1) S5000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v74_0) S5000x64.size cc7_transform_2 reads7_2 true false 2 stage7_2 sem7_2
    hrank7 hreads7_2 hinb7_2 nbuf7_2 (Memref.isWhole_whole _) hwx7_2 hstage7_2

abbrev win7_3 : Pipeline.Window sig grid7 :=
  Pipeline.Window.ofSpec (Memref.whole main_v74_1) S5000x64.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S100000x64 : Shape := ⟨2, ![100000, 64]⟩
abbrev S150000x64 : Shape := ⟨2, ![150000, 64]⟩
abbrev S2x64x64 : Shape := ⟨3, ![2, 64, 64]⟩
abbrev S1000000 : Shape := ⟨1, ![1000000]⟩
abbrev S250000x64 : Shape := ⟨2, ![250000, 64]⟩
abbrev S1x64x64 : Shape := ⟨3, ![1, 64, 64]⟩
abbrev S64x64 : Shape := ⟨2, ![64, 64]⟩
abbrev S1000000x1 : Shape := ⟨2, ![1000000, 1]⟩
abbrev S_ : Shape := ⟨0, ![]⟩
abbrev S1000000x64 : Shape := ⟨2, ![1000000, 64]⟩
abbrev S250000 : Shape := ⟨1, ![250000]⟩
abbrev S250000x1 : Shape := ⟨2, ![250000, 1]⟩
abbrev S100000 : Shape := ⟨1, ![100000]⟩
abbrev S100000x1 : Shape := ⟨2, ![100000, 1]⟩

abbrev nBuf : Space → Nat
  | .hbm => 165
  | .vmem => 0
  | .smem => 0
  | _ => 0

abbrev hbmTy0_0 (i : Nat) : BufTy := match i % 128 with
  | 0 => ⟨S100000x64, .f32⟩
  | 1 => ⟨S150000x64, .f32⟩
  | 2 => ⟨S2x64x64, .f32⟩
  | 3 => ⟨S2x64x64, .f32⟩
  | 4 => ⟨S1000000, .i32⟩
  | 5 => ⟨S1000000, .i32⟩
  | 6 => ⟨S1000000, .f32⟩
  | 7 => ⟨S1000000, .i32⟩
  | 8 => ⟨S1000000, .i32⟩
  | 9 => ⟨S1000000, .f32⟩
  | 10 => ⟨S250000x64, .f32⟩
  | 11 => ⟨S250000x64, .f32⟩
  | 12 => ⟨S1x64x64, .f32⟩
  | 13 => ⟨S64x64, .f32⟩
  | 14 => ⟨S250000x64, .f32⟩
  | 15 => ⟨S1000000x1, .f32⟩
  | 16 => ⟨S_, .i32⟩
  | 17 => ⟨S1000000, .i32⟩
  | 18 => ⟨S1000000, .i1⟩
  | 19 => ⟨S_, .i32⟩
  | 20 => ⟨S1000000, .i32⟩
  | 21 => ⟨S1000000, .i32⟩
  | 22 => ⟨S1000000, .i32⟩
  | 23 => ⟨S1000000x1, .i32⟩
  | 24 => ⟨S1000000x64, .f32⟩
  | 25 => ⟨S1000000x64, .f32⟩
  | 26 => ⟨S1000000x64, .f32⟩
  | 27 => ⟨S_, .f32⟩
  | 28 => ⟨S250000x64, .f32⟩
  | 29 => ⟨S1000000x1, .i32⟩
  | 30 => ⟨S250000x64, .f32⟩
  | 31 => ⟨S_, .f32⟩
  | 32 => ⟨S250000x64, .f32⟩
  | 33 => ⟨S250000x64, .i1⟩
  | 34 => ⟨S_, .f32⟩
  | 35 => ⟨S250000x64, .f32⟩
  | 36 => ⟨S250000x64, .f32⟩
  | 37 => ⟨S250000x64, .f32⟩
  | 38 => ⟨S100000x64, .f32⟩
  | 39 => ⟨S150000x64, .f32⟩
  | 40 => ⟨S250000x64, .f32⟩
  | 41 => ⟨S_, .f32⟩
  | 42 => ⟨S250000, .f32⟩
  | 43 => ⟨S250000x1, .f32⟩
  | 44 => ⟨S250000x1, .f32⟩
  | 45 => ⟨S_, .f32⟩
  | 46 => ⟨S250000x1, .f32⟩
  | 47 => ⟨S250000x1, .f32⟩
  | 48 => ⟨S250000x64, .f32⟩
  | 49 => ⟨S250000x64, .f32⟩
  | 50 => ⟨S250000x64, .f32⟩
  | 51 => ⟨S1x64x64, .f32⟩
  | 52 => ⟨S64x64, .f32⟩
  | 53 => ⟨S250000x64, .f32⟩
  | 54 => ⟨S1000000x1, .f32⟩
  | 55 => ⟨S_, .i32⟩
  | 56 => ⟨S1000000, .i32⟩
  | 57 => ⟨S1000000, .i1⟩
  | 58 => ⟨S_, .i32⟩
  | 59 => ⟨S1000000, .i32⟩
  | 60 => ⟨S1000000, .i32⟩
  | 61 => ⟨S1000000, .i32⟩
  | 62 => ⟨S1000000x1, .i32⟩
  | 63 => ⟨S1000000x64, .f32⟩
  | 64 => ⟨S1000000x64, .f32⟩
  | 65 => ⟨S1000000x64, .f32⟩
  | 66 => ⟨S_, .f32⟩
  | 67 => ⟨S250000x64, .f32⟩
  | 68 => ⟨S1000000x1, .i32⟩
  | 69 => ⟨S250000x64, .f32⟩
  | 70 => ⟨S_, .f32⟩
  | 71 => ⟨S250000x64, .f32⟩
  | 72 => ⟨S250000x64, .i1⟩
  | 73 => ⟨S_, .f32⟩
  | 74 => ⟨S250000x64, .f32⟩
  | 75 => ⟨S250000x64, .f32⟩
  | 76 => ⟨S250000x64, .f32⟩
  | 77 => ⟨S100000x64, .f32⟩
  | 78 => ⟨S150000x64, .f32⟩
  | 79 => ⟨S250000x64, .f32⟩
  | 80 => ⟨S_, .f32⟩
  | 81 => ⟨S250000, .f32⟩
  | 82 => ⟨S250000x1, .f32⟩
  | 83 => ⟨S250000x1, .f32⟩
  | 84 => ⟨S_, .f32⟩
  | 85 => ⟨S250000x1, .f32⟩
  | 86 => ⟨S250000x1, .f32⟩
  | 87 => ⟨S250000x64, .f32⟩
  | 88 => ⟨S250000x64, .f32⟩
  | 89 => ⟨S250000x64, .f32⟩
  | 90 => ⟨S250000x64, .f32⟩
  | 91 => ⟨S1x64x64, .f32⟩
  | 92 => ⟨S64x64, .f32⟩
  | 93 => ⟨S100000x64, .f32⟩
  | 94 => ⟨S1000000x1, .f32⟩
  | 95 => ⟨S_, .i32⟩
  | 96 => ⟨S1000000, .i32⟩
  | 97 => ⟨S1000000, .i1⟩
  | 98 => ⟨S_, .i32⟩
  | 99 => ⟨S1000000, .i32⟩
  | 100 => ⟨S1000000, .i32⟩
  | 101 => ⟨S1000000, .i32⟩
  | 102 => ⟨S1000000x1, .i32⟩
  | 103 => ⟨S1000000x64, .f32⟩
  | 104 => ⟨S1000000x64, .f32⟩
  | 105 => ⟨S1000000x64, .f32⟩
  | 106 => ⟨S_, .f32⟩
  | 107 => ⟨S100000x64, .f32⟩
  | 108 => ⟨S1000000x1, .i32⟩
  | 109 => ⟨S100000x64, .f32⟩
  | 110 => ⟨S_, .f32⟩
  | 111 => ⟨S100000x64, .f32⟩
  | 112 => ⟨S100000x64, .i1⟩
  | 113 => ⟨S_, .f32⟩
  | 114 => ⟨S100000x64, .f32⟩
  | 115 => ⟨S100000x64, .f32⟩
  | 116 => ⟨S100000x64, .f32⟩
  | 117 => ⟨S100000x64, .f32⟩
  | 118 => ⟨S_, .f32⟩
  | 119 => ⟨S100000, .f32⟩
  | 120 => ⟨S100000x1, .f32⟩
  | 121 => ⟨S100000x1, .f32⟩
  | 122 => ⟨S_, .f32⟩
  | 123 => ⟨S100000x1, .f32⟩
  | 124 => ⟨S100000x1, .f32⟩
  | 125 => ⟨S100000x64, .f32⟩
  | 126 => ⟨S100000x64, .f32⟩
  | 127 => ⟨S1x64x64, .f32⟩
  | _ => ⟨S100000x64, .f32⟩

abbrev hbmTy0_1 (i : Nat) : BufTy := match i % 128 with
  | 0 => ⟨S64x64, .f32⟩
  | 1 => ⟨S100000x64, .f32⟩
  | 2 => ⟨S1000000x1, .f32⟩
  | 3 => ⟨S_, .i32⟩
  | 4 => ⟨S1000000, .i32⟩
  | 5 => ⟨S1000000, .i1⟩
  | 6 => ⟨S_, .i32⟩
  | 7 => ⟨S1000000, .i32⟩
  | 8 => ⟨S1000000, .i32⟩
  | 9 => ⟨S1000000, .i32⟩
  | 10 => ⟨S1000000x1, .i32⟩
  | 11 => ⟨S1000000x64, .f32⟩
  | 12 => ⟨S1000000x64, .f32⟩
  | 13 => ⟨S1000000x64, .f32⟩
  | 14 => ⟨S_, .f32⟩
  | 15 => ⟨S100000x64, .f32⟩
  | 16 => ⟨S1000000x1, .i32⟩
  | 17 => ⟨S100000x64, .f32⟩
  | 18 => ⟨S_, .f32⟩
  | 19 => ⟨S100000x64, .f32⟩
  | 20 => ⟨S100000x64, .i1⟩
  | 21 => ⟨S_, .f32⟩
  | 22 => ⟨S100000x64, .f32⟩
  | 23 => ⟨S100000x64, .f32⟩
  | 24 => ⟨S100000x64, .f32⟩
  | 25 => ⟨S100000x64, .f32⟩
  | 26 => ⟨S_, .f32⟩
  | 27 => ⟨S100000, .f32⟩
  | 28 => ⟨S100000x1, .f32⟩
  | 29 => ⟨S100000x1, .f32⟩
  | 30 => ⟨S_, .f32⟩
  | 31 => ⟨S100000x1, .f32⟩
  | 32 => ⟨S100000x1, .f32⟩
  | 33 => ⟨S100000x64, .f32⟩
  | 34 => ⟨S100000x64, .f32⟩
  | 35 => ⟨S100000x64, .f32⟩
  | 36 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_c_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_1 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call1_v0 : Ref sig .tc := ⟨.hbm, 40, rfl⟩
abbrev main_call1_cst : Ref sig .tc := ⟨.hbm, 41, rfl⟩
abbrev main_call1_v1 : Ref sig .tc := ⟨.hbm, 42, rfl⟩
abbrev main_call1_v2 : Ref sig .tc := ⟨.hbm, 43, rfl⟩
abbrev main_v25 : Ref sig .tc := ⟨.hbm, 44, rfl⟩
abbrev main_cst_3 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_4 : Ref sig .tc := ⟨.hbm, 55, rfl⟩
abbrev main_v35 : Ref sig .tc := ⟨.hbm, 56, rfl⟩
abbrev main_v36 : Ref sig .tc := ⟨.hbm, 57, rfl⟩
abbrev main_c_5 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_6 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_7 : Ref sig .tc := ⟨.hbm, 70, rfl⟩
abbrev main_v47 : Ref sig .tc := ⟨.hbm, 71, rfl⟩
abbrev main_v48 : Ref sig .tc := ⟨.hbm, 72, rfl⟩
abbrev main_cst_8 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_call3_v0 : Ref sig .tc := ⟨.hbm, 79, rfl⟩
abbrev main_call3_cst : Ref sig .tc := ⟨.hbm, 80, rfl⟩
abbrev main_call3_v1 : Ref sig .tc := ⟨.hbm, 81, rfl⟩
abbrev main_call3_v2 : Ref sig .tc := ⟨.hbm, 82, rfl⟩
abbrev main_v54 : Ref sig .tc := ⟨.hbm, 83, rfl⟩
abbrev main_cst_9 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_c_10 : Ref sig .tc := ⟨.hbm, 95, rfl⟩
abbrev main_v65 : Ref sig .tc := ⟨.hbm, 96, rfl⟩
abbrev main_v66 : Ref sig .tc := ⟨.hbm, 97, rfl⟩
abbrev main_c_11 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_12 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_13 : Ref sig .tc := ⟨.hbm, 110, rfl⟩
abbrev main_v77 : Ref sig .tc := ⟨.hbm, 111, rfl⟩
abbrev main_v78 : Ref sig .tc := ⟨.hbm, 112, rfl⟩
abbrev main_cst_14 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_call5_v0 : Ref sig .tc := ⟨.hbm, 117, rfl⟩
abbrev main_call5_cst : Ref sig .tc := ⟨.hbm, 118, rfl⟩
abbrev main_call5_v1 : Ref sig .tc := ⟨.hbm, 119, rfl⟩
abbrev main_call5_v2 : Ref sig .tc := ⟨.hbm, 120, rfl⟩
abbrev main_v82 : Ref sig .tc := ⟨.hbm, 121, rfl⟩
abbrev main_cst_15 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_c_16 : Ref sig .tc := ⟨.hbm, 131, rfl⟩
abbrev main_v91 : Ref sig .tc := ⟨.hbm, 132, rfl⟩
abbrev main_v92 : Ref sig .tc := ⟨.hbm, 133, rfl⟩
abbrev main_c_17 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_cst_18 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_cst_19 : Ref sig .tc := ⟨.hbm, 146, rfl⟩
abbrev main_v103 : Ref sig .tc := ⟨.hbm, 147, rfl⟩
abbrev main_v104 : Ref sig .tc := ⟨.hbm, 148, rfl⟩
abbrev main_cst_20 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_call7_v0 : Ref sig .tc := ⟨.hbm, 153, rfl⟩
abbrev main_call7_cst : Ref sig .tc := ⟨.hbm, 154, rfl⟩
abbrev main_call7_v1 : Ref sig .tc := ⟨.hbm, 155, rfl⟩
abbrev main_call7_v2 : Ref sig .tc := ⟨.hbm, 156, rfl⟩
abbrev main_v108 : Ref sig .tc := ⟨.hbm, 157, rfl⟩
abbrev main_cst_21 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩

abbrev nD : Nat := 1
abbrev τ : Topo := Topo.v7x

variable {F : FTy → Type} [FloatOps F]

class Facts₀ : Prop where
  concatenates_S100000x64_S150000x64_S250000x64_d0 : Shape.Concatenates [S100000x64, S150000x64] S250000x64 0
  slices_S2x64x64_S1x64x64_0_0_0 : S2x64x64.Slices ![0, 0, 0] S1x64x64
  shapeCasts_S1x64x64_S64x64 : S1x64x64.ShapeCasts S64x64
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S1000000x1_S1000000x64_0_1 : S1000000x1.BroadcastsInDim S1000000x64 (![0, 1] : Fin 2 → Fin S1000000x64.rank)
  bcast_S_S250000x64 : S_.BroadcastsInDim S250000x64 (![] : Fin 0 → Fin S250000x64.rank)
  slices_S250000x64_S100000x64_0_0 : S250000x64.Slices ![0, 0] S100000x64
  slices_S250000x64_S150000x64_100000_0 : S250000x64.Slices ![100000, 0] S150000x64
  reducesTo_S250000x64_S250000_d1 : S250000x64.ReducesTo [1] S250000
  h_S_ : 0 < S_.numel
  bcast_S250000_S250000x1_0 : S250000.BroadcastsInDim S250000x1 (![0] : Fin 1 → Fin S250000x1.rank)
  bcast_S_S250000x1 : S_.BroadcastsInDim S250000x1 (![] : Fin 0 → Fin S250000x1.rank)
  bcast_S250000x1_S250000x64_0_1 : S250000x1.BroadcastsInDim S250000x64 (![0, 1] : Fin 2 → Fin S250000x64.rank)
  slices_S2x64x64_S1x64x64_1_0_0 : S2x64x64.Slices ![1, 0, 0] S1x64x64
  bcast_S_S100000x64 : S_.BroadcastsInDim S100000x64 (![] : Fin 0 → Fin S100000x64.rank)
  reducesTo_S100000x64_S100000_d1 : S100000x64.ReducesTo [1] S100000
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  dot_S250000x64_S64x64_S250000x64_1_0_0_1_n_n_wf : DotDims.WF S250000x64 S64x64 S250000x64 [1] [0] [0] [1] [] []
  gather_S250000x64_S1000000x1_S1000000x64_1_0_n_n_0_1_164_wf : GatherDims.WF S250000x64 S1000000x1 S1000000x64 [1] [0] [] [0] [] 1 ![1, 64]
  scatter_S250000x64_S1000000x1_S1000000x64_1_0_0_1_wf : ScatterDims.WF S250000x64 S1000000x1 S1000000x64 [1] [0] [0] 1
  dot_S100000x64_S64x64_S100000x64_1_0_0_1_n_n_wf : DotDims.WF S100000x64 S64x64 S100000x64 [1] [0] [0] [1] [] []
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1

variable [Facts₀]

def dot_S250000x64_S64x64_S250000x64_1_0_0_1_n_n : DotDims S250000x64 S64x64 S250000x64 where
  lhsContracting := [1]
  rhsContracting := [0]
  lhsNonContracting := [0]
  rhsNonContracting := [1]
  lhsBatch := []
  rhsBatch := []
  wf := dot_S250000x64_S64x64_S250000x64_1_0_0_1_n_n_wf
def gather_S250000x64_S1000000x1_S1000000x64_1_0_n_n_0_1_164 : GatherDims S250000x64 S1000000x1 S1000000x64 where
  offsetDims := [1]
  collapsedSliceDims := [0]
  operandBatchingDims := []
  startIndicesBatchingDims := []
  startIndexMap := [0]
  indexVectorDim := 1
  sliceSizes := ![1, 64]
  wf := gather_S250000x64_S1000000x1_S1000000x64_1_0_n_n_0_1_164_wf
def scatter_S250000x64_S1000000x1_S1000000x64_1_0_0_1 : ScatterDims S250000x64 S1000000x1 S1000000x64 where
  updateWindowDims := [1]
  insertedWindowDims := [0]
  scatterDimsToOperandDims := [0]
  indexVectorDim := 1
  wf := scatter_S250000x64_S1000000x1_S1000000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf

class Facts : Prop extends Facts₀ where

variable [Facts]
-- ==== Proof.RunW.lean ====
/-
  The run of the whole program with its two results named.

  @main is eight tiled regions among stretches of array operations.  Every weakly fair execution terminates, nothing
  faulting, and in the final state every buffer holds the last term of the fold of boundary contents (launch memory,
  then alternately "after this stretch's operations" and "after this region's write-backs").  Here that is kept for
  the two result buffers, beside the arguments ending as launched.
-/
import proofs.«114183_j72945724555834_1_alg».proof.Proof.Gen.KernelIdeal.Frame

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates with the two result buffers at the last boundary contents and the
    arguments as launched. -/
theorem run_last : θ_run defs (onTc (τ := τ) (main (F := F))) ⟨m, fun _ => 0, ρ⟩ (fun r => ∀ c : Dev nD,
      r.2.mem ((c.tc : Thread nD τ).loc main_v38_1) = W16 m ρ c (Proc.devRef .tc main_v38_1)
      ∧ r.2.mem ((c.tc : Thread nD τ).loc main_v74_1) = W16 m ρ c (Proc.devRef .tc main_v74_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v38_1 (by decide)),
       h c _ (mem_uc main_v74_1 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c)⟩)

end Cert.KernelIdeal.Val

end
-- ==== Proof.Keep.lean ====
/-
  Which buffers survive which parts of @main.

  @main alternates stretches of array operations with tiled regions.  A stretch leaves every buffer it does not write
  as it was; a region leaves every buffer that is not one of its windows' arrays as it was, and an array it only reads
  through an input window as well.  From these two facts: each argument is still as launched wherever a later stretch
  reads it, the first term of each running sum reaches the region that adds to it, and the first result, once
  written, stays to the end.
-/
import proofs.«114183_j72945724555834_1_alg».proof.Proof.Gen.KernelIdeal.Frame

set_option maxRecDepth 16384

noncomputable section

namespace Cert.KernelIdeal.Val

open Cert.KernelIdeal Cert.KernelIdeal.Gen
open Idealize.ShloMosaic Idealize.ShloMosaic.TcCoe Idealize.SL.Sem
open Idealize.ShloMosaic.Pipeline (Dat Cfg Window)

/-- A stretch of array operations leaves a buffer that none of them writes as it was. -/
macro "untouched_by " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

variable {F : FTy → Type} [FloatOps F]
variable (m : (ℓ : Loc nD τ sig) → Buf (Elt F) ℓ) (ρ : Dev nD → PrngReg)

/-- Argument 4 is still as launched at boundary 2: nothing before it writes the buffer. -/
theorem W2_arg4 (c : Dev nD) : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := by untouched_by hostOps0
    _ = m ((c : Thread nD τ).loc main_arg4) := rfl

/-- Argument 5 is still as launched at boundary 2: nothing before it writes the buffer. -/
theorem W2_arg5 (c : Dev nD) : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := by untouched_by hostOps0
    _ = m ((c : Thread nD τ).loc main_arg5) := rfl

/-- Argument 6 is still as launched at boundary 2: nothing before it writes the buffer. -/
theorem W2_arg6 (c : Dev nD) : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := by untouched_by hostOps0
    _ = m ((c : Thread nD τ).loc main_arg6) := rfl

/-- Argument 2 is still as launched at boundary 4: nothing before it writes the buffer. -/
theorem W4_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := by untouched_by hostOps1
    _ = W1 m ρ c (Proc.devRef .tc main_arg2) := W2_of_ne m ρ c main_arg2 (by decide)
    _ = W0 m ρ c (Proc.devRef .tc main_arg2) := by untouched_by hostOps0
    _ = m ((c : Thread nD τ).loc main_arg2) := rfl

/-- Argument 4 is still as launched at boundary 6: nothing before it writes the buffer. -/
theorem W6_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := by untouched_by hostOps2
    _ = W3 m ρ c (Proc.devRef .tc main_arg4) := W4_of_ne m ρ c main_arg4 (by decide)
    _ = W2 m ρ c (Proc.devRef .tc main_arg4) := by untouched_by hostOps1
    _ = W1 m ρ c (Proc.devRef .tc main_arg4) := W2_of_ne m ρ c main_arg4 (by decide)
    _ = W0 m ρ c (Proc.devRef .tc main_arg4) := by untouched_by hostOps0
    _ = m ((c : Thread nD τ).loc main_arg4) := rfl

/-- Argument 5 is still as launched at boundary 6: nothing before it writes the buffer. -/
theorem W6_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := by untouched_by hostOps2
    _ = W3 m ρ c (Proc.devRef .tc main_arg5) := W4_of_ne m ρ c main_arg5 (by decide)
    _ = W2 m ρ c (Proc.devRef .tc main_arg5) := by untouched_by hostOps1
    _ = W1 m ρ c (Proc.devRef .tc main_arg5) := W2_of_ne m ρ c main_arg5 (by decide)
    _ = W0 m ρ c (Proc.devRef .tc main_arg5) := by untouched_by hostOps0
    _ = m ((c : Thread nD τ).loc main_arg5) := rfl

/-- Argument 6 is still as launched at boundary 6: nothing before it writes the buffer. -/
theorem W6_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := by untouched_by hostOps2
    _ = W3 m ρ c (Proc.devRef .tc main_arg6) := W4_of_ne m ρ c main_arg6 (by decide)
    _ = W2 m ρ c (Proc.devRef .tc main_arg6) := by untouched_by hostOps1
    _ = W1 m ρ c (Proc.devRef .tc main_arg6) := W2_of_ne m ρ c main_arg6 (by decide)
    _ = W0 m ρ c (Proc.devRef .tc main_arg6) := by untouched_by hostOps0
    _ = m ((c : Thread nD τ).loc main_arg6) := rfl

/-- Argument 0 is still as launched at boundary 8: nothing before it writes the buffer. -/
theorem W8_arg0 (c : Dev nD) : W8 m ρ c (Proc.devRef .tc main_arg0) = m ((c : Thread nD τ).loc main_arg0) :=
  calc W8 m ρ c (Proc.devRef .tc main_arg0)
    _ = W7 m ρ c (Proc.devRef .tc main_arg0) := W8_of_ne m ρ c main_arg0 (by decide)
    _ = W6 m ρ c (Proc.devRef .tc main_arg0) := by untouched_by hostOps3
    _ = W5 m ρ c (Proc.devRef .tc main_arg0) := W6_of_ne m ρ c main_arg0 (by decide)
    _ = W4 m ρ c (Proc.devRef .tc main_arg0) := by untouched_by hostOps2
    _ = W3 m ρ c (Proc.devRef .tc main_arg0) := W4_of_ne m ρ c main_arg0 (by decide)
    _ = W2 m ρ c (Proc.devRef .tc main_arg0) := by untouched_by hostOps1
    _ = W1 m ρ c (Proc.devRef .tc main_arg0) := W2_of_ne m ρ c main_arg0 (by decide)
    _ = W0 m ρ c (Proc.devRef .tc main_arg0) := by untouched_by hostOps0
    _ = m ((c : Thread nD τ).loc main_arg0) := rfl

/-- Argument 0 is still as launched at boundary 9: nothing before it writes the buffer. -/
theorem W9_arg0 (c : Dev nD) : W9 m ρ c (Proc.devRef .tc main_arg0) = m ((c : Thread nD τ).loc main_arg0) :=
  calc W9 m ρ c (Proc.devRef .tc main_arg0)
    _ = W8 m ρ c (Proc.devRef .tc main_arg0) := by untouched_by hostOps4
    _ = W7 m ρ c (Proc.devRef .tc main_arg0) := W8_of_ne m ρ c main_arg0 (by decide)
    _ = W6 m ρ c (Proc.devRef .tc main_arg0) := by untouched_by hostOps3
    _ = W5 m ρ c (Proc.devRef .tc main_arg0) := W6_of_ne m ρ c main_arg0 (by decide)
    _ = W4 m ρ c (Proc.devRef .tc main_arg0) := by untouched_by hostOps2
    _ = W3 m ρ c (Proc.devRef .tc main_arg0) := W4_of_ne m ρ c main_arg0 (by decide)
    _ = W2 m ρ c (Proc.devRef .tc main_arg0) := by untouched_by hostOps1
    _ = W1 m ρ c (Proc.devRef .tc main_arg0) := W2_of_ne m ρ c main_arg0 (by decide)
    _ = W0 m ρ c (Proc.devRef .tc main_arg0) := by untouched_by hostOps0
    _ = m ((c : Thread nD τ).loc main_arg0) := rfl

/-- Argument 3 is still as launched at boundary 8: nothing before it writes the buffer. -/
theorem W8_arg3 (c : Dev nD) : W8 m ρ c (Proc.devRef .tc main_arg3) = m ((c : Thread nD τ).loc main_arg3) :=
  calc W8 m ρ c (Proc.devRef .tc main_arg3)
    _ = W7 m ρ c (Proc.devRef .tc main_arg3) := W8_of_ne m ρ c main_arg3 (by decide)
    _ = W6 m ρ c (Proc.devRef .tc main_arg3) := by untouched_by hostOps3
    _ = W5 m ρ c (Proc.devRef .tc main_arg3) := W6_of_ne m ρ c main_arg3 (by decide)
    _ = W4 m ρ c (Proc.devRef .tc main_arg3) := by untouched_by hostOps2
    _ = W3 m ρ c (Proc.devRef .tc main_arg3) := W4_of_ne m ρ c main_arg3 (by decide)
    _ = W2 m ρ c (Proc.devRef .tc main_arg3) := by untouched_by hostOps1
    _ = W1 m ρ c (Proc.devRef .tc main_arg3) := W2_of_ne m ρ c main_arg3 (by decide)
    _ = W0 m ρ c (Proc.devRef .tc main_arg3) := by untouched_by hostOps0
    _ = m ((c : Thread nD τ).loc main_arg3) := rfl

/-- Argument 7 is still as launched at boundary 10: nothing before it writes the buffer. -/
theorem W10_arg7 (c : Dev nD) : W10 m ρ c (Proc.devRef .tc main_arg7) = m ((c : Thread nD τ).loc main_arg7) :=
  calc W10 m ρ c (Proc.devRef .tc main_arg7)
    _ = W9 m ρ c (Proc.devRef .tc main_arg7) := W10_of_ne m ρ c main_arg7 (by decide)
    _ = W8 m ρ c (Proc.devRef .tc main_arg7) := by untouched_by hostOps4
    _ = W7 m ρ c (Proc.devRef .tc main_arg7) := W8_of_ne m ρ c main_arg7 (by decide)
    _ = W6 m ρ c (Proc.devRef .tc main_arg7) := by untouched_by hostOps3
    _ = W5 m ρ c (Proc.devRef .tc main_arg7) := W6_of_ne m ρ c main_arg7 (by decide)
    _ = W4 m ρ c (Proc.devRef .tc main_arg7) := by untouched_by hostOps2
    _ = W3 m ρ c (Proc.devRef .tc main_arg7) := W4_of_ne m ρ c main_arg7 (by decide)
    _ = W2 m ρ c (Proc.devRef .tc main_arg7) := by untouched_by hostOps1
    _ = W1 m ρ c (Proc.devRef .tc main_arg7) := W2_of_ne m ρ c main_arg7 (by decide)
    _ = W0 m ρ c (Proc.devRef .tc main_arg7) := by untouched_by hostOps0
    _ = m ((c : Thread nD τ).loc main_arg7) := rfl

/-- Argument 8 is still as launched at boundary 10: nothing before it writes the buffer. -/
theorem W10_arg8 (c : Dev nD) : W10 m ρ c (Proc.devRef .tc main_arg8) = m ((c : Thread nD τ).loc main_arg8) :=
  calc W10 m ρ c (Proc.devRef .tc main_arg8)
    _ = W9 m ρ c (Proc.devRef .tc main_arg8) := W10_of_ne m ρ c main_arg8 (by decide)
    _ = W8 m ρ c (Proc.devRef .tc main_arg8) := by untouched_by hostOps4
    _ = W7 m ρ c (Proc.devRef .tc main_arg8) := W8_of_ne m ρ c main_arg8 (by decide)
    _ = W6 m ρ c (Proc.devRef .tc main_arg8) := by untouched_by hostOps3
    _ = W5 m ρ c (Proc.devRef .tc main_arg8) := W6_of_ne m ρ c main_arg8 (by decide)
    _ = W4 m ρ c (Proc.devRef .tc main_arg8) := by untouched_by hostOps2
    _ = W3 m ρ c (Proc.devRef .tc main_arg8) := W4_of_ne m ρ c main_arg8 (by decide)
    _ = W2 m ρ c (Proc.devRef .tc main_arg8) := by untouched_by hostOps1
    _ = W1 m ρ c (Proc.devRef .tc main_arg8) := W2_of_ne m ρ c main_arg8 (by decide)
    _ = W0 m ρ c (Proc.devRef .tc main_arg8) := by untouched_by hostOps0
    _ = m ((c : Thread nD τ).loc main_arg8) := rfl

/-- Argument 9 is still as launched at boundary 10: nothing before it writes the buffer. -/
theorem W10_arg9 (c : Dev nD) : W10 m ρ c (Proc.devRef .tc main_arg9) = m ((c : Thread nD τ).loc main_arg9) :=
  calc W10 m ρ c (Proc.devRef .tc main_arg9)
    _ = W9 m ρ c (Proc.devRef .tc main_arg9) := W10_of_ne m ρ c main_arg9 (by decide)
    _ = W8 m ρ c (Proc.devRef .tc main_arg9) := by untouched_by hostOps4
    _ = W7 m ρ c (Proc.devRef .tc main_arg9) := W8_of_ne m ρ c main_arg9 (by decide)
    _ = W6 m ρ c (Proc.devRef .tc main_arg9) := by untouched_by hostOps3
    _ = W5 m ρ c (Proc.devRef .tc main_arg9) := W6_of_ne m ρ c main_arg9 (by decide)
    _ = W4 m ρ c (Proc.devRef .tc main_arg9) := by untouched_by hostOps2
    _ = W3 m ρ c (Proc.devRef .tc main_arg9) := W4_of_ne m ρ c main_arg9 (by decide)
    _ = W2 m ρ c (Proc.devRef .tc main_arg9) := by untouched_by hostOps1
    _ = W1 m ρ c (Proc.devRef .tc main_arg9) := W2_of_ne m ρ c main_arg9 (by decide)
    _ = W0 m ρ c (Proc.devRef .tc main_arg9) := by untouched_by hostOps0
    _ = m ((c : Thread nD τ).loc main_arg9) := rfl

/-- Argument 3 is still as launched at boundary 12: nothing before it writes the buffer. -/
theorem W12_arg3 (c : Dev nD) : W12 m ρ c (Proc.devRef .tc main_arg3) = m ((c : Thread nD τ).loc main_arg3) :=
  calc W12 m ρ c (Proc.devRef .tc main_arg3)
    _ = W11 m ρ c (Proc.devRef .tc main_arg3) := W12_of_ne m ρ c main_arg3 (by decide)
    _ = W10 m ρ c (Proc.devRef .tc main_arg3) := by untouched_by hostOps5
    _ = W9 m ρ c (Proc.devRef .tc main_arg3) := W10_of_ne m ρ c main_arg3 (by decide)
    _ = W8 m ρ c (Proc.devRef .tc main_arg3) := by untouched_by hostOps4
    _ = W7 m ρ c (Proc.devRef .tc main_arg3) := W8_of_ne m ρ c main_arg3 (by decide)
    _ = W6 m ρ c (Proc.devRef .tc main_arg3) := by untouched_by hostOps3
    _ = W5 m ρ c (Proc.devRef .tc main_arg3) := W6_of_ne m ρ c main_arg3 (by decide)
    _ = W4 m ρ c (Proc.devRef .tc main_arg3) := by untouched_by hostOps2
    _ = W3 m ρ c (Proc.devRef .tc main_arg3) := W4_of_ne m ρ c main_arg3 (by decide)
    _ = W2 m ρ c (Proc.devRef .tc main_arg3) := by untouched_by hostOps1
    _ = W1 m ρ c (Proc.devRef .tc main_arg3) := W2_of_ne m ρ c main_arg3 (by decide)
    _ = W0 m ρ c (Proc.devRef .tc main_arg3) := by untouched_by hostOps0
    _ = m ((c : Thread nD τ).loc main_arg3) := rfl

/-- Argument 7 is still as launched at boundary 14: nothing before it writes the buffer. -/
theorem W14_arg7 (c : Dev nD) : W14 m ρ c (Proc.devRef .tc main_arg7) = m ((c : Thread nD τ).loc main_arg7) :=
  calc W14 m ρ c (Proc.devRef .tc main_arg7)
    _ = W13 m ρ c (Proc.devRef .tc main_arg7) := W14_of_ne m ρ c main_arg7 (by decide)
    _ = W12 m ρ c (Proc.devRef .tc main_arg7) := by untouched_by hostOps6
    _ = W11 m ρ c (Proc.devRef .tc main_arg7) := W12_of_ne m ρ c main_arg7 (by decide)
    _ = W10 m ρ c (Proc.devRef .tc main_arg7) := by untouched_by hostOps5
    _ = W9 m ρ c (Proc.devRef .tc main_arg7) := W10_of_ne m ρ c main_arg7 (by decide)
    _ = W8 m ρ c (Proc.devRef .tc main_arg7) := by untouched_by hostOps4
    _ = W7 m ρ c (Proc.devRef .tc main_arg7) := W8_of_ne m ρ c main_arg7 (by decide)
    _ = W6 m ρ c (Proc.devRef .tc main_arg7) := by untouched_by hostOps3
    _ = W5 m ρ c (Proc.devRef .tc main_arg7) := W6_of_ne m ρ c main_arg7 (by decide)
    _ = W4 m ρ c (Proc.devRef .tc main_arg7) := by untouched_by hostOps2
    _ = W3 m ρ c (Proc.devRef .tc main_arg7) := W4_of_ne m ρ c main_arg7 (by decide)
    _ = W2 m ρ c (Proc.devRef .tc main_arg7) := by untouched_by hostOps1
    _ = W1 m ρ c (Proc.devRef .tc main_arg7) := W2_of_ne m ρ c main_arg7 (by decide)
    _ = W0 m ρ c (Proc.devRef .tc main_arg7) := by untouched_by hostOps0
    _ = m ((c : Thread nD τ).loc main_arg7) := rfl

/-- Argument 8 is still as launched at boundary 14: nothing before it writes the buffer. -/
theorem W14_arg8 (c : Dev nD) : W14 m ρ c (Proc.devRef .tc main_arg8) = m ((c : Thread nD τ).loc main_arg8) :=
  calc W14 m ρ c (Proc.devRef .tc main_arg8)
    _ = W13 m ρ c (Proc.devRef .tc main_arg8) := W14_of_ne m ρ c main_arg8 (by decide)
    _ = W12 m ρ c (Proc.devRef .tc main_arg8) := by untouched_by hostOps6
    _ = W11 m ρ c (Proc.devRef .tc main_arg8) := W12_of_ne m ρ c main_arg8 (by decide)
    _ = W10 m ρ c (Proc.devRef .tc main_arg8) := by untouched_by hostOps5
    _ = W9 m ρ c (Proc.devRef .tc main_arg8) := W10_of_ne m ρ c main_arg8 (by decide)
    _ = W8 m ρ c (Proc.devRef .tc main_arg8) := by untouched_by hostOps4
    _ = W7 m ρ c (Proc.devRef .tc main_arg8) := W8_of_ne m ρ c main_arg8 (by decide)
    _ = W6 m ρ c (Proc.devRef .tc main_arg8) := by untouched_by hostOps3
    _ = W5 m ρ c (Proc.devRef .tc main_arg8) := W6_of_ne m ρ c main_arg8 (by decide)
    _ = W4 m ρ c (Proc.devRef .tc main_arg8) := by untouched_by hostOps2
    _ = W3 m ρ c (Proc.devRef .tc main_arg8) := W4_of_ne m ρ c main_arg8 (by decide)
    _ = W2 m ρ c (Proc.devRef .tc main_arg8) := by untouched_by hostOps1
    _ = W1 m ρ c (Proc.devRef .tc main_arg8) := W2_of_ne m ρ c main_arg8 (by decide)
    _ = W0 m ρ c (Proc.devRef .tc main_arg8) := by untouched_by hostOps0
    _ = m ((c : Thread nD τ).loc main_arg8) := rfl

/-- Argument 9 is still as launched at boundary 14: nothing before it writes the buffer. -/
theorem W14_arg9 (c : Dev nD) : W14 m ρ c (Proc.devRef .tc main_arg9) = m ((c : Thread nD τ).loc main_arg9) :=
  calc W14 m ρ c (Proc.devRef .tc main_arg9)
    _ = W13 m ρ c (Proc.devRef .tc main_arg9) := W14_of_ne m ρ c main_arg9 (by decide)
    _ = W12 m ρ c (Proc.devRef .tc main_arg9) := by untouched_by hostOps6
    _ = W11 m ρ c (Proc.devRef .tc main_arg9) := W12_of_ne m ρ c main_arg9 (by decide)
    _ = W10 m ρ c (Proc.devRef .tc main_arg9) := by untouched_by hostOps5
    _ = W9 m ρ c (Proc.devRef .tc main_arg9) := W10_of_ne m ρ c main_arg9 (by decide)
    _ = W8 m ρ c (Proc.devRef .tc main_arg9) := by untouched_by hostOps4
    _ = W7 m ρ c (Proc.devRef .tc main_arg9) := W8_of_ne m ρ c main_arg9 (by decide)
    _ = W6 m ρ c (Proc.devRef .tc main_arg9) := by untouched_by hostOps3
    _ = W5 m ρ c (Proc.devRef .tc main_arg9) := W6_of_ne m ρ c main_arg9 (by decide)
    _ = W4 m ρ c (Proc.devRef .tc main_arg9) := by untouched_by hostOps2
    _ = W3 m ρ c (Proc.devRef .tc main_arg9) := W4_of_ne m ρ c main_arg9 (by decide)
    _ = W2 m ρ c (Proc.devRef .tc main_arg9) := by untouched_by hostOps1
    _ = W1 m ρ c (Proc.devRef .tc main_arg9) := W2_of_ne m ρ c main_arg9 (by decide)
    _ = W0 m ρ c (Proc.devRef .tc main_arg9) := by untouched_by hostOps0
    _ = m ((c : Thread nD τ).loc main_arg9) := rfl

/-- Argument 0 is still as launched at boundary 11: the fifth region reads it through an input window, which leaves the array as entered. -/
theorem W11_arg0 (c : Dev nD) : W11 m ρ c (Proc.devRef .tc main_arg0) = m ((c : Thread nD τ).loc main_arg0) :=
  calc W11 m ρ c (Proc.devRef .tc main_arg0)
    _ = W10 m ρ c (Proc.devRef .tc main_arg0) := by untouched_by hostOps5
    _ = W9 m ρ c (Proc.devRef .tc main_arg0) := (W10_arr m ρ c 0).trans (((dat4 (V9 m ρ) c).arrAt_in 0 rfl _).trans (A_eq4 (V9 m ρ) c 0))
    _ = W8 m ρ c (Proc.devRef .tc main_arg0) := by untouched_by hostOps4
    _ = W7 m ρ c (Proc.devRef .tc main_arg0) := W8_of_ne m ρ c main_arg0 (by decide)
    _ = W6 m ρ c (Proc.devRef .tc main_arg0) := by untouched_by hostOps3
    _ = W5 m ρ c (Proc.devRef .tc main_arg0) := W6_of_ne m ρ c main_arg0 (by decide)
    _ = W4 m ρ c (Proc.devRef .tc main_arg0) := by untouched_by hostOps2
    _ = W3 m ρ c (Proc.devRef .tc main_arg0) := W4_of_ne m ρ c main_arg0 (by decide)
    _ = W2 m ρ c (Proc.devRef .tc main_arg0) := by untouched_by hostOps1
    _ = W1 m ρ c (Proc.devRef .tc main_arg0) := W2_of_ne m ρ c main_arg0 (by decide)
    _ = W0 m ρ c (Proc.devRef .tc main_arg0) := by untouched_by hostOps0
    _ = m ((c : Thread nD τ).loc main_arg0) := rfl

/-- The concatenated inputs (the running sum's first term) survive the first region and the first aggregation. -/
theorem W3_v0 (c : Dev nD) : W3 m ρ c (Proc.devRef .tc main_v0) = W1 m ρ c (Proc.devRef .tc main_v0) :=
  calc W3 m ρ c (Proc.devRef .tc main_v0)
    _ = W2 m ρ c (Proc.devRef .tc main_v0) := by untouched_by hostOps1
    _ = W1 m ρ c (Proc.devRef .tc main_v0) := W2_of_ne m ρ c main_v0 (by decide)

/-- The first layer's running sum survives until the second post region is entered. -/
theorem W7_v18_1 (c : Dev nD) : W7 m ρ c (Proc.devRef .tc main_v18_1) = W4 m ρ c (Proc.devRef .tc main_v18_1) :=
  calc W7 m ρ c (Proc.devRef .tc main_v18_1)
    _ = W6 m ρ c (Proc.devRef .tc main_v18_1) := by untouched_by hostOps3
    _ = W5 m ρ c (Proc.devRef .tc main_v18_1) := W6_of_ne m ρ c main_v18_1 (by decide)
    _ = W4 m ρ c (Proc.devRef .tc main_v18_1) := by untouched_by hostOps2

/-- The first result, written by the fourth region, is never written again. -/
theorem W16_v38_1 (c : Dev nD) : W16 m ρ c (Proc.devRef .tc main_v38_1) = W8 m ρ c (Proc.devRef .tc main_v38_1) :=
  calc W16 m ρ c (Proc.devRef .tc main_v38_1)
    _ = W15 m ρ c (Proc.devRef .tc main_v38_1) := W16_of_ne m ρ c main_v38_1 (by decide)
    _ = W14 m ρ c (Proc.devRef .tc main_v38_1) := by untouched_by hostOps7
    _ = W13 m ρ c (Proc.devRef .tc main_v38_1) := W14_of_ne m ρ c main_v38_1 (by decide)
    _ = W12 m ρ c (Proc.devRef .tc main_v38_1) := by untouched_by hostOps6
    _ = W11 m ρ c (Proc.devRef .tc main_v38_1) := W12_of_ne m ρ c main_v38_1 (by decide)
    _ = W10 m ρ c (Proc.devRef .tc main_v38_1) := by untouched_by hostOps5
    _ = W9 m ρ c (Proc.devRef .tc main_v38_1) := W10_of_ne m ρ c main_v38_1 (by decide)
    _ = W8 m ρ c (Proc.devRef .tc main_v38_1) := by untouched_by hostOps4

/-- The social branch's first rectified layer survives the slicing of the second weight matrix. -/
theorem W13_v57_0 (c : Dev nD) : W13 m ρ c (Proc.devRef .tc main_v57_0) = W12 m ρ c (Proc.devRef .tc main_v57_0) :=
  calc W13 m ρ c (Proc.devRef .tc main_v57_0)
    _ = W12 m ρ c (Proc.devRef .tc main_v57_0) := by untouched_by hostOps6

/-- The social branch's running sum survives until the last region is entered. -/
theorem W15_v57_1 (c : Dev nD) : W15 m ρ c (Proc.devRef .tc main_v57_1) = W12 m ρ c (Proc.devRef .tc main_v57_1) :=
  calc W15 m ρ c (Proc.devRef .tc main_v57_1)
    _ = W14 m ρ c (Proc.devRef .tc main_v57_1) := by untouched_by hostOps7
    _ = W13 m ρ c (Proc.devRef .tc main_v57_1) := W14_of_ne m ρ c main_v57_1 (by decide)
    _ = W12 m ρ c (Proc.devRef .tc main_v57_1) := by untouched_by hostOps6

end Cert.KernelIdeal.Val

end
-- ==== Proof.LibMatmul.lean ====
/-
  A matrix product read at an entry.

  At the exact instance a matrix-unit product into a zero accumulator is, entry by entry, the textbook contraction:
  for an M x K left operand and a K x N right operand, entry (p, q) is the sum over k of lhs(p, k) * rhs(k, q)
  (`matmul_zero_plain_apply`); when the right operand is given as N x K and contracted along its second axis
  (a product with the transpose), entry (p, q) is the sum over k of lhs(p, k) * rhs(q, k) (`matmul_zero_nt_apply`).
  The dimension records are the ones with exactly those contracting and free axes and no batch axis.
-/
import Idealize.ShloMosaic.PureOps.Ideal.Laws
import Idealize.ShloMosaic.Lib.ValueIdx

noncomputable section

namespace Cert.MatmulAt

open Idealize.ShloMosaic Idealize.ShloMosaic.ValueIdx

/-- Rows times columns: contract the left operand's second axis with the right operand's first. -/
abbrev plainDims {M K N : ℕ} (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- Rows times rows: contract the second axis of both operands. -/
abbrev ntDims {M K N : ℕ} (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

theorem matmul_zero_plain_apply {M K N : ℕ} {φ₁ φ₂ : FTy}
    (wf : DotDims.WF ⟨2, ![M, K]⟩ ⟨2, ![K, N]⟩ ⟨2, ![M, N]⟩ [1] [0] [0] [1] [] [])
    (prec : Option ContractPrecision)
    (lhs : FVec Ideal ⟨2, ![M, K]⟩ φ₁) (rhs : FVec Ideal ⟨2, ![K, N]⟩ φ₂) (p : Fin M) (q : Fin N) :
    matmul (plainDims wf) prec lhs rhs (constant (F := Ideal) ⟨2, ![M, N]⟩ .f32 0x00000000#32) (ix2 p q)
      = ∑ k : Fin K, lhs (ix2 p k) * rhs (ix2 k q) := by
  simp only [matmul]
  rw [Ideal.matmul_constant_zero_apply, ← Equiv.sum_comp (contrEquiv1 (plainDims wf) K rfl rfl).symm]
  refine Finset.sum_congr rfl fun k _ => ?_
  have hk := contrEquiv1_symm_val (plainDims wf) K rfl rfl k
  have el : (plainDims wf).lhsIdx (ix2 p q) ((contrEquiv1 (plainDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((plainDims wf).lhsIdx_val_of_single rfl _ _).trans hk)
  have er : (plainDims wf).rhsIdx (ix2 p q) ((contrEquiv1 (plainDims wf) K rfl rfl).symm k) = ix2 k q :=
    funext fun a => Fin.ext (by
      match a with
      | ⟨0, _⟩ => exact ((plainDims wf).rhsIdx_val_of_single rfl _ _).trans hk
      | ⟨1, _⟩ =>
        unfold DotDims.rhsIdx
        split
        · rename_i hb; exact absurd hb List.not_mem_nil
        · split
          · rfl
          · rename_i hn; exact absurd (List.mem_singleton_self _) hn)
  rw [el, er]

theorem matmul_zero_nt_apply {M K N : ℕ} {φ₁ φ₂ : FTy}
    (wf : DotDims.WF ⟨2, ![M, K]⟩ ⟨2, ![N, K]⟩ ⟨2, ![M, N]⟩ [1] [1] [0] [0] [] [])
    (prec : Option ContractPrecision)
    (lhs : FVec Ideal ⟨2, ![M, K]⟩ φ₁) (rhs : FVec Ideal ⟨2, ![N, K]⟩ φ₂) (p : Fin M) (q : Fin N) :
    matmul (ntDims wf) prec lhs rhs (constant (F := Ideal) ⟨2, ![M, N]⟩ .f32 0x00000000#32) (ix2 p q)
      = ∑ k : Fin K, lhs (ix2 p k) * rhs (ix2 q k) := by
  simp only [matmul]
  rw [Ideal.matmul_constant_zero_apply, ← Equiv.sum_comp (contrEquiv1 (ntDims wf) K rfl rfl).symm]
  refine Finset.sum_congr rfl fun k _ => ?_
  have hk := contrEquiv1_symm_val (ntDims wf) K rfl rfl k
  have el : (ntDims wf).lhsIdx (ix2 p q) ((contrEquiv1 (ntDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((ntDims wf).lhsIdx_val_of_single rfl _ _).trans hk)
  have er : (ntDims wf).rhsIdx (ix2 p q) ((contrEquiv1 (ntDims wf) K rfl rfl).symm k) = ix2 q k :=
    funext fun a => Fin.ext (by
      match a with
      | ⟨0, _⟩ =>
        unfold DotDims.rhsIdx
        split
        · rename_i hb; exact absurd hb List.not_mem_nil
        · split
          · rfl
          · rename_i hn; exact absurd (List.mem_singleton_self _) hn
      | ⟨1, _⟩ => exact ((ntDims wf).rhsIdx_val_of_single rfl _ _).trans hk)
  rw [el, er]

end Cert.MatmulAt

end
-- ==== Proof.LibRank2.lean ====
/-
  Rank-two arrays read at an entry (p, q), for any sizes.

  * the host's matrix product of an M x K by a K x N matrix, at the exact instance, is at entry (p, q) the sum over k
    of lhs(p, k) * rhs(k, q) (`dotGeneral_plain_apply`);
  * two matrices laid side by side (joined along the columns) read at (p, q): the left one at (p, q) when q is one of
    its columns, the right one at (p, q - N₁) otherwise (`concat_cols_left`, `concat_cols_right`); stacked one above the
    other (joined along the rows): the upper one at (p, q), the lower one at (p - M₁, q) (`concat_rows_left`,
    `concat_rows_right`);
  * a length-n vector made a 1 x n row and repeated down M rows reads at (p, q) as the vector's entry q, in the host's
    two-step form (`rowBias_apply`) and in the vector unit's cast-then-broadcast form (`rowBias_vec_apply`);
  * the entrywise sum of two length-n vectors reshaped to a 1 x n row reads at (0, q) as the sum of the two entries q
    (`biasSumRow_apply`).
-/
import Idealize.ShloMosaic.Lib.KernelVsHost
import Idealize.ShloMosaic.Lib.ValueLayout
import proofs.«114183_j72945724555834_1_alg».proof.Proof.LibMatmul

noncomputable section

namespace Cert.Rank2

open Idealize.ShloMosaic Idealize.ShloMosaic.ValueIdx

variable {α : Type}

/-- The host's rows-times-columns product at entry (p, q): the plain contraction over k. -/
theorem dotGeneral_plain_apply {M K N : ℕ} {φ₁ φ₂ : FTy}
    (wf : DotDims.WF ⟨2, ![M, K]⟩ ⟨2, ![K, N]⟩ ⟨2, ![M, N]⟩ [1] [0] [0] [1] [] [])
    (prec : Option ContractPrecision)
    (lhs : FVec Ideal ⟨2, ![M, K]⟩ φ₁) (rhs : FVec Ideal ⟨2, ![K, N]⟩ φ₂) (p : Fin M) (q : Fin N) :
    Host.dotGeneral (Cert.MatmulAt.plainDims wf) prec lhs rhs (ix2 p q) = ∑ k : Fin K, lhs (ix2 p k) * rhs (ix2 k q) := by
  rw [← matmul_zero_eq_dotGeneral]
  exact Cert.MatmulAt.matmul_zero_plain_apply wf prec lhs rhs p q

/-- Side by side, a column of the left matrix. -/
theorem concat_cols_left {M N₁ N₂ N : ℕ} (x₁ : (⟨2, ![M, N₁]⟩ : Shape).Idx → α) (x₂ : (⟨2, ![M, N₂]⟩ : Shape).Idx → α)
    (h : Shape.Concatenates [(⟨2, ![M, N₁]⟩ : Shape), ⟨2, ![M, N₂]⟩] ⟨2, ![M, N]⟩ 1)
    (p : Fin M) (q : Fin N) (q₁ : Fin N₁) (hq : q₁.val = q.val) :
    concatenate ⟨2, ![M, N]⟩ 1 [⟨⟨2, ![M, N₁]⟩, x₁⟩, ⟨⟨2, ![M, N₂]⟩, x₂⟩] h (ix2 p q) = x₁ (ix2 p q₁) :=
  concatenate_pair_apply_left 1 x₁ x₂ h (ix2 p q) rfl (ix2 p q₁) fun b => match b with
    | ⟨0, _⟩ => rfl
    | ⟨1, _⟩ => hq

/-- Side by side, a column of the right matrix. -/
theorem concat_cols_right {M N₁ N₂ N : ℕ} (x₁ : (⟨2, ![M, N₁]⟩ : Shape).Idx → α) (x₂ : (⟨2, ![M, N₂]⟩ : Shape).Idx → α)
    (h : Shape.Concatenates [(⟨2, ![M, N₁]⟩ : Shape), ⟨2, ![M, N₂]⟩] ⟨2, ![M, N]⟩ 1)
    (p : Fin M) (q : Fin N) (q₂ : Fin N₂) (hq : q₂.val + N₁ = q.val) :
    concatenate ⟨2, ![M, N]⟩ 1 [⟨⟨2, ![M, N₁]⟩, x₁⟩, ⟨⟨2, ![M, N₂]⟩, x₂⟩] h (ix2 p q) = x₂ (ix2 p q₂) :=
  concatenate_pair_apply_right 1 x₁ x₂ h (ix2 p q) rfl rfl (ix2 p q₂)
    (fun b hb => match b, hb with
      | ⟨0, _⟩, _ => rfl
      | ⟨1, _⟩, hb => (hb (Fin.ext rfl)).elim)
    hq

/-- One above the other, a row of the upper matrix. -/
theorem concat_rows_left {M₁ M₂ M N : ℕ} (x₁ : (⟨2, ![M₁, N]⟩ : Shape).Idx → α) (x₂ : (⟨2, ![M₂, N]⟩ : Shape).Idx → α)
    (h : Shape.Concatenates [(⟨2, ![M₁, N]⟩ : Shape), ⟨2, ![M₂, N]⟩] ⟨2, ![M, N]⟩ 0)
    (p : Fin M) (q : Fin N) (p₁ : Fin M₁) (hp : p₁.val = p.val) :
    concatenate ⟨2, ![M, N]⟩ 0 [⟨⟨2, ![M₁, N]⟩, x₁⟩, ⟨⟨2, ![M₂, N]⟩, x₂⟩] h (ix2 p q) = x₁ (ix2 p₁ q) :=
  concatenate_pair_apply_left 0 x₁ x₂ h (ix2 p q) rfl (ix2 p₁ q) fun b => match b with
    | ⟨0, _⟩ => hp
    | ⟨1, _⟩ => rfl

/-- One above the other, a row of the lower matrix. -/
theorem concat_rows_right {M₁ M₂ M N : ℕ} (x₁ : (⟨2, ![M₁, N]⟩ : Shape).Idx → α) (x₂ : (⟨2, ![M₂, N]⟩ : Shape).Idx → α)
    (h : Shape.Concatenates [(⟨2, ![M₁, N]⟩ : Shape), ⟨2, ![M₂, N]⟩] ⟨2, ![M, N]⟩ 0)
    (p : Fin M) (q : Fin N) (p₂ : Fin M₂) (hp : p₂.val + M₁ = p.val) :
    concatenate ⟨2, ![M, N]⟩ 0 [⟨⟨2, ![M₁, N]⟩, x₁⟩, ⟨⟨2, ![M₂, N]⟩, x₂⟩] h (ix2 p q) = x₂ (ix2 p₂ q) :=
  concatenate_pair_apply_right 0 x₁ x₂ h (ix2 p q) rfl rfl (ix2 p₂ q)
    (fun b hb => match b, hb with
      | ⟨0, _⟩, hb => (hb (Fin.ext rfl)).elim
      | ⟨1, _⟩, _ => rfl)
    hp

/-- A vector as a 1 x n row, repeated down M rows (the host's two broadcasts): entry (p, q) is the vector's entry q. -/
theorem rowBias_apply {M n : ℕ} (b : (⟨1, ![n]⟩ : Shape).Idx → α)
    (h₁ : (⟨1, ![n]⟩ : Shape).BroadcastsInDim ⟨2, ![1, n]⟩ (![1] : Fin 1 → Fin 2))
    (h₂ : (⟨2, ![1, n]⟩ : Shape).BroadcastsInDim ⟨2, ![M, n]⟩ (![0, 1] : Fin 2 → Fin 2)) (p : Fin M) (q : Fin n) :
    broadcastInDim ⟨2, ![M, n]⟩ ![0, 1] h₂ (broadcastInDim ⟨2, ![1, n]⟩ ![1] h₁ b) (ix2 p q) = b (ix1 q) := by
  refine (broadcastInDim_apply ![0, 1] h₂ _ (ix2 p q) (ix2 (0 : Fin 1) q) fun a => ?_).trans
    (broadcastInDim_apply ![1] h₁ b (ix2 (0 : Fin 1) q) (ix1 q) fun a => ?_)
  · match a with
    | ⟨0, _⟩ => show (0 : ℕ) = if (1 : ℕ) = 1 then 0 else _; rw [if_pos rfl]
    | ⟨1, _⟩ =>
      show q.val = if n = 1 then 0 else q.val
      split
      · have := q.isLt; omega
      · rfl
  · match a with
    | ⟨0, _⟩ =>
      show q.val = if n = 1 then 0 else q.val
      split
      · have := q.isLt; omega
      · rfl

/-- A 1 x n row cast to its own shape and broadcast down M rows (the vector unit's form): entry (p, q) is the row's
    entry (0, q). -/
theorem rowBias_vec_apply {M n : ℕ} (v : (⟨2, ![1, n]⟩ : Shape).Idx → α)
    (hc : (⟨2, ![1, n]⟩ : Shape).ShapeCasts ⟨2, ![1, n]⟩) (hb : (⟨2, ![1, n]⟩ : Shape).Broadcasts ⟨2, ![M, n]⟩)
    (p : Fin M) (q : Fin n) :
    broadcastTo ⟨2, ![M, n]⟩ (shapeCast ⟨2, ![1, n]⟩ v hc) hb (ix2 p q) = v (ix2 (0 : Fin 1) q) := by
  rw [shapeCast_self]
  refine broadcastTo_apply v hb (ix2 p q) (ix2 (0 : Fin 1) q) fun a => ?_
  match a with
  | ⟨0, _⟩ => show (0 : ℕ) = if (1 : ℕ) = 1 then 0 else _; rw [if_pos rfl]
  | ⟨1, _⟩ =>
    show q.val = if n = 1 then 0 else q.val
    split
    · have := q.isLt; omega
    · rfl

/-- The entrywise sum of two vectors, reshaped to a 1 x n row, at (0, q). -/
theorem biasSumRow_apply {n : ℕ} {φ : FTy} (b₁ b₂ : FVec Ideal ⟨1, ![n]⟩ φ)
    (h : (⟨1, ![n]⟩ : Shape).ShapeCasts ⟨2, ![1, n]⟩) (u : Fin 1) (q : Fin n) :
    shapeCast ⟨2, ![1, n]⟩ (addf b₁ b₂) h (ix2 u q) = b₁ (ix1 q) + b₂ (ix1 q) :=
  shapeCast_a_1a_apply (addf b₁ b₂) h u q

end Cert.Rank2

end
-- ==== Proof.LibRowReduce.lean ====
/-
  Reductions along the rows of an n x c array, read at a row, for any sizes.

  Reducing an n x c array over its second axis leaves one value per row.  On the extended reals the vector unit's
  maximum-reduction from minus infinity and the array program's maximum-reduction with initial value minus infinity are
  both, at row p, the fold of max from that initial value over the row's c entries; the vector unit's sum-reduction is
  the sum of the row's entries and the array program's sum-reduction is its initial value plus that sum.
-/
import Idealize.ShloMosaic.PureOps.Ideal.Laws
import Idealize.ShloMosaic.Lib.ValueIdx

noncomputable section

namespace Cert.RowReduce

open Idealize.ShloMosaic Idealize.ShloMosaic.ValueIdx

/-- Inserting the coordinate κ on the reduced (second) axis of row p gives the entry (p, κ). -/
theorem lift_row {n c : ℕ} (h : Shape.Reduces ⟨2, ![n, c]⟩ [1] ⟨1, ![n]⟩) (p : Fin n) (κ : Fin c) :
    h.lift (ix1 p) κ = ix2 p κ :=
  funext fun a => Fin.ext (by match a with | ⟨0, _⟩ => rfl | ⟨1, _⟩ => rfl)

/-- The vector unit's maximum over the rows: at row p the fold of max from the accumulator's value. -/
theorem vec_max_row {n c : ℕ} {φ : FTy} (Y : FVec Ideal ⟨2, ![n, c]⟩ φ) (acc : BitVec φ.bits)
    (h : Shape.Reduces ⟨2, ![n, c]⟩ [1] ⟨1, ![n]⟩) (hφ : FKind.Formats φ) (hacc : acc = FKind.maximumf.neutral φ hφ) (p : Fin n) :
    multiReduction .maximumf [1] ⟨1, ![n]⟩ Y acc h hφ hacc (ix1 p)
      = (Finset.univ : Finset (Fin c)).fold max (Ideal.ofBits φ acc) (fun κ => Y (ix2 p κ)) := by
  rw [Ideal.multiReduction_maximumf_single]
  refine congrArg (Finset.fold max _ · _) (funext fun κ => ?_)
  exact congrArg Y (lift_row h p κ)

/-- The vector unit's sum over the rows: at row p the sum of the row's entries. -/
theorem vec_sum_row {n c : ℕ} {φ : FTy} (Z : FVec Ideal ⟨2, ![n, c]⟩ φ) (acc : BitVec φ.bits)
    (h : Shape.Reduces ⟨2, ![n, c]⟩ [1] ⟨1, ![n]⟩) (hφ : FKind.Formats φ) (hacc : acc = FKind.add.neutral φ hφ) (p : Fin n) :
    multiReduction .add [1] ⟨1, ![n]⟩ Z acc h hφ hacc (ix1 p) = ∑ κ : Fin c, Z (ix2 p κ) := by
  rw [Ideal.multiReduction_add_single]
  refine Finset.sum_congr rfl fun κ _ => ?_
  exact congrArg Z (lift_row h p κ)

/-- The array program's maximum over the rows with a scalar initial value: at row p the fold of max from it. -/
theorem host_max_row {n c : ℕ} (Y : (⟨2, ![n, c]⟩ : Shape).Idx → EReal) (init : (⟨0, ![]⟩ : Shape).Idx → EReal)
    (h' : Shape.ReducesTo ⟨2, ![n, c]⟩ [1] ⟨1, ![n]⟩) (h : Shape.Reduces ⟨2, ![n, c]⟩ [1] ⟨1, ![n]⟩)
    (hu : 0 < (⟨0, ![]⟩ : Shape).numel) (p : Fin n) :
    Host.reduce (max : EReal → EReal → EReal) Y init h' hu (ix1 p)
      = (Finset.univ : Finset (Fin c)).fold max (init ix0) (fun κ => Y (ix2 p κ)) := by
  rw [Host.reduce_eq_fold_single max Y init h' h hu]
  rw [show Shape.Idx.first hu = ix0 from eq_ix0 _]
  refine congrArg (Finset.fold max _ · _) (funext fun κ => ?_)
  exact congrArg Y (lift_row h p κ)

/-- The array program's sum over the rows with a scalar initial value: at row p that value plus the row's sum. -/
theorem host_sum_row {n c : ℕ} (Z : FVec Ideal ⟨2, ![n, c]⟩ .f32) (init : FVec Ideal ⟨0, ![]⟩ .f32)
    (h' : Shape.ReducesTo ⟨2, ![n, c]⟩ [1] ⟨1, ![n]⟩) (h : Shape.Reduces ⟨2, ![n, c]⟩ [1] ⟨1, ![n]⟩)
    (hu : 0 < (⟨0, ![]⟩ : Shape).numel) (p : Fin n) :
    Host.reduceAdd Z init h' hu (ix1 p) = init ix0 + ∑ κ : Fin c, Z (ix2 p κ) := by
  simp only [Host.reduceAdd, Ideal.hostReduceAdd_def]
  rw [Ideal.hostReduceAdd_single h' h]
  rw [show Shape.Idx.first hu = ix0 from eq_ix0 _]
  refine congrArg (_ + ·) (Finset.sum_congr rfl fun κ _ => ?_)
  exact congrArg Z (lift_row h p κ)

end Cert.RowReduce

end
-- ==== Proof.LibKeepdims.lean ====
/-
  A vector kept as a column, read at an index: the two layout steps a row reduction with a kept axis goes through.
  A length-`a` vector cast to an `a × 1` column holds entry `i` at `(i, 0)` (the row-major position is unchanged),
  and an `a × 1` column broadcast to `a × b` holds, all along row `i`, the column's entry `(i, 0)`.
  (The transposed form, a `1 × a` row broadcast down the columns, and the transpose itself are in the library.)
-/
import Idealize.ShloMosaic.Lib.Pipeline.Value
import Idealize.ShloMosaic.Lib.ValueIdx

namespace Cert.Keepdims

open Idealize.ShloMosaic Idealize.ShloMosaic.ValueIdx

variable {α : Type}

/-- A length-`a` vector cast to an `a × 1` column reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(i, j)`, the column at `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Cert.Keepdims
-- ==== Proof.Spec.lean ====
/-
  One layer of the graph convolution, as three functions on arrays of extended reals with 64 columns.

  A layer takes the node features x (N rows), a 64 x 64 weight matrix w, aggregates over the edges, and then
    * projects:      (x w)(n, c) = sum over k of x(n, k) * w(k, c)                                   (`linArr`)
    * rectifies:     L(n, c) = a(n, c) if a(n, c) >= 0, else a(n, c) / 2   (a leaky rectifier of slope 1/2; `leakArr`)
    * accumulates:   acc(n, c) + L(n, c) / max( sqrt( sum over k of L(n, k)^2 ), eps )                  (`accArr`)
  where eps is the single-precision number nearest 1e-12.  The edge aggregation between the projection and the
  rectifier is the same array operation in both programs and is never opened here.

  The second half reads the array program's spelling of each of the three at an index: its matrix product is the
  plain contraction, its compare-and-select is the rectifier entry by entry, and its
  "square, sum each row from zero, keep the axis, square root, maximum with eps, stretch along the row, divide, add"
  is the accumulation, the sum from zero being the plain sum of the row.
-/
import Idealize.ShloMosaic.PureOps.Ideal.Laws
import Idealize.ShloMosaic.Lib.ValueIdx
import Idealize.ShloMosaic.Lib.Pipeline.Value
import proofs.«114183_j72945724555834_1_alg».proof.Proof.LibRank2
import proofs.«114183_j72945724555834_1_alg».proof.Proof.LibRowReduce
import proofs.«114183_j72945724555834_1_alg».proof.Proof.LibKeepdims

noncomputable section

namespace Cert.Gcn

open Idealize.ShloMosaic Idealize.ShloMosaic.ValueIdx

/-- The leaky rectifier of slope 1/2 on an extended real: v where v >= 0, v / 2 elsewhere. -/
def leak (v : EReal) : EReal :=
  Scalar.select (FloatOps.cmpf (F := Ideal) (φ := .f32) .oge v (Ideal.ofBits .f32 0x00000000#32)) v
    (Ideal.ofBits .f32 0x3F000000#32 * v)

/-- v over the larger of sqrt s and eps. -/
def unitize (v s : EReal) : EReal :=
  Ideal.div v (max (Ideal.sqrt s) (Ideal.ofBits .f32 0x2B8CBCCC#32))

/-- An array of N rows and 64 columns of extended reals. -/
abbrev Mat (N : ℕ) : Type := (⟨2, ![N, 64]⟩ : Shape).Idx → EReal

/-- The projection x w. -/
def linArr {N : ℕ} (x : Mat N) (w : Mat 64) : Mat N :=
  fun i => ∑ k : Fin 64, x (ix2 (i 0) k) * w (ix2 k (i 1))

/-- The rectifier, entry by entry. -/
def leakArr {N : ℕ} (x : Mat N) : Mat N := fun i => leak (x i)

/-- The sum of the squares of row p of the rectified array. -/
def rowSq {N : ℕ} (x : Mat N) (p : Fin N) : EReal := ∑ k : Fin 64, leak (x (ix2 p k)) * leak (x (ix2 p k))

/-- The accumulation: acc plus the rectified array with each row scaled to unit length (or by 1/eps if shorter). -/
def accArr {N : ℕ} (x acc : Mat N) : Mat N := fun i => acc i + unitize (leak (x i)) (rowSq x (i 0))

theorem linArr_ix2 {N : ℕ} (x : Mat N) (w : Mat 64) (p : Fin N) (q : Fin 64) :
    linArr x w (ix2 p q) = ∑ k : Fin 64, x (ix2 p k) * w (ix2 k q) := rfl

theorem accArr_ix2 {N : ℕ} (x acc : Mat N) (p : Fin N) (q : Fin 64) :
    accArr x acc (ix2 p q) = acc (ix2 p q) + unitize (leak (x (ix2 p q))) (rowSq x p) := rfl

/-! ## The array program's spelling of the three, read at an index -/

/-- A rank-0 array stretched to any shape reads its one entry everywhere. -/
theorem bcast_scalar {t : Shape} {α : Type} (h : (⟨0, ![]⟩ : Shape).BroadcastsInDim t ![]) (v : (⟨0, ![]⟩ : Shape).Idx → α)
    (j : t.Idx) : broadcastInDim t ![] h v j = v ix0 :=
  broadcastInDim_apply ![] h v j ix0 fun a => a.elim0

/-- The matrix product of an N x 64 array by a 64 x 64 one is the projection. -/
theorem dotGeneral_eq_linArr {N : ℕ}
    (wf : DotDims.WF ⟨2, ![N, 64]⟩ ⟨2, ![64, 64]⟩ ⟨2, ![N, 64]⟩ [1] [0] [0] [1] [] [])
    (prec : Option ContractPrecision) (x : FVec Ideal ⟨2, ![N, 64]⟩ .f32) (w : FVec Ideal ⟨2, ![64, 64]⟩ .f32) :
    Host.dotGeneral (Cert.MatmulAt.plainDims wf) prec x w = linArr x w := by
  funext i
  obtain ⟨p, q, rfl⟩ : ∃ (p : Fin N) (q : Fin 64), i = ix2 p q := ⟨i 0, i 1, eq_ix2 i⟩
  exact Cert.Rank2.dotGeneral_plain_apply wf prec x w p q

/-- Compare with zero, halve, select: the rectifier. -/
theorem select_eq_leakArr {N : ℕ} (x : FVec Ideal ⟨2, ![N, 64]⟩ .f32)
    (h0 : (⟨0, ![]⟩ : Shape).BroadcastsInDim ⟨2, ![N, 64]⟩ ![]) :
    select (cmpf .oge x (broadcastInDim ⟨2, ![N, 64]⟩ ![] h0 (constant (F := Ideal) ⟨0, ![]⟩ .f32 0x00000000#32))) x
        (mulf (broadcastInDim ⟨2, ![N, 64]⟩ ![] h0 (constant (F := Ideal) ⟨0, ![]⟩ .f32 0x3F000000#32)) x)
      = leakArr x := by
  funext i
  show Scalar.select (FloatOps.cmpf .oge (x i) (broadcastInDim ⟨2, ![N, 64]⟩ ![] h0 (constant (F := Ideal) ⟨0, ![]⟩ .f32 0x00000000#32) i)) (x i)
      (broadcastInDim ⟨2, ![N, 64]⟩ ![] h0 (constant (F := Ideal) ⟨0, ![]⟩ .f32 0x3F000000#32) i * x i) = leak (x i)
  rw [bcast_scalar, bcast_scalar]
  rfl

/-- The row norm kept as a column: square, sum each row from zero, keep the axis, take the root. At (p, 0) it is
    the root of the row's sum of squares. -/
theorem norm_column {N : ℕ} (y : FVec Ideal ⟨2, ![N, 64]⟩ .f32)
    (h' : Shape.ReducesTo ⟨2, ![N, 64]⟩ [1] ⟨1, ![N]⟩) (h : Shape.Reduces ⟨2, ![N, 64]⟩ [1] ⟨1, ![N]⟩)
    (hu : 0 < (⟨0, ![]⟩ : Shape).numel)
    (hb : (⟨1, ![N]⟩ : Shape).BroadcastsInDim ⟨2, ![N, 1]⟩ (![0] : Fin 1 → Fin 2)) (p : Fin N) (u : Fin 1) :
    Host.sqrt (broadcastInDim ⟨2, ![N, 1]⟩ (![0] : Fin 1 → Fin 2) hb
        (Host.reduceAdd (mulf y y) (constant (F := Ideal) ⟨0, ![]⟩ .f32 0x00000000#32) h' hu)) (ix2 p u)
      = Ideal.sqrt (∑ k : Fin 64, y (ix2 p k) * y (ix2 p k)) := by
  show FloatOps.hostUnary .sqrt (broadcastInDim ⟨2, ![N, 1]⟩ (![0] : Fin 1 → Fin 2) hb
        (Host.reduceAdd (mulf y y) (constant (F := Ideal) ⟨0, ![]⟩ .f32 0x00000000#32) h' hu) (ix2 p u)) = _
  rw [broadcastInDim_apply (![0] : Fin 1 → Fin 2) hb _ (ix2 p u) (ix1 p) (fun a => by
    match a with
    | ⟨0, _⟩ =>
      show p.val = if N = 1 then 0 else p.val
      split
      · have := p.isLt; omega
      · rfl)]
  rw [Cert.RowReduce.host_sum_row (mulf y y) _ h' h hu p]
  show Ideal.sqrt (Ideal.ofBits .f32 0x00000000#32 + ∑ k : Fin 64, y (ix2 p k) * y (ix2 p k)) = _
  rw [Ideal.ofBits_zero_f32, zero_add]

/-- An N x 1 column stretched along 64 columns reads, at (p, q), the column at (p, 0). -/
theorem stretch_column {N : ℕ} {α : Type}
    (hs : (⟨2, ![N, 1]⟩ : Shape).BroadcastsInDim ⟨2, ![N, 64]⟩ (![0, 1] : Fin 2 → Fin 2))
    (v : (⟨2, ![N, 1]⟩ : Shape).Idx → α) (p : Fin N) (q : Fin 64) :
    broadcastInDim ⟨2, ![N, 64]⟩ (![0, 1] : Fin 2 → Fin 2) hs v (ix2 p q) = v (ix2 p (0 : Fin 1)) :=
  broadcastInDim_apply (![0, 1] : Fin 2 → Fin 2) hs v (ix2 p q) (ix2 p (0 : Fin 1)) fun a => by
    match a with
    | ⟨0, _⟩ =>
      show p.val = if N = 1 then 0 else p.val
      split
      · have := p.isLt; omega
      · rfl
    | ⟨1, _⟩ =>
      show (0 : ℕ) = if (1 : ℕ) = 1 then 0 else q.val
      rw [if_pos rfl]

/-- Divide by the row norm (at least eps), stretched along the row, and add: the accumulation. -/
theorem host_eq_accArr {N : ℕ} (x acc : FVec Ideal ⟨2, ![N, 64]⟩ .f32)
    (h' : Shape.ReducesTo ⟨2, ![N, 64]⟩ [1] ⟨1, ![N]⟩) (h : Shape.Reduces ⟨2, ![N, 64]⟩ [1] ⟨1, ![N]⟩)
    (hu : 0 < (⟨0, ![]⟩ : Shape).numel)
    (hb : (⟨1, ![N]⟩ : Shape).BroadcastsInDim ⟨2, ![N, 1]⟩ (![0] : Fin 1 → Fin 2))
    (h1 : (⟨0, ![]⟩ : Shape).BroadcastsInDim ⟨2, ![N, 1]⟩ ![])
    (hs : (⟨2, ![N, 1]⟩ : Shape).BroadcastsInDim ⟨2, ![N, 64]⟩ (![0, 1] : Fin 2 → Fin 2)) :
    addf acc (Host.divf (leakArr x)
        (broadcastInDim ⟨2, ![N, 64]⟩ (![0, 1] : Fin 2 → Fin 2) hs
          (maximumf (Host.sqrt (broadcastInDim ⟨2, ![N, 1]⟩ (![0] : Fin 1 → Fin 2) hb
              (Host.reduceAdd (mulf (leakArr x) (leakArr x)) (constant (F := Ideal) ⟨0, ![]⟩ .f32 0x00000000#32) h' hu)))
            (broadcastInDim ⟨2, ![N, 1]⟩ ![] h1 (constant (F := Ideal) ⟨0, ![]⟩ .f32 0x2B8CBCCC#32)))))
      = accArr x acc := by
  funext i
  obtain ⟨p, q, rfl⟩ : ∃ (p : Fin N) (q : Fin 64), i = ix2 p q := ⟨i 0, i 1, eq_ix2 i⟩
  exact congrArg (fun z => acc (ix2 p q) + Ideal.div (leak (x (ix2 p q))) z)
    ((stretch_column hs _ p q).trans
      (congrArg₂ max (norm_column (leakArr x) h' h hu hb p 0) (bcast_scalar h1 _ _)))

end Cert.Gcn

end
-- ==== Proof.Blocks.lean ====
/-
  The eight tile bodies on a block of 5000 rows, at the exact instance.

  The four projection tiles compute, on their 5000 x 64 block and the 64 x 64 weights, the matrix product: the
  narrowing of both operands to bf16 is the identity on extended reals and a product into a zero accumulator is the plain
  contraction over the 64 inner indices.  The four post-aggregation tiles compute the rectifier entry by entry, and then
  the running sum plus the rectified rows scaled by 1 / max(row length, eps); the row's sum of squares is a reduction
  along the lanes that involves only that row, which is why a tile of whole rows computes the same as the whole array.
-/
import proofs.«114183_j72945724555834_1_alg».proof.Proof.Gen.KernelIdeal.Skeleton
import proofs.«114183_j72945724555834_1_alg».proof.Proof.Spec

noncomputable section

namespace Cert.KernelIdeal.Blk

open Cert.KernelIdeal Cert.KernelIdeal.Gen Idealize.ShloMosaic Idealize.ShloMosaic.ValueIdx

/-- Region 0's tile: the two operands narrowed to bf16 (the identity on extended reals) and multiplied into a zero
    accumulator — the projection of the 5000-row block. -/
theorem lin0 (x0 : Vec Ideal S5000x64 .f32) (x1 : Vec Ideal S64x64 .f32) :
    k0_pay1 (F := Ideal) x0 x1 = Cert.Gcn.linArr (N := 5000) x0 x1 := by
  funext j
  obtain ⟨p, q, rfl⟩ : ∃ (p : Fin 5000) (q : Fin 64), j = ix2 p q := ⟨j 0, j 1, eq_ix2 j⟩
  unfold k0_pay1
  simp only [shapeCast_self]
  exact Cert.MatmulAt.matmul_zero_plain_apply dot_S5000x64_S64x64_S5000x64_1_0_0_1_n_n.wf none _ _ p q

/-- Region 1's first store: compare with zero, halve, select — the rectifier on the block. -/
theorem leak1 (x0 : Vec Ideal S5000x64 .f32) :
    k1_pay1 (F := Ideal) x0 = Cert.Gcn.leakArr (N := 5000) x0 := by
  funext j
  unfold k1_pay1
  simp only [shapeCast_self]
  rfl

/-- Region 1's second store: the rectified block, each row divided by the larger of its length and eps (the row sum
    of squares is the lane reduction, kept as a column and stretched back along the row), added to the running sum. -/
theorem acc1 (x0 x16 : Vec Ideal S5000x64 .f32) :
    k1_pay2 (F := Ideal) x0 x16 = Cert.Gcn.accArr (N := 5000) x0 x16 := by
  funext j
  obtain ⟨p, q, rfl⟩ : ∃ (p : Fin 5000) (q : Fin 64), j = ix2 p q := ⟨j 0, j 1, eq_ix2 j⟩
  unfold k1_pay2
  simp only [shapeCast_self, leak1]
  exact congrArg (fun z => x16 (ix2 p q) + Ideal.div (Cert.Gcn.leak (x0 (ix2 p q))) z)
    ((Cert.Keepdims.broadcastTo_a1_ab_apply _ broadcasts_S5000x1_S5000x64 p q).trans
      (congrArg (fun s => max (Ideal.sqrt s) (Ideal.ofBits .f32 0x2B8CBCCC#32))
        ((Cert.Keepdims.shapeCast_a_a1_apply _ shapeCasts_S5000_S5000x1 p 0).trans
          (Cert.RowReduce.vec_sum_row _ _ reduces_S5000x64_S5000 (.inl rfl) rfl p))))

/-- Region 2's tile: the two operands narrowed to bf16 (the identity on extended reals) and multiplied into a zero
    accumulator — the projection of the 5000-row block. -/
theorem lin2 (x0 : Vec Ideal S5000x64 .f32) (x1 : Vec Ideal S64x64 .f32) :
    k2_pay1 (F := Ideal) x0 x1 = Cert.Gcn.linArr (N := 5000) x0 x1 := by
  funext j
  obtain ⟨p, q, rfl⟩ : ∃ (p : Fin 5000) (q : Fin 64), j = ix2 p q := ⟨j 0, j 1, eq_ix2 j⟩
  unfold k2_pay1
  simp only [shapeCast_self]
  exact Cert.MatmulAt.matmul_zero_plain_apply dot_S5000x64_S64x64_S5000x64_1_0_0_1_n_n.wf none _ _ p q

/-- Region 3's first store: compare with zero, halve, select — the rectifier on the block. -/
theorem leak3 (x0 : Vec Ideal S5000x64 .f32) :
    k3_pay1 (F := Ideal) x0 = Cert.Gcn.leakArr (N := 5000) x0 := by
  funext j
  unfold k3_pay1
  simp only [shapeCast_self]
  rfl

/-- Region 3's second store: the rectified block, each row divided by the larger of its length and eps (the row sum
    of squares is the lane reduction, kept as a column and stretched back along the row), added to the running sum. -/
theorem acc3 (x0 x16 : Vec Ideal S5000x64 .f32) :
    k3_pay2 (F := Ideal) x0 x16 = Cert.Gcn.accArr (N := 5000) x0 x16 := by
  funext j
  obtain ⟨p, q, rfl⟩ : ∃ (p : Fin 5000) (q : Fin 64), j = ix2 p q := ⟨j 0, j 1, eq_ix2 j⟩
  unfold k3_pay2
  simp only [shapeCast_self, leak3]
  exact congrArg (fun z => x16 (ix2 p q) + Ideal.div (Cert.Gcn.leak (x0 (ix2 p q))) z)
    ((Cert.Keepdims.broadcastTo_a1_ab_apply _ broadcasts_S5000x1_S5000x64 p q).trans
      (congrArg (fun s => max (Ideal.sqrt s) (Ideal.ofBits .f32 0x2B8CBCCC#32))
        ((Cert.Keepdims.shapeCast_a_a1_apply _ shapeCasts_S5000_S5000x1 p 0).trans
          (Cert.RowReduce.vec_sum_row _ _ reduces_S5000x64_S5000 (.inl rfl) rfl p))))

/-- Region 4's tile: the two operands narrowed to bf16 (the identity on extended reals) and multiplied into a zero
    accumulator — the projection of the 5000-row block. -/
theorem lin4 (x0 : Vec Ideal S5000x64 .f32) (x1 : Vec Ideal S64x64 .f32) :
    k4_pay1 (F := Ideal) x0 x1 = Cert.Gcn.linArr (N := 5000) x0 x1 := by
  funext j
  obtain ⟨p, q, rfl⟩ : ∃ (p : Fin 5000) (q : Fin 64), j = ix2 p q := ⟨j 0, j 1, eq_ix2 j⟩
  unfold k4_pay1
  simp only [shapeCast_self]
  exact Cert.MatmulAt.matmul_zero_plain_apply dot_S5000x64_S64x64_S5000x64_1_0_0_1_n_n.wf none _ _ p q

/-- Region 5's first store: compare with zero, halve, select — the rectifier on the block. -/
theorem leak5 (x0 : Vec Ideal S5000x64 .f32) :
    k5_pay1 (F := Ideal) x0 = Cert.Gcn.leakArr (N := 5000) x0 := by
  funext j
  unfold k5_pay1
  simp only [shapeCast_self]
  rfl

/-- Region 5's second store: the rectified block, each row divided by the larger of its length and eps (the row sum
    of squares is the lane reduction, kept as a column and stretched back along the row), added to the running sum. -/
theorem acc5 (x0 x16 : Vec Ideal S5000x64 .f32) :
    k5_pay2 (F := Ideal) x0 x16 = Cert.Gcn.accArr (N := 5000) x0 x16 := by
  funext j
  obtain ⟨p, q, rfl⟩ : ∃ (p : Fin 5000) (q : Fin 64), j = ix2 p q := ⟨j 0, j 1, eq_ix2 j⟩
  unfold k5_pay2
  simp only [shapeCast_self, leak5]
  exact congrArg (fun z => x16 (ix2 p q) + Ideal.div (Cert.Gcn.leak (x0 (ix2 p q))) z)
    ((Cert.Keepdims.broadcastTo_a1_ab_apply _ broadcasts_S5000x1_S5000x64 p q).trans
      (congrArg (fun s => max (Ideal.sqrt s) (Ideal.ofBits .f32 0x2B8CBCCC#32))
        ((Cert.Keepdims.shapeCast_a_a1_apply _ shapeCasts_S5000_S5000x1 p 0).trans
          (Cert.RowReduce.vec_sum_row _ _ reduces_S5000x64_S5000 (.inl rfl) rfl p))))

/-- Region 6's tile: the two operands narrowed to bf16 (the identity on extended reals) and multiplied into a zero
    accumulator — the projection of the 5000-row block. -/
theorem lin6 (x0 : Vec Ideal S5000x64 .f32) (x1 : Vec Ideal S64x64 .f32) :
    k6_pay1 (F := Ideal) x0 x1 = Cert.Gcn.linArr (N := 5000) x0 x1 := by
  funext j
  obtain ⟨p, q, rfl⟩ : ∃ (p : Fin 5000) (q : Fin 64), j = ix2 p q := ⟨j 0, j 1, eq_ix2 j⟩
  unfold k6_pay1
  simp only [shapeCast_self]
  exact Cert.MatmulAt.matmul_zero_plain_apply dot_S5000x64_S64x64_S5000x64_1_0_0_1_n_n.wf none _ _ p q

/-- Region 7's first store: compare with zero, halve, select — the rectifier on the block. -/
theorem leak7 (x0 : Vec Ideal S5000x64 .f32) :
    k7_pay1 (F := Ideal) x0 = Cert.Gcn.leakArr (N := 5000) x0 := by
  funext j
  unfold k7_pay1
  simp only [shapeCast_self]
  rfl

/-- Region 7's second store: the rectified block, each row divided by the larger of its length and eps (the row sum
    of squares is the lane reduction, kept as a column and stretched back along the row), added to the running sum. -/
theorem acc7 (x0 x16 : Vec Ideal S5000x64 .f32) :
    k7_pay2 (F := Ideal) x0 x16 = Cert.Gcn.accArr (N := 5000) x0 x16 := by
  funext j
  obtain ⟨p, q, rfl⟩ : ∃ (p : Fin 5000) (q : Fin 64), j = ix2 p q := ⟨j 0, j 1, eq_ix2 j⟩
  unfold k7_pay2
  simp only [shapeCast_self, leak7]
  exact congrArg (fun z => x16 (ix2 p q) + Ideal.div (Cert.Gcn.leak (x0 (ix2 p q))) z)
    ((Cert.Keepdims.broadcastTo_a1_ab_apply _ broadcasts_S5000x1_S5000x64 p q).trans
      (congrArg (fun s => max (Ideal.sqrt s) (Ideal.ofBits .f32 0x2B8CBCCC#32))
        ((Cert.Keepdims.shapeCast_a_a1_apply _ shapeCasts_S5000_S5000x1 p 0).trans
          (Cert.RowReduce.vec_sum_row _ _ reduces_S5000x64_S5000 (.inl rfl) rfl p))))

end Cert.KernelIdeal.Blk

end
-- ==== Proof.Region0.lean ====
/-
  Region 0, a projection over 50 tiles of 5000 rows: what its output array holds when the region ends.

  Tile t reads rows 5000 t .. 5000 t + 4999 of the features and all of the weights, and writes the same rows of
  the output; by the tile lemma those rows are the rows of the product of the WHOLE feature array with the weights
  (entry (n, c) of a product depends on row n of the left factor only).  The 50 tiles cover every row, so the
  output array ends as the projection of the two arrays the region was entered with.
-/
import proofs.«114183_j72945724555834_1_alg».proof.Proof.Gen.KernelIdeal.Frame
import Idealize.ShloMosaic.Lib.Pipeline.Value
import proofs.«114183_j72945724555834_1_alg».proof.Proof.Blocks

set_option maxRecDepth 16384

noncomputable section

namespace Cert.KernelIdeal.Reg

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz0 : (![0, 0] : Fin 2 → Nat) = fun _ => 0 := funext fun a => by fin_cases a <;> rfl

/-- The printed index maps over the grid: the features and the output move one block of rows per tile, the weights
    stay put. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every block of rows is some tile's. -/
theorem onto0 : ∀ q0 : Fin 50, ∃ t : Fin cfg0.N, win0_2.index t = ![q0.val, 0] :=
  (by decide +kernel : ∀ q0 : Fin 50, ∃ t : Fin grid0.N, win0_2.index t = ![q0.val, 0])

/-- What tile t writes back is block t of the projection of the entry arrays. -/
theorem flushed0 (c : Dev nD) (t : Fin cfg0.N) :
    (dat0 (F := Ideal) V c).flushed 2 t
      = ((cfg0.win 2).blk t).view.read (Elt Ideal) (Cert.Gcn.linArr (N := 250000) (V c main_v1) (V c main_v3)) := by
  show (cfg0.win 2).cut (grid0.coords t) ((dat0 (F := Ideal) V c).after 2 t) = _
  rw [after0_2]
  unfold out0_2
  rw [View.canon_unit_zero hz0]
  simp only [View.ld_unit_zero (S := S5000x64) hz0, View.ld_unit_zero (S := S64x64) hz0]
  rw [Blk.lin0]
  obtain ⟨e0, e1, e2, e3, e4, e5⟩ := idx0 t
  funext j
  have h0 : ∀ k : Fin 64, ((cfg0.win 0).blk t).view.emb (ix2 (j 0) k) = ix2 ((((cfg0.win 2).blk t).view.emb j) 0) k := fun k => by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 64 + 1 * k.val = k.val; omega
  have h1 : ∀ k : Fin 64, ((cfg0.win 1).blk t).view.emb (ix2 k (j 1)) = ix2 k ((((cfg0.win 2).blk t).view.emb j) 1) := fun k => by
    funext a; apply Fin.ext
    match a with
    | ⟨0, _⟩ => show win0_1.index t (0 : Fin 2) * 64 + 1 * k.val = k.val; omega
    | ⟨1, _⟩ => show win0_1.index t (1 : Fin 2) * 64 + 1 * (j 1).val = win0_2.index t (1 : Fin 2) * 64 + 1 * (j 1).val; omega
  show Cert.Gcn.linArr (N := 5000) (fun y => V c main_v1 (((cfg0.win 0).blk t).view.emb y)) (fun y => V c main_v3 (((cfg0.win 1).blk t).view.emb y)) j
    = Cert.Gcn.linArr (N := 250000) (V c main_v1) (V c main_v3) (((cfg0.win 2).blk t).view.emb j)
  exact Finset.sum_congr rfl fun k _ =>
    congrArg₂ (fun a b : EReal => a * b) (congrArg (V c main_v1) (h0 k)) (congrArg (V c main_v3) (h1 k))

/-- An index of the output array is in tile t's block iff each coordinate is in the block's range. -/
theorem mem_blk0 (t : Fin cfg0.N) (i : S250000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v4).slice (win0_2.rect t)).set ↔ _
  rw [View.set_slice_whole, Rect.mem_set_unit]
  exact Iff.rfl

/-- The tiles cover the output array: row n is in the block of tile n / 5000. -/
theorem cover0 (i : S250000x64.Idx) :
    ∃ t : Fin cfg0.N, (cfg0.win 2).flush t = true ∧ i ∈ ((cfg0.win 2).blk t).view.set := by
  have hi0 : (i 0).val < 250000 := (i 0).isLt
  have hi1 : (i 1).val < 64 := (i 1).isLt
  obtain ⟨t, ht⟩ := onto0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- When the region ends its output array is the projection of the two arrays it was entered with. -/
theorem final0 (c : Dev nD) :
    (dat0 (F := Ideal) V c).arrAt 2 cfg0.N = Cert.Gcn.linArr (N := 250000) (V c main_v1) (V c main_v3) :=
  (dat0 (F := Ideal) V c).arrAt_eq_of_cover 2 _ (fun t _ => flushed0 V c t) (cover0)

end Cert.KernelIdeal.Reg

end
-- ==== Proof.Region1.lean ====
/-
  Region 1, the rectifier and the accumulation over 50 tiles of 5000 rows: what its two output arrays hold when
  the region ends.

  Tile t reads rows 5000 t .. 5000 t + 4999 of the aggregated features and of the running sum, and writes the same
  rows of both outputs.  The rectifier is entry by entry; the scaling of a row uses that row's own sum of squares and
  nothing else, so a tile of whole rows computes the rows of the whole-array function.  The 50 tiles cover every row.
-/
import proofs.«114183_j72945724555834_1_alg».proof.Proof.Gen.KernelIdeal.Frame
import Idealize.ShloMosaic.Lib.Pipeline.Value
import proofs.«114183_j72945724555834_1_alg».proof.Proof.Blocks

set_option maxRecDepth 16384

noncomputable section

namespace Cert.KernelIdeal.Reg

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz1 : (![0, 0] : Fin 2 → Nat) = fun _ => 0 := funext fun a => by fin_cases a <;> rfl

/-- The printed index maps over the grid: all four windows move one block of rows per tile. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- Every block of rows is some tile's, for each output. -/
theorem onto1_2 : ∀ q0 : Fin 50, ∃ t : Fin cfg1.N, win1_2.index t = ![q0.val, 0] :=
  (by decide +kernel : ∀ q0 : Fin 50, ∃ t : Fin grid1.N, win1_2.index t = ![q0.val, 0])
theorem onto1_3 : ∀ q0 : Fin 50, ∃ t : Fin cfg1.N, win1_3.index t = ![q0.val, 0] :=
  (by decide +kernel : ∀ q0 : Fin 50, ∃ t : Fin grid1.N, win1_3.index t = ![q0.val, 0])

/-- What tile t writes back to the first output is block t of the rectified entry array. -/
theorem flushed1_2 (c : Dev nD) (t : Fin cfg1.N) :
    (dat1 (F := Ideal) V c).flushed 2 t
      = ((cfg1.win 2).blk t).view.read (Elt Ideal) (Cert.Gcn.leakArr (N := 250000) (V c main_v17)) := by
  show (cfg1.win 2).cut (grid1.coords t) ((dat1 (F := Ideal) V c).after 2 t) = _
  rw [after1_2]
  unfold out1_2
  rw [View.canon_unit_zero hz1]
  simp only [View.ld_unit_zero (S := S5000x64) hz1]
  rw [Blk.leak1]
  obtain ⟨e0, e1, e2, e3, e4, e5, e6, e7⟩ := idx1 t
  funext j
  show Cert.Gcn.leak (V c main_v17 (((cfg1.win 0).blk t).view.emb j)) = Cert.Gcn.leak (V c main_v17 (((cfg1.win 2).blk t).view.emb j))
  have h0 : ((cfg1.win 0).blk t).view.emb j = ((cfg1.win 2).blk t).view.emb j := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 64 + 1 * (j 1).val = win1_2.index t (1 : Fin 2) * 64 + 1 * (j 1).val; omega
  rw [h0]

/-- What tile t writes back to the second output is block t of the accumulation of the two entry arrays. -/
theorem flushed1_3 (c : Dev nD) (t : Fin cfg1.N) :
    (dat1 (F := Ideal) V c).flushed 3 t
      = ((cfg1.win 3).blk t).view.read (Elt Ideal) (Cert.Gcn.accArr (N := 250000) (V c main_v17) (V c main_v0)) := by
  show (cfg1.win 3).cut (grid1.coords t) ((dat1 (F := Ideal) V c).after 3 t) = _
  rw [after1_3]
  unfold out1_3
  rw [View.canon_unit_zero hz1]
  simp only [View.ld_unit_zero (S := S5000x64) hz1]
  rw [Blk.acc1]
  obtain ⟨e0, e1, e2, e3, e4, e5, e6, e7⟩ := idx1 t
  funext j
  have h0 : ((cfg1.win 0).blk t).view.emb j = ((cfg1.win 3).blk t).view.emb j := by
    funext a; apply Fin.ext
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 64 + 1 * (j 1).val = win1_3.index t (1 : Fin 2) * 64 + 1 * (j 1).val; omega
  have h1 : ((cfg1.win 1).blk t).view.emb j = ((cfg1.win 3).blk t).view.emb j := by
    funext a; apply Fin.ext
    match a with
    | ⟨0, _⟩ => show win1_1.index t (0 : Fin 2) * 5000 + 1 * (j 0).val = win1_3.index t (0 : Fin 2) * 5000 + 1 * (j 0).val; omega
    | ⟨1, _⟩ => show win1_1.index t (1 : Fin 2) * 64 + 1 * (j 1).val = win1_3.index t (1 : Fin 2) * 64 + 1 * (j 1).val; omega
  have hk : ∀ k : Fin 64, ((cfg1.win 0).blk t).view.emb (ix2 (j 0) k) = ix2 ((((cfg1.win 3).blk t).view.emb j) 0) k := fun k => by
    funext a; apply Fin.ext
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 64 + 1 * k.val = k.val; omega
  exact congrArg₂ (fun a b : EReal => a + b) (congrArg (V c main_v0) h1)
    (congrArg₂ Cert.Gcn.unitize (congrArg (fun z => Cert.Gcn.leak (V c main_v17 z)) h0)
      (Finset.sum_congr rfl fun k _ => by
        show Cert.Gcn.leak (V c main_v17 (((cfg1.win 0).blk t).view.emb (ix2 (j 0) k))) * Cert.Gcn.leak (V c main_v17 (((cfg1.win 0).blk t).view.emb (ix2 (j 0) k))) = _
        rw [hk k]; rfl))

/-- An index of output array 2 is in tile t's block iff each coordinate is in the block's range. -/
theorem mem_blk1_2 (t : Fin cfg1.N) (i : S250000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v18_0).slice (win1_2.rect t)).set ↔ _
  rw [View.set_slice_whole, Rect.mem_set_unit]
  exact Iff.rfl

/-- The tiles cover output array 2: row n is in the block of tile n / 5000. -/
theorem cover1_2 (i : S250000x64.Idx) :
    ∃ t : Fin cfg1.N, (cfg1.win 2).flush t = true ∧ i ∈ ((cfg1.win 2).blk t).view.set := by
  have hi0 : (i 0).val < 250000 := (i 0).isLt
  have hi1 : (i 1).val < 64 := (i 1).isLt
  obtain ⟨t, ht⟩ := onto1_2 ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk1_2]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 64 + 64; omega

/-- An index of output array 3 is in tile t's block iff each coordinate is in the block's range. -/
theorem mem_blk1_3 (t : Fin cfg1.N) (i : S250000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v18_1).slice (win1_3.rect t)).set ↔ _
  rw [View.set_slice_whole, Rect.mem_set_unit]
  exact Iff.rfl

/-- The tiles cover output array 3: row n is in the block of tile n / 5000. -/
theorem cover1_3 (i : S250000x64.Idx) :
    ∃ t : Fin cfg1.N, (cfg1.win 3).flush t = true ∧ i ∈ ((cfg1.win 3).blk t).view.set := by
  have hi0 : (i 0).val < 250000 := (i 0).isLt
  have hi1 : (i 1).val < 64 := (i 1).isLt
  obtain ⟨t, ht⟩ := onto1_3 ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_blk1_3]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega

/-- When the region ends its first output is the rectified entry array. -/
theorem final1_2 (c : Dev nD) :
    (dat1 (F := Ideal) V c).arrAt 2 cfg1.N = Cert.Gcn.leakArr (N := 250000) (V c main_v17) :=
  (dat1 (F := Ideal) V c).arrAt_eq_of_cover 2 _ (fun t _ => flushed1_2 V c t) (cover1_2)

/-- When the region ends its second output is the accumulation of the two entry arrays. -/
theorem final1_3 (c : Dev nD) :
    (dat1 (F := Ideal) V c).arrAt 3 cfg1.N = Cert.Gcn.accArr (N := 250000) (V c main_v17) (V c main_v0) :=
  (dat1 (F := Ideal) V c).arrAt_eq_of_cover 3 _ (fun t _ => flushed1_3 V c t) (cover1_3)

end Cert.KernelIdeal.Reg

end
-- ==== Proof.Region2.lean ====
/-
  Region 2, a projection over 50 tiles of 5000 rows: what its output array holds when the region ends.

  Tile t reads rows 5000 t .. 5000 t + 4999 of the features and all of the weights, and writes the same rows of
  the output; by the tile lemma those rows are the rows of the product of the WHOLE feature array with the weights
  (entry (n, c) of a product depends on row n of the left factor only).  The 50 tiles cover every row, so the
  output array ends as the projection of the two arrays the region was entered with.
-/
import proofs.«114183_j72945724555834_1_alg».proof.Proof.Gen.KernelIdeal.Frame
import Idealize.ShloMosaic.Lib.Pipeline.Value
import proofs.«114183_j72945724555834_1_alg».proof.Proof.Blocks

set_option maxRecDepth 16384

noncomputable section

namespace Cert.KernelIdeal.Reg

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl

/-- The printed index maps over the grid: the features and the output move one block of rows per tile, the weights
    stay put. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Every block of rows is some tile's. -/
theorem onto2 : ∀ q0 : Fin 50, ∃ t : Fin cfg2.N, win2_2.index t = ![q0.val, 0] :=
  (by decide +kernel : ∀ q0 : Fin 50, ∃ t : Fin grid2.N, win2_2.index t = ![q0.val, 0])

/-- What tile t writes back is block t of the projection of the entry arrays. -/
theorem flushed2 (c : Dev nD) (t : Fin cfg2.N) :
    (dat2 (F := Ideal) V c).flushed 2 t
      = ((cfg2.win 2).blk t).view.read (Elt Ideal) (Cert.Gcn.linArr (N := 250000) (V c main_v21) (V c main_v23)) := by
  show (cfg2.win 2).cut (grid2.coords t) ((dat2 (F := Ideal) V c).after 2 t) = _
  rw [after2_2]
  unfold out2_2
  rw [View.canon_unit_zero hz2]
  simp only [View.ld_unit_zero (S := S5000x64) hz2, View.ld_unit_zero (S := S64x64) hz2]
  rw [Blk.lin2]
  obtain ⟨e0, e1, e2, e3, e4, e5⟩ := idx2 t
  funext j
  have h0 : ∀ k : Fin 64, ((cfg2.win 0).blk t).view.emb (ix2 (j 0) k) = ix2 ((((cfg2.win 2).blk t).view.emb j) 0) k := fun k => by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 64 + 1 * k.val = k.val; omega
  have h1 : ∀ k : Fin 64, ((cfg2.win 1).blk t).view.emb (ix2 k (j 1)) = ix2 k ((((cfg2.win 2).blk t).view.emb j) 1) := fun k => by
    funext a; apply Fin.ext
    match a with
    | ⟨0, _⟩ => show win2_1.index t (0 : Fin 2) * 64 + 1 * k.val = k.val; omega
    | ⟨1, _⟩ => show win2_1.index t (1 : Fin 2) * 64 + 1 * (j 1).val = win2_2.index t (1 : Fin 2) * 64 + 1 * (j 1).val; omega
  show Cert.Gcn.linArr (N := 5000) (fun y => V c main_v21 (((cfg2.win 0).blk t).view.emb y)) (fun y => V c main_v23 (((cfg2.win 1).blk t).view.emb y)) j
    = Cert.Gcn.linArr (N := 250000) (V c main_v21) (V c main_v23) (((cfg2.win 2).blk t).view.emb j)
  exact Finset.sum_congr rfl fun k _ =>
    congrArg₂ (fun a b : EReal => a * b) (congrArg (V c main_v21) (h0 k)) (congrArg (V c main_v23) (h1 k))

/-- An index of the output array is in tile t's block iff each coordinate is in the block's range. -/
theorem mem_blk2 (t : Fin cfg2.N) (i : S250000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v24).slice (win2_2.rect t)).set ↔ _
  rw [View.set_slice_whole, Rect.mem_set_unit]
  exact Iff.rfl

/-- The tiles cover the output array: row n is in the block of tile n / 5000. -/
theorem cover2 (i : S250000x64.Idx) :
    ∃ t : Fin cfg2.N, (cfg2.win 2).flush t = true ∧ i ∈ ((cfg2.win 2).blk t).view.set := by
  have hi0 : (i 0).val < 250000 := (i 0).isLt
  have hi1 : (i 1).val < 64 := (i 1).isLt
  obtain ⟨t, ht⟩ := onto2 ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- When the region ends its output array is the projection of the two arrays it was entered with. -/
theorem final2 (c : Dev nD) :
    (dat2 (F := Ideal) V c).arrAt 2 cfg2.N = Cert.Gcn.linArr (N := 250000) (V c main_v21) (V c main_v23) :=
  (dat2 (F := Ideal) V c).arrAt_eq_of_cover 2 _ (fun t _ => flushed2 V c t) (cover2)

end Cert.KernelIdeal.Reg

end
-- ==== Proof.Region3.lean ====
/-
  Region 3, the rectifier and the accumulation over 50 tiles of 5000 rows: what its two output arrays hold when
  the region ends.

  Tile t reads rows 5000 t .. 5000 t + 4999 of the aggregated features and of the running sum, and writes the same
  rows of both outputs.  The rectifier is entry by entry; the scaling of a row uses that row's own sum of squares and
  nothing else, so a tile of whole rows computes the rows of the whole-array function.  The 50 tiles cover every row.
-/
import proofs.«114183_j72945724555834_1_alg».proof.Proof.Gen.KernelIdeal.Frame
import Idealize.ShloMosaic.Lib.Pipeline.Value
import proofs.«114183_j72945724555834_1_alg».proof.Proof.Blocks

set_option maxRecDepth 16384

noncomputable section

namespace Cert.KernelIdeal.Reg

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz3 : (![0, 0] : Fin 2 → Nat) = fun _ => 0 := funext fun a => by fin_cases a <;> rfl

/-- The printed index maps over the grid: all four windows move one block of rows per tile. -/
theorem idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

/-- Every block of rows is some tile's, for each output. -/
theorem onto3_2 : ∀ q0 : Fin 50, ∃ t : Fin cfg3.N, win3_2.index t = ![q0.val, 0] :=
  (by decide +kernel : ∀ q0 : Fin 50, ∃ t : Fin grid3.N, win3_2.index t = ![q0.val, 0])
theorem onto3_3 : ∀ q0 : Fin 50, ∃ t : Fin cfg3.N, win3_3.index t = ![q0.val, 0] :=
  (by decide +kernel : ∀ q0 : Fin 50, ∃ t : Fin grid3.N, win3_3.index t = ![q0.val, 0])

/-- What tile t writes back to the first output is block t of the rectified entry array. -/
theorem flushed3_2 (c : Dev nD) (t : Fin cfg3.N) :
    (dat3 (F := Ideal) V c).flushed 2 t
      = ((cfg3.win 2).blk t).view.read (Elt Ideal) (Cert.Gcn.leakArr (N := 250000) (V c main_v37)) := by
  show (cfg3.win 2).cut (grid3.coords t) ((dat3 (F := Ideal) V c).after 2 t) = _
  rw [after3_2]
  unfold out3_2
  rw [View.canon_unit_zero hz3]
  simp only [View.ld_unit_zero (S := S5000x64) hz3]
  rw [Blk.leak3]
  obtain ⟨e0, e1, e2, e3, e4, e5, e6, e7⟩ := idx3 t
  funext j
  show Cert.Gcn.leak (V c main_v37 (((cfg3.win 0).blk t).view.emb j)) = Cert.Gcn.leak (V c main_v37 (((cfg3.win 2).blk t).view.emb j))
  have h0 : ((cfg3.win 0).blk t).view.emb j = ((cfg3.win 2).blk t).view.emb j := by
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 64 + 1 * (j 1).val = win3_2.index t (1 : Fin 2) * 64 + 1 * (j 1).val; omega
  rw [h0]

/-- What tile t writes back to the second output is block t of the accumulation of the two entry arrays. -/
theorem flushed3_3 (c : Dev nD) (t : Fin cfg3.N) :
    (dat3 (F := Ideal) V c).flushed 3 t
      = ((cfg3.win 3).blk t).view.read (Elt Ideal) (Cert.Gcn.accArr (N := 250000) (V c main_v37) (V c main_v18_1)) := by
  show (cfg3.win 3).cut (grid3.coords t) ((dat3 (F := Ideal) V c).after 3 t) = _
  rw [after3_3]
  unfold out3_3
  rw [View.canon_unit_zero hz3]
  simp only [View.ld_unit_zero (S := S5000x64) hz3]
  rw [Blk.acc3]
  obtain ⟨e0, e1, e2, e3, e4, e5, e6, e7⟩ := idx3 t
  funext j
  have h0 : ((cfg3.win 0).blk t).view.emb j = ((cfg3.win 3).blk t).view.emb j := by
    funext a; apply Fin.ext
    match a with
    | ⟨0, _⟩ => show win3_0.index t (0 : Fin 2) * 5000 + 1 * (j 0).val = win3_3.index t (0 : Fin 2) * 5000 + 1 * (j 0).val; omega
    | ⟨1, _⟩ => show win3_0.index t (1 : Fin 2) * 64 + 1 * (j 1).val = win3_3.index t (1 : Fin 2) * 64 + 1 * (j 1).val; omega
  have h1 : ((cfg3.win 1).blk t).view.emb j = ((cfg3.win 3).blk t).view.emb j := by
    funext a; apply Fin.ext
    match a with
    | ⟨0, _⟩ => show win3_1.index t (0 : Fin 2) * 5000 + 1 * (j 0).val = win3_3.index t (0 : Fin 2) * 5000 + 1 * (j 0).val; omega
    | ⟨1, _⟩ => show win3_1.index t (1 : Fin 2) * 64 + 1 * (j 1).val = win3_3.index t (1 : Fin 2) * 64 + 1 * (j 1).val; omega
  have hk : ∀ k : Fin 64, ((cfg3.win 0).blk t).view.emb (ix2 (j 0) k) = ix2 ((((cfg3.win 3).blk t).view.emb j) 0) k := fun k => by
    funext a; apply Fin.ext
    match a with
    | ⟨0, _⟩ => show win3_0.index t (0 : Fin 2) * 5000 + 1 * (j 0).val = win3_3.index t (0 : Fin 2) * 5000 + 1 * (j 0).val; omega
    | ⟨1, _⟩ => show win3_0.index t (1 : Fin 2) * 64 + 1 * k.val = k.val; omega
  exact congrArg₂ (fun a b : EReal => a + b) (congrArg (V c main_v18_1) h1)
    (congrArg₂ Cert.Gcn.unitize (congrArg (fun z => Cert.Gcn.leak (V c main_v37 z)) h0)
      (Finset.sum_congr rfl fun k _ => by
        show Cert.Gcn.leak (V c main_v37 (((cfg3.win 0).blk t).view.emb (ix2 (j 0) k))) * Cert.Gcn.leak (V c main_v37 (((cfg3.win 0).blk t).view.emb (ix2 (j 0) k))) = _
        rw [hk k]; rfl))

/-- An index of output array 2 is in tile t's block iff each coordinate is in the block's range. -/
theorem mem_blk3_2 (t : Fin cfg3.N) (i : S250000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v38_0).slice (win3_2.rect t)).set ↔ _
  rw [View.set_slice_whole, Rect.mem_set_unit]
  exact Iff.rfl

/-- The tiles cover output array 2: row n is in the block of tile n / 5000. -/
theorem cover3_2 (i : S250000x64.Idx) :
    ∃ t : Fin cfg3.N, (cfg3.win 2).flush t = true ∧ i ∈ ((cfg3.win 2).blk t).view.set := by
  have hi0 : (i 0).val < 250000 := (i 0).isLt
  have hi1 : (i 1).val < 64 := (i 1).isLt
  obtain ⟨t, ht⟩ := onto3_2 ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_blk3_2]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 64 ≤ (i 1).val ∧ (i 1).val < win3_2.index t (1 : Fin 2) * 64 + 64; omega

/-- An index of output array 3 is in tile t's block iff each coordinate is in the block's range. -/
theorem mem_blk3_3 (t : Fin cfg3.N) (i : S250000x64.Idx) :
    i ∈ ((cfg3.win 3).blk t).view.set ↔ ∀ a : Fin 2, win3_3.index t a * S5000x64.size a ≤ (i a).val ∧ (i a).val < win3_3.index t a * S5000x64.size a + S5000x64.size a := by
  show i ∈ ((View.whole main_v38_1).slice (win3_3.rect t)).set ↔ _
  rw [View.set_slice_whole, Rect.mem_set_unit]
  exact Iff.rfl

/-- The tiles cover output array 3: row n is in the block of tile n / 5000. -/
theorem cover3_3 (i : S250000x64.Idx) :
    ∃ t : Fin cfg3.N, (cfg3.win 3).flush t = true ∧ i ∈ ((cfg3.win 3).blk t).view.set := by
  have hi0 : (i 0).val < 250000 := (i 0).isLt
  have hi1 : (i 1).val < 64 := (i 1).isLt
  obtain ⟨t, ht⟩ := onto3_3 ⟨(i 0).val / 5000, by omega⟩
  have q0 : win3_3.index t (0 : Fin 2) = (i 0).val / 5000 := congrFun ht 0
  have q1 : win3_3.index t (1 : Fin 2) = 0 := congrFun ht 1
  refine ⟨t, flush3_3 t, ?_⟩
  rw [mem_blk3_3]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 64 ≤ (i 1).val ∧ (i 1).val < win3_3.index t (1 : Fin 2) * 64 + 64; omega

/-- When the region ends its first output is the rectified entry array. -/
theorem final3_2 (c : Dev nD) :
    (dat3 (F := Ideal) V c).arrAt 2 cfg3.N = Cert.Gcn.leakArr (N := 250000) (V c main_v37) :=
  (dat3 (F := Ideal) V c).arrAt_eq_of_cover 2 _ (fun t _ => flushed3_2 V c t) (cover3_2)

/-- When the region ends its second output is the accumulation of the two entry arrays. -/
theorem final3_3 (c : Dev nD) :
    (dat3 (F := Ideal) V c).arrAt 3 cfg3.N = Cert.Gcn.accArr (N := 250000) (V c main_v37) (V c main_v18_1) :=
  (dat3 (F := Ideal) V c).arrAt_eq_of_cover 3 _ (fun t _ => flushed3_3 V c t) (cover3_3)

end Cert.KernelIdeal.Reg

end
-- ==== Proof.Region4.lean ====
/-
  Region 4, a projection over 20 tiles of 5000 rows: what its output array holds when the region ends.

  Tile t reads rows 5000 t .. 5000 t + 4999 of the features and all of the weights, and writes the same rows of
  the output; by the tile lemma those rows are the rows of the product of the WHOLE feature array with the weights
  (entry (n, c) of a product depends on row n of the left factor only).  The 20 tiles cover every row, so the
  output array ends as the projection of the two arrays the region was entered with.
-/
import proofs.«114183_j72945724555834_1_alg».proof.Proof.Gen.KernelIdeal.Frame
import Idealize.ShloMosaic.Lib.Pipeline.Value
import proofs.«114183_j72945724555834_1_alg».proof.Proof.Blocks

set_option maxRecDepth 16384

noncomputable section

namespace Cert.KernelIdeal.Reg

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz4 : (![0, 0] : Fin 2 → Nat) = fun _ => 0 := funext fun a => by fin_cases a <;> rfl

/-- The printed index maps over the grid: the features and the output move one block of rows per tile, the weights
    stay put. -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Every block of rows is some tile's. -/
theorem onto4 : ∀ q0 : Fin 20, ∃ t : Fin cfg4.N, win4_2.index t = ![q0.val, 0] :=
  (by decide +kernel : ∀ q0 : Fin 20, ∃ t : Fin grid4.N, win4_2.index t = ![q0.val, 0])

/-- What tile t writes back is block t of the projection of the entry arrays. -/
theorem flushed4 (c : Dev nD) (t : Fin cfg4.N) :
    (dat4 (F := Ideal) V c).flushed 2 t
      = ((cfg4.win 2).blk t).view.read (Elt Ideal) (Cert.Gcn.linArr (N := 100000) (V c main_arg0) (V c main_v42)) := by
  show (cfg4.win 2).cut (grid4.coords t) ((dat4 (F := Ideal) V c).after 2 t) = _
  rw [after4_2]
  unfold out4_2
  rw [View.canon_unit_zero hz4]
  simp only [View.ld_unit_zero (S := S5000x64) hz4, View.ld_unit_zero (S := S64x64) hz4]
  rw [Blk.lin4]
  obtain ⟨e0, e1, e2, e3, e4, e5⟩ := idx4 t
  funext j
  have h0 : ∀ k : Fin 64, ((cfg4.win 0).blk t).view.emb (ix2 (j 0) k) = ix2 ((((cfg4.win 2).blk t).view.emb j) 0) k := fun k => by
    funext a; apply Fin.ext
    match a with
    | ⟨0, _⟩ => show win4_0.index t (0 : Fin 2) * 5000 + 1 * (j 0).val = win4_2.index t (0 : Fin 2) * 5000 + 1 * (j 0).val; omega
    | ⟨1, _⟩ => show win4_0.index t (1 : Fin 2) * 64 + 1 * k.val = k.val; omega
  have h1 : ∀ k : Fin 64, ((cfg4.win 1).blk t).view.emb (ix2 k (j 1)) = ix2 k ((((cfg4.win 2).blk t).view.emb j) 1) := fun k => by
    funext a; apply Fin.ext
    match a with
    | ⟨0, _⟩ => show win4_1.index t (0 : Fin 2) * 64 + 1 * k.val = k.val; omega
    | ⟨1, _⟩ => show win4_1.index t (1 : Fin 2) * 64 + 1 * (j 1).val = win4_2.index t (1 : Fin 2) * 64 + 1 * (j 1).val; omega
  show Cert.Gcn.linArr (N := 5000) (fun y => V c main_arg0 (((cfg4.win 0).blk t).view.emb y)) (fun y => V c main_v42 (((cfg4.win 1).blk t).view.emb y)) j
    = Cert.Gcn.linArr (N := 100000) (V c main_arg0) (V c main_v42) (((cfg4.win 2).blk t).view.emb j)
  exact Finset.sum_congr rfl fun k _ =>
    congrArg₂ (fun a b : EReal => a * b) (congrArg (V c main_arg0) (h0 k)) (congrArg (V c main_v42) (h1 k))

/-- An index of the output array is in tile t's block iff each coordinate is in the block's range. -/
theorem mem_blk4 (t : Fin cfg4.N) (i : S100000x64.Idx) :
    i ∈ ((cfg4.win 2).blk t).view.set ↔ ∀ a : Fin 2, win4_2.index t a * S5000x64.size a ≤ (i a).val ∧ (i a).val < win4_2.index t a * S5000x64.size a + S5000x64.size a := by
  show i ∈ ((View.whole main_v43).slice (win4_2.rect t)).set ↔ _
  rw [View.set_slice_whole, Rect.mem_set_unit]
  exact Iff.rfl

/-- The tiles cover the output array: row n is in the block of tile n / 5000. -/
theorem cover4 (i : S100000x64.Idx) :
    ∃ t : Fin cfg4.N, (cfg4.win 2).flush t = true ∧ i ∈ ((cfg4.win 2).blk t).view.set := by
  have hi0 : (i 0).val < 100000 := (i 0).isLt
  have hi1 : (i 1).val < 64 := (i 1).isLt
  obtain ⟨t, ht⟩ := onto4 ⟨(i 0).val / 5000, by omega⟩
  have q0 : win4_2.index t (0 : Fin 2) = (i 0).val / 5000 := congrFun ht 0
  have q1 : win4_2.index t (1 : Fin 2) = 0 := congrFun ht 1
  refine ⟨t, flush4_2 t, ?_⟩
  rw [mem_blk4]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 64 ≤ (i 1).val ∧ (i 1).val < win4_2.index t (1 : Fin 2) * 64 + 64; omega

/-- When the region ends its output array is the projection of the two arrays it was entered with. -/
theorem final4 (c : Dev nD) :
    (dat4 (F := Ideal) V c).arrAt 2 cfg4.N = Cert.Gcn.linArr (N := 100000) (V c main_arg0) (V c main_v42) :=
  (dat4 (F := Ideal) V c).arrAt_eq_of_cover 2 _ (fun t _ => flushed4 V c t) (cover4)

end Cert.KernelIdeal.Reg

end
-- ==== Proof.Region5.lean ====
/-
  Region 5, the rectifier and the accumulation over 20 tiles of 5000 rows: what its two output arrays hold when
  the region ends.

  Tile t reads rows 5000 t .. 5000 t + 4999 of the aggregated features and of the running sum, and writes the same
  rows of both outputs.  The rectifier is entry by entry; the scaling of a row uses that row's own sum of squares and
  nothing else, so a tile of whole rows computes the rows of the whole-array function.  The 20 tiles cover every row.
-/
import proofs.«114183_j72945724555834_1_alg».proof.Proof.Gen.KernelIdeal.Frame
import Idealize.ShloMosaic.Lib.Pipeline.Value
import proofs.«114183_j72945724555834_1_alg».proof.Proof.Blocks

set_option maxRecDepth 16384

noncomputable section

namespace Cert.KernelIdeal.Reg

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz5 : (![0, 0] : Fin 2 → Nat) = fun _ => 0 := funext fun a => by fin_cases a <;> rfl

/-- The printed index maps over the grid: all four windows move one block of rows per tile. -/
theorem idx5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = t.val ∧ win5_3.index t (1 : Fin 2) = 0 :=
  (by decide +kernel : ∀ t : Fin grid5.N, _)

/-- Every block of rows is some tile's, for each output. -/
theorem onto5_2 : ∀ q0 : Fin 20, ∃ t : Fin cfg5.N, win5_2.index t = ![q0.val, 0] :=
  (by decide +kernel : ∀ q0 : Fin 20, ∃ t : Fin grid5.N, win5_2.index t = ![q0.val, 0])
theorem onto5_3 : ∀ q0 : Fin 20, ∃ t : Fin cfg5.N, win5_3.index t = ![q0.val, 0] :=
  (by decide +kernel : ∀ q0 : Fin 20, ∃ t : Fin grid5.N, win5_3.index t = ![q0.val, 0])

/-- What tile t writes back to the first output is block t of the rectified entry array. -/
theorem flushed5_2 (c : Dev nD) (t : Fin cfg5.N) :
    (dat5 (F := Ideal) V c).flushed 2 t
      = ((cfg5.win 2).blk t).view.read (Elt Ideal) (Cert.Gcn.leakArr (N := 100000) (V c main_v56)) := by
  show (cfg5.win 2).cut (grid5.coords t) ((dat5 (F := Ideal) V c).after 2 t) = _
  rw [after5_2]
  unfold out5_2
  rw [View.canon_unit_zero hz5]
  simp only [View.ld_unit_zero (S := S5000x64) hz5]
  rw [Blk.leak5]
  obtain ⟨e0, e1, e2, e3, e4, e5, e6, e7⟩ := idx5 t
  funext j
  show Cert.Gcn.leak (V c main_v56 (((cfg5.win 0).blk t).view.emb j)) = Cert.Gcn.leak (V c main_v56 (((cfg5.win 2).blk t).view.emb j))
  have h0 : ((cfg5.win 0).blk t).view.emb j = ((cfg5.win 2).blk t).view.emb j := by
    funext a; apply Fin.ext
    match a with
    | ⟨0, _⟩ => show win5_0.index t (0 : Fin 2) * 5000 + 1 * (j 0).val = win5_2.index t (0 : Fin 2) * 5000 + 1 * (j 0).val; omega
    | ⟨1, _⟩ => show win5_0.index t (1 : Fin 2) * 64 + 1 * (j 1).val = win5_2.index t (1 : Fin 2) * 64 + 1 * (j 1).val; omega
  rw [h0]

/-- What tile t writes back to the second output is block t of the accumulation of the two entry arrays. -/
theorem flushed5_3 (c : Dev nD) (t : Fin cfg5.N) :
    (dat5 (F := Ideal) V c).flushed 3 t
      = ((cfg5.win 3).blk t).view.read (Elt Ideal) (Cert.Gcn.accArr (N := 100000) (V c main_v56) (V c main_arg0)) := by
  show (cfg5.win 3).cut (grid5.coords t) ((dat5 (F := Ideal) V c).after 3 t) = _
  rw [after5_3]
  unfold out5_3
  rw [View.canon_unit_zero hz5]
  simp only [View.ld_unit_zero (S := S5000x64) hz5]
  rw [Blk.acc5]
  obtain ⟨e0, e1, e2, e3, e4, e5, e6, e7⟩ := idx5 t
  funext j
  have h0 : ((cfg5.win 0).blk t).view.emb j = ((cfg5.win 3).blk t).view.emb j := by
    funext a; apply Fin.ext
    match a with
    | ⟨0, _⟩ => show win5_0.index t (0 : Fin 2) * 5000 + 1 * (j 0).val = win5_3.index t (0 : Fin 2) * 5000 + 1 * (j 0).val; omega
    | ⟨1, _⟩ => show win5_0.index t (1 : Fin 2) * 64 + 1 * (j 1).val = win5_3.index t (1 : Fin 2) * 64 + 1 * (j 1).val; omega
  have h1 : ((cfg5.win 1).blk t).view.emb j = ((cfg5.win 3).blk t).view.emb j := by
    funext a; apply Fin.ext
    match a with
    | ⟨0, _⟩ => show win5_1.index t (0 : Fin 2) * 5000 + 1 * (j 0).val = win5_3.index t (0 : Fin 2) * 5000 + 1 * (j 0).val; omega
    | ⟨1, _⟩ => show win5_1.index t (1 : Fin 2) * 64 + 1 * (j 1).val = win5_3.index t (1 : Fin 2) * 64 + 1 * (j 1).val; omega
  have hk : ∀ k : Fin 64, ((cfg5.win 0).blk t).view.emb (ix2 (j 0) k) = ix2 ((((cfg5.win 3).blk t).view.emb j) 0) k := fun k => by
    funext a; apply Fin.ext
    match a with
    | ⟨0, _⟩ => show win5_0.index t (0 : Fin 2) * 5000 + 1 * (j 0).val = win5_3.index t (0 : Fin 2) * 5000 + 1 * (j 0).val; omega
    | ⟨1, _⟩ => show win5_0.index t (1 : Fin 2) * 64 + 1 * k.val = k.val; omega
  exact congrArg₂ (fun a b : EReal => a + b) (congrArg (V c main_arg0) h1)
    (congrArg₂ Cert.Gcn.unitize (congrArg (fun z => Cert.Gcn.leak (V c main_v56 z)) h0)
      (Finset.sum_congr rfl fun k _ => by
        show Cert.Gcn.leak (V c main_v56 (((cfg5.win 0).blk t).view.emb (ix2 (j 0) k))) * Cert.Gcn.leak (V c main_v56 (((cfg5.win 0).blk t).view.emb (ix2 (j 0) k))) = _
        rw [hk k]; rfl))

/-- An index of output array 2 is in tile t's block iff each coordinate is in the block's range. -/
theorem mem_blk5_2 (t : Fin cfg5.N) (i : S100000x64.Idx) :
    i ∈ ((cfg5.win 2).blk t).view.set ↔ ∀ a : Fin 2, win5_2.index t a * S5000x64.size a ≤ (i a).val ∧ (i a).val < win5_2.index t a * S5000x64.size a + S5000x64.size a := by
  show i ∈ ((View.whole main_v57_0).slice (win5_2.rect t)).set ↔ _
  rw [View.set_slice_whole, Rect.mem_set_unit]
  exact Iff.rfl

/-- The tiles cover output array 2: row n is in the block of tile n / 5000. -/
theorem cover5_2 (i : S100000x64.Idx) :
    ∃ t : Fin cfg5.N, (cfg5.win 2).flush t = true ∧ i ∈ ((cfg5.win 2).blk t).view.set := by
  have hi0 : (i 0).val < 100000 := (i 0).isLt
  have hi1 : (i 1).val < 64 := (i 1).isLt
  obtain ⟨t, ht⟩ := onto5_2 ⟨(i 0).val / 5000, by omega⟩
  have q0 : win5_2.index t (0 : Fin 2) = (i 0).val / 5000 := congrFun ht 0
  have q1 : win5_2.index t (1 : Fin 2) = 0 := congrFun ht 1
  refine ⟨t, flush5_2 t, ?_⟩
  rw [mem_blk5_2]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 64 ≤ (i 1).val ∧ (i 1).val < win5_2.index t (1 : Fin 2) * 64 + 64; omega

/-- An index of output array 3 is in tile t's block iff each coordinate is in the block's range. -/
theorem mem_blk5_3 (t : Fin cfg5.N) (i : S100000x64.Idx) :
    i ∈ ((cfg5.win 3).blk t).view.set ↔ ∀ a : Fin 2, win5_3.index t a * S5000x64.size a ≤ (i a).val ∧ (i a).val < win5_3.index t a * S5000x64.size a + S5000x64.size a := by
  show i ∈ ((View.whole main_v57_1).slice (win5_3.rect t)).set ↔ _
  rw [View.set_slice_whole, Rect.mem_set_unit]
  exact Iff.rfl

/-- The tiles cover output array 3: row n is in the block of tile n / 5000. -/
theorem cover5_3 (i : S100000x64.Idx) :
    ∃ t : Fin cfg5.N, (cfg5.win 3).flush t = true ∧ i ∈ ((cfg5.win 3).blk t).view.set := by
  have hi0 : (i 0).val < 100000 := (i 0).isLt
  have hi1 : (i 1).val < 64 := (i 1).isLt
  obtain ⟨t, ht⟩ := onto5_3 ⟨(i 0).val / 5000, by omega⟩
  have q0 : win5_3.index t (0 : Fin 2) = (i 0).val / 5000 := congrFun ht 0
  have q1 : win5_3.index t (1 : Fin 2) = 0 := congrFun ht 1
  refine ⟨t, flush5_3 t, ?_⟩
  rw [mem_blk5_3]
  intro a
  match a with
  | ⟨0, _⟩ => show win5_3.index t (0 : Fin 2) * 5000 ≤ (i 0).val ∧ (i 0).val < win5_3.index t (0 : Fin 2) * 5000 + 5000; omega
  | ⟨1, _⟩ => show win5_3.index t (1 : Fin 2) * 64 ≤ (i 1).val ∧ (i 1).val < win5_3.index t (1 : Fin 2) * 64 + 64; omega

/-- When the region ends its first output is the rectified entry array. -/
theorem final5_2 (c : Dev nD) :
    (dat5 (F := Ideal) V c).arrAt 2 cfg5.N = Cert.Gcn.leakArr (N := 100000) (V c main_v56) :=
  (dat5 (F := Ideal) V c).arrAt_eq_of_cover 2 _ (fun t _ => flushed5_2 V c t) (cover5_2)

/-- When the region ends its second output is the accumulation of the two entry arrays. -/
theorem final5_3 (c : Dev nD) :
    (dat5 (F := Ideal) V c).arrAt 3 cfg5.N = Cert.Gcn.accArr (N := 100000) (V c main_v56) (V c main_arg0) :=
  (dat5 (F := Ideal) V c).arrAt_eq_of_cover 3 _ (fun t _ => flushed5_3 V c t) (cover5_3)

end Cert.KernelIdeal.Reg

end
-- ==== Proof.Region6.lean ====
/-
  Region 6, a projection over 20 tiles of 5000 rows: what its output array holds when the region ends.

  Tile t reads rows 5000 t .. 5000 t + 4999 of the features and all of the weights, and writes the same rows of
  the output; by the tile lemma those rows are the rows of the product of the WHOLE feature array with the weights
  (entry (n, c) of a product depends on row n of the left factor only).  The 20 tiles cover every row, so the
  output array ends as the projection of the two arrays the region was entered with.
-/
import proofs.«114183_j72945724555834_1_alg».proof.Proof.Gen.KernelIdeal.Frame
import Idealize.ShloMosaic.Lib.Pipeline.Value
import proofs.«114183_j72945724555834_1_alg».proof.Proof.Blocks

set_option maxRecDepth 16384

noncomputable section

namespace Cert.KernelIdeal.Reg

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz6 : (![0, 0] : Fin 2 → Nat) = fun _ => 0 := funext fun a => by fin_cases a <;> rfl

/-- The printed index maps over the grid: the features and the output move one block of rows per tile, the weights
    stay put. -/
theorem idx6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- Every block of rows is some tile's. -/
theorem onto6 : ∀ q0 : Fin 20, ∃ t : Fin cfg6.N, win6_2.index t = ![q0.val, 0] :=
  (by decide +kernel : ∀ q0 : Fin 20, ∃ t : Fin grid6.N, win6_2.index t = ![q0.val, 0])

/-- What tile t writes back is block t of the projection of the entry arrays. -/
theorem flushed6 (c : Dev nD) (t : Fin cfg6.N) :
    (dat6 (F := Ideal) V c).flushed 2 t
      = ((cfg6.win 2).blk t).view.read (Elt Ideal) (Cert.Gcn.linArr (N := 100000) (V c main_v57_0) (V c main_v59)) := by
  show (cfg6.win 2).cut (grid6.coords t) ((dat6 (F := Ideal) V c).after 2 t) = _
  rw [after6_2]
  unfold out6_2
  rw [View.canon_unit_zero hz6]
  simp only [View.ld_unit_zero (S := S5000x64) hz6, View.ld_unit_zero (S := S64x64) hz6]
  rw [Blk.lin6]
  obtain ⟨e0, e1, e2, e3, e4, e5⟩ := idx6 t
  funext j
  have h0 : ∀ k : Fin 64, ((cfg6.win 0).blk t).view.emb (ix2 (j 0) k) = ix2 ((((cfg6.win 2).blk t).view.emb j) 0) k := fun k => by
    funext a; apply Fin.ext
    match a with
    | ⟨0, _⟩ => show win6_0.index t (0 : Fin 2) * 5000 + 1 * (j 0).val = win6_2.index t (0 : Fin 2) * 5000 + 1 * (j 0).val; omega
    | ⟨1, _⟩ => show win6_0.index t (1 : Fin 2) * 64 + 1 * k.val = k.val; omega
  have h1 : ∀ k : Fin 64, ((cfg6.win 1).blk t).view.emb (ix2 k (j 1)) = ix2 k ((((cfg6.win 2).blk t).view.emb j) 1) := fun k => by
    funext a; apply Fin.ext
    match a with
    | ⟨0, _⟩ => show win6_1.index t (0 : Fin 2) * 64 + 1 * k.val = k.val; omega
    | ⟨1, _⟩ => show win6_1.index t (1 : Fin 2) * 64 + 1 * (j 1).val = win6_2.index t (1 : Fin 2) * 64 + 1 * (j 1).val; omega
  show Cert.Gcn.linArr (N := 5000) (fun y => V c main_v57_0 (((cfg6.win 0).blk t).view.emb y)) (fun y => V c main_v59 (((cfg6.win 1).blk t).view.emb y)) j
    = Cert.Gcn.linArr (N := 100000) (V c main_v57_0) (V c main_v59) (((cfg6.win 2).blk t).view.emb j)
  exact Finset.sum_congr rfl fun k _ =>
    congrArg₂ (fun a b : EReal => a * b) (congrArg (V c main_v57_0) (h0 k)) (congrArg (V c main_v59) (h1 k))

/-- An index of the output array is in tile t's block iff each coordinate is in the block's range. -/
theorem mem_blk6 (t : Fin cfg6.N) (i : S100000x64.Idx) :
    i ∈ ((cfg6.win 2).blk t).view.set ↔ ∀ a : Fin 2, win6_2.index t a * S5000x64.size a ≤ (i a).val ∧ (i a).val < win6_2.index t a * S5000x64.size a + S5000x64.size a := by
  show i ∈ ((View.whole main_v60).slice (win6_2.rect t)).set ↔ _
  rw [View.set_slice_whole, Rect.mem_set_unit]
  exact Iff.rfl

/-- The tiles cover the output array: row n is in the block of tile n / 5000. -/
theorem cover6 (i : S100000x64.Idx) :
    ∃ t : Fin cfg6.N, (cfg6.win 2).flush t = true ∧ i ∈ ((cfg6.win 2).blk t).view.set := by
  have hi0 : (i 0).val < 100000 := (i 0).isLt
  have hi1 : (i 1).val < 64 := (i 1).isLt
  obtain ⟨t, ht⟩ := onto6 ⟨(i 0).val / 5000, by omega⟩
  have q0 : win6_2.index t (0 : Fin 2) = (i 0).val / 5000 := congrFun ht 0
  have q1 : win6_2.index t (1 : Fin 2) = 0 := congrFun ht 1
  refine ⟨t, flush6_2 t, ?_⟩
  rw [mem_blk6]
  intro a
  match a with
  | ⟨0, _⟩ => show win6_2.index t (0 : Fin 2) * 5000 ≤ (i 0).val ∧ (i 0).val < win6_2.index t (0 : Fin 2) * 5000 + 5000; omega
  | ⟨1, _⟩ => show win6_2.index t (1 : Fin 2) * 64 ≤ (i 1).val ∧ (i 1).val < win6_2.index t (1 : Fin 2) * 64 + 64; omega

/-- When the region ends its output array is the projection of the two arrays it was entered with. -/
theorem final6 (c : Dev nD) :
    (dat6 (F := Ideal) V c).arrAt 2 cfg6.N = Cert.Gcn.linArr (N := 100000) (V c main_v57_0) (V c main_v59) :=
  (dat6 (F := Ideal) V c).arrAt_eq_of_cover 2 _ (fun t _ => flushed6 V c t) (cover6)

end Cert.KernelIdeal.Reg

end
-- ==== Proof.Region7.lean ====
/-
  Region 7, the rectifier and the accumulation over 20 tiles of 5000 rows: what its two output arrays hold when
  the region ends.

  Tile t reads rows 5000 t .. 5000 t + 4999 of the aggregated features and of the running sum, and writes the same
  rows of both outputs.  The rectifier is entry by entry; the scaling of a row uses that row's own sum of squares and
  nothing else, so a tile of whole rows computes the rows of the whole-array function.  The 20 tiles cover every row.
-/
import proofs.«114183_j72945724555834_1_alg».proof.Proof.Gen.KernelIdeal.Frame
import Idealize.ShloMosaic.Lib.Pipeline.Value
import proofs.«114183_j72945724555834_1_alg».proof.Proof.Blocks

set_option maxRecDepth 16384

noncomputable section

namespace Cert.KernelIdeal.Reg

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz7 : (![0, 0] : Fin 2 → Nat) = fun _ => 0 := funext fun a => by fin_cases a <;> rfl

/-- The printed index maps over the grid: all four windows move one block of rows per tile. -/
theorem idx7 : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = t.val ∧ win7_3.index t (1 : Fin 2) = 0 :=
  (by decide +kernel : ∀ t : Fin grid7.N, _)

/-- Every block of rows is some tile's, for each output. -/
theorem onto7_2 : ∀ q0 : Fin 20, ∃ t : Fin cfg7.N, win7_2.index t = ![q0.val, 0] :=
  (by decide +kernel : ∀ q0 : Fin 20, ∃ t : Fin grid7.N, win7_2.index t = ![q0.val, 0])
theorem onto7_3 : ∀ q0 : Fin 20, ∃ t : Fin cfg7.N, win7_3.index t = ![q0.val, 0] :=
  (by decide +kernel : ∀ q0 : Fin 20, ∃ t : Fin grid7.N, win7_3.index t = ![q0.val, 0])

/-- What tile t writes back to the first output is block t of the rectified entry array. -/
theorem flushed7_2 (c : Dev nD) (t : Fin cfg7.N) :
    (dat7 (F := Ideal) V c).flushed 2 t
      = ((cfg7.win 2).blk t).view.read (Elt Ideal) (Cert.Gcn.leakArr (N := 100000) (V c main_v73)) := by
  show (cfg7.win 2).cut (grid7.coords t) ((dat7 (F := Ideal) V c).after 2 t) = _
  rw [after7_2]
  unfold out7_2
  rw [View.canon_unit_zero hz7]
  simp only [View.ld_unit_zero (S := S5000x64) hz7]
  rw [Blk.leak7]
  obtain ⟨e0, e1, e2, e3, e4, e5, e6, e7⟩ := idx7 t
  funext j
  show Cert.Gcn.leak (V c main_v73 (((cfg7.win 0).blk t).view.emb j)) = Cert.Gcn.leak (V c main_v73 (((cfg7.win 2).blk t).view.emb j))
  have h0 : ((cfg7.win 0).blk t).view.emb j = ((cfg7.win 2).blk t).view.emb j := by
    funext a; apply Fin.ext
    match a with
    | ⟨0, _⟩ => show win7_0.index t (0 : Fin 2) * 5000 + 1 * (j 0).val = win7_2.index t (0 : Fin 2) * 5000 + 1 * (j 0).val; omega
    | ⟨1, _⟩ => show win7_0.index t (1 : Fin 2) * 64 + 1 * (j 1).val = win7_2.index t (1 : Fin 2) * 64 + 1 * (j 1).val; omega
  rw [h0]

/-- What tile t writes back to the second output is block t of the accumulation of the two entry arrays. -/
theorem flushed7_3 (c : Dev nD) (t : Fin cfg7.N) :
    (dat7 (F := Ideal) V c).flushed 3 t
      = ((cfg7.win 3).blk t).view.read (Elt Ideal) (Cert.Gcn.accArr (N := 100000) (V c main_v73) (V c main_v57_1)) := by
  show (cfg7.win 3).cut (grid7.coords t) ((dat7 (F := Ideal) V c).after 3 t) = _
  rw [after7_3]
  unfold out7_3
  rw [View.canon_unit_zero hz7]
  simp only [View.ld_unit_zero (S := S5000x64) hz7]
  rw [Blk.acc7]
  obtain ⟨e0, e1, e2, e3, e4, e5, e6, e7⟩ := idx7 t
  funext j
  have h0 : ((cfg7.win 0).blk t).view.emb j = ((cfg7.win 3).blk t).view.emb j := by
    funext a; apply Fin.ext
    match a with
    | ⟨0, _⟩ => show win7_0.index t (0 : Fin 2) * 5000 + 1 * (j 0).val = win7_3.index t (0 : Fin 2) * 5000 + 1 * (j 0).val; omega
    | ⟨1, _⟩ => show win7_0.index t (1 : Fin 2) * 64 + 1 * (j 1).val = win7_3.index t (1 : Fin 2) * 64 + 1 * (j 1).val; omega
  have h1 : ((cfg7.win 1).blk t).view.emb j = ((cfg7.win 3).blk t).view.emb j := by
    funext a; apply Fin.ext
    match a with
    | ⟨0, _⟩ => show win7_1.index t (0 : Fin 2) * 5000 + 1 * (j 0).val = win7_3.index t (0 : Fin 2) * 5000 + 1 * (j 0).val; omega
    | ⟨1, _⟩ => show win7_1.index t (1 : Fin 2) * 64 + 1 * (j 1).val = win7_3.index t (1 : Fin 2) * 64 + 1 * (j 1).val; omega
  have hk : ∀ k : Fin 64, ((cfg7.win 0).blk t).view.emb (ix2 (j 0) k) = ix2 ((((cfg7.win 3).blk t).view.emb j) 0) k := fun k => by
    funext a; apply Fin.ext
    match a with
    | ⟨0, _⟩ => show win7_0.index t (0 : Fin 2) * 5000 + 1 * (j 0).val = win7_3.index t (0 : Fin 2) * 5000 + 1 * (j 0).val; omega
    | ⟨1, _⟩ => show win7_0.index t (1 : Fin 2) * 64 + 1 * k.val = k.val; omega
  exact congrArg₂ (fun a b : EReal => a + b) (congrArg (V c main_v57_1) h1)
    (congrArg₂ Cert.Gcn.unitize (congrArg (fun z => Cert.Gcn.leak (V c main_v73 z)) h0)
      (Finset.sum_congr rfl fun k _ => by
        show Cert.Gcn.leak (V c main_v73 (((cfg7.win 0).blk t).view.emb (ix2 (j 0) k))) * Cert.Gcn.leak (V c main_v73 (((cfg7.win 0).blk t).view.emb (ix2 (j 0) k))) = _
        rw [hk k]; rfl))

/-- An index of output array 2 is in tile t's block iff each coordinate is in the block's range. -/
theorem mem_blk7_2 (t : Fin cfg7.N) (i : S100000x64.Idx) :
    i ∈ ((cfg7.win 2).blk t).view.set ↔ ∀ a : Fin 2, win7_2.index t a * S5000x64.size a ≤ (i a).val ∧ (i a).val < win7_2.index t a * S5000x64.size a + S5000x64.size a := by
  show i ∈ ((View.whole main_v74_0).slice (win7_2.rect t)).set ↔ _
  rw [View.set_slice_whole, Rect.mem_set_unit]
  exact Iff.rfl

/-- The tiles cover output array 2: row n is in the block of tile n / 5000. -/
theorem cover7_2 (i : S100000x64.Idx) :
    ∃ t : Fin cfg7.N, (cfg7.win 2).flush t = true ∧ i ∈ ((cfg7.win 2).blk t).view.set := by
  have hi0 : (i 0).val < 100000 := (i 0).isLt
  have hi1 : (i 1).val < 64 := (i 1).isLt
  obtain ⟨t, ht⟩ := onto7_2 ⟨(i 0).val / 5000, by omega⟩
  have q0 : win7_2.index t (0 : Fin 2) = (i 0).val / 5000 := congrFun ht 0
  have q1 : win7_2.index t (1 : Fin 2) = 0 := congrFun ht 1
  refine ⟨t, flush7_2 t, ?_⟩
  rw [mem_blk7_2]
  intro a
  match a with
  | ⟨0, _⟩ => show win7_2.index t (0 : Fin 2) * 5000 ≤ (i 0).val ∧ (i 0).val < win7_2.index t (0 : Fin 2) * 5000 + 5000; omega
  | ⟨1, _⟩ => show win7_2.index t (1 : Fin 2) * 64 ≤ (i 1).val ∧ (i 1).val < win7_2.index t (1 : Fin 2) * 64 + 64; omega

/-- An index of output array 3 is in tile t's block iff each coordinate is in the block's range. -/
theorem mem_blk7_3 (t : Fin cfg7.N) (i : S100000x64.Idx) :
    i ∈ ((cfg7.win 3).blk t).view.set ↔ ∀ a : Fin 2, win7_3.index t a * S5000x64.size a ≤ (i a).val ∧ (i a).val < win7_3.index t a * S5000x64.size a + S5000x64.size a := by
  show i ∈ ((View.whole main_v74_1).slice (win7_3.rect t)).set ↔ _
  rw [View.set_slice_whole, Rect.mem_set_unit]
  exact Iff.rfl

/-- The tiles cover output array 3: row n is in the block of tile n / 5000. -/
theorem cover7_3 (i : S100000x64.Idx) :
    ∃ t : Fin cfg7.N, (cfg7.win 3).flush t = true ∧ i ∈ ((cfg7.win 3).blk t).view.set := by
  have hi0 : (i 0).val < 100000 := (i 0).isLt
  have hi1 : (i 1).val < 64 := (i 1).isLt
  obtain ⟨t, ht⟩ := onto7_3 ⟨(i 0).val / 5000, by omega⟩
  have q0 : win7_3.index t (0 : Fin 2) = (i 0).val / 5000 := congrFun ht 0
  have q1 : win7_3.index t (1 : Fin 2) = 0 := congrFun ht 1
  refine ⟨t, flush7_3 t, ?_⟩
  rw [mem_blk7_3]
  intro a
  match a with
  | ⟨0, _⟩ => show win7_3.index t (0 : Fin 2) * 5000 ≤ (i 0).val ∧ (i 0).val < win7_3.index t (0 : Fin 2) * 5000 + 5000; omega
  | ⟨1, _⟩ => show win7_3.index t (1 : Fin 2) * 64 ≤ (i 1).val ∧ (i 1).val < win7_3.index t (1 : Fin 2) * 64 + 64; omega

/-- When the region ends its first output is the rectified entry array. -/
theorem final7_2 (c : Dev nD) :
    (dat7 (F := Ideal) V c).arrAt 2 cfg7.N = Cert.Gcn.leakArr (N := 100000) (V c main_v73) :=
  (dat7 (F := Ideal) V c).arrAt_eq_of_cover 2 _ (fun t _ => flushed7_2 V c t) (cover7_2)

/-- When the region ends its second output is the accumulation of the two entry arrays. -/
theorem final7_3 (c : Dev nD) :
    (dat7 (F := Ideal) V c).arrAt 3 cfg7.N = Cert.Gcn.accArr (N := 100000) (V c main_v73) (V c main_v57_1) :=
  (dat7 (F := Ideal) V c).arrAt_eq_of_cover 3 _ (fun t _ => flushed7_3 V c t) (cover7_3)

end Cert.KernelIdeal.Reg

end
-- ==== Proof.Stages.lean ====
/-
  The array program, stage by stage, through the three layer functions.

  Each branch of the array program is: project, aggregate over the edges, rectify, scale the rows and accumulate —
  twice.  Its matrix products are the projection, its compare-and-select the rectifier, and its row-norm chain plus
  the addition the accumulation (Spec).  The edge aggregation (gather the source rows, weight them, scatter-add at the
  destination rows) and the split-and-rejoin of the user and item rows are named here as functions of their input
  array and left unopened: the tiled program applies the very same operations to its own intermediate arrays.
-/
import proofs.«114183_j72945724555834_1_alg».proof.Proof.Gen.ReferenceIdeal.Read
import proofs.«114183_j72945724555834_1_alg».proof.Proof.Spec

set_option maxRecDepth 16384

noncomputable section

namespace Cert.ReferenceIdeal.Stage

open Cert.ReferenceIdeal Cert.ReferenceIdeal.Gen Cert.ReferenceIdeal.Read Cert.Gcn Idealize.ShloMosaic Idealize.ShloMosaic.ValueIdx

/-- The array types of the program: features of 250000, 100000 and 150000 nodes, a stack of two weight matrices, one
    weight matrix, an edge list's index words and its weights. -/
abbrev A250 : Type := FVec Ideal S250000x64 .f32
abbrev A100 : Type := FVec Ideal S100000x64 .f32
abbrev A150 : Type := FVec Ideal S150000x64 .f32
abbrev Wts : Type := FVec Ideal S2x64x64 .f32
abbrev W64 : Type := FVec Ideal S64x64 .f32
abbrev I1M : Type := IVec S1000000 32
abbrev F1M : Type := FVec Ideal S1000000 .f32

/-- The edge aggregation over the user-item graph: row n of the result is the sum, over the edges whose row word is
    n, of the edge's weight times the source array's row at the edge's column word (a negative column word counted
    from the end). -/
def aggUI (src : A250) (rows cols : I1M) (vals : F1M) : A250 :=
  Host.scatterAdd scatter_S250000x64_S1000000x1_S1000000x64_1_0_0_1 (val_main_v15 (F := Ideal)) (val_main_v16 (F := Ideal) rows)
    (mulf (val_main_v13 (F := Ideal) vals)
      (Host.gather gather_S250000x64_S1000000x1_S1000000x64_1_0_n_n_0_1_164 src (val_main_v11 (F := Ideal) cols)))

/-- The edge aggregation over the social graph (100000 users). -/
def aggS (src : A100) (rows cols : I1M) (vals : F1M) : A100 :=
  Host.scatterAdd scatter_S100000x64_S1000000x1_S1000000x64_1_0_0_1 (val_main_v74 (F := Ideal)) (val_main_v75 (F := Ideal) rows)
    (mulf (val_main_v72 (F := Ideal) vals)
      (Host.gather gather_S100000x64_S1000000x1_S1000000x64_1_0_n_n_0_1_164 src (val_main_v70 (F := Ideal) cols)))

/-- The user rows and the item rows cut apart and joined again. -/
def resplit (x : A250) : A250 :=
  concatenate S250000x64 0 [⟨S100000x64, extractStridedSlice S100000x64 ![0, 0] x slices_S250000x64_S100000x64_0_0⟩,
    ⟨S150000x64, extractStridedSlice S150000x64 ![100000, 0] x slices_S250000x64_S150000x64_100000_0⟩]
    concatenates_S100000x64_S150000x64_S250000x64_d0

theorem aggUI_congr {s s' : A250} {r r' k k' : I1M} {v v' : F1M} (hs : s = s') (hr : r = r') (hk : k = k') (hv : v = v') :
    aggUI s r k v = aggUI s' r' k' v' := by subst hs hr hk hv; rfl

theorem aggS_congr {s s' : A100} {r r' k k' : I1M} {v v' : F1M} (hs : s = s') (hr : r = r') (hk : k = k') (hv : v = v') :
    aggS s r k v = aggS s' r' k' v' := by subst hs hr hk hv; rfl

/-! ## The three spellings at the program's two sizes -/

theorem lin250 (x : A250) (w : W64) :
    Host.dotGeneral dot_S250000x64_S64x64_S250000x64_1_0_0_1_n_n none x w = linArr (N := 250000) x w :=
  dotGeneral_eq_linArr dot_S250000x64_S64x64_S250000x64_1_0_0_1_n_n.wf none x w

theorem lin100 (x : A100) (w : W64) :
    Host.dotGeneral dot_S100000x64_S64x64_S100000x64_1_0_0_1_n_n none x w = linArr (N := 100000) x w :=
  dotGeneral_eq_linArr dot_S100000x64_S64x64_S100000x64_1_0_0_1_n_n.wf none x w

theorem leak250 (a : A250) :
    select (cmpf .oge a (broadcastInDim S250000x64 ![] bcast_S_S250000x64 (constant (F := Ideal) S_ .f32 0x00000000#32))) a
        (mulf (broadcastInDim S250000x64 ![] bcast_S_S250000x64 (constant (F := Ideal) S_ .f32 0x3F000000#32)) a)
      = leakArr (N := 250000) a :=
  select_eq_leakArr a bcast_S_S250000x64

theorem leak100 (a : A100) :
    select (cmpf .oge a (broadcastInDim S100000x64 ![] bcast_S_S100000x64 (constant (F := Ideal) S_ .f32 0x00000000#32))) a
        (mulf (broadcastInDim S100000x64 ![] bcast_S_S100000x64 (constant (F := Ideal) S_ .f32 0x3F000000#32)) a)
      = leakArr (N := 100000) a :=
  select_eq_leakArr a bcast_S_S100000x64

theorem acc250 (a acc : A250) :
    addf acc (Host.divf (leakArr (N := 250000) a)
        (broadcastInDim S250000x64 ![0, 1] bcast_S250000x1_S250000x64_0_1
          (maximumf (Host.sqrt (broadcastInDim S250000x1 ![0] bcast_S250000_S250000x1_0
              (Host.reduceAdd (mulf (leakArr (N := 250000) a) (leakArr (N := 250000) a)) (constant (F := Ideal) S_ .f32 0x00000000#32)
                reducesTo_S250000x64_S250000_d1 h_S_)))
            (broadcastInDim S250000x1 ![] bcast_S_S250000x1 (constant (F := Ideal) S_ .f32 0x2B8CBCCC#32)))))
      = accArr (N := 250000) a acc :=
  host_eq_accArr a acc reducesTo_S250000x64_S250000_d1 (by decide) h_S_ bcast_S250000_S250000x1_0 bcast_S_S250000x1
    bcast_S250000x1_S250000x64_0_1

theorem acc100 (a acc : A100) :
    addf acc (Host.divf (leakArr (N := 100000) a)
        (broadcastInDim S100000x64 ![0, 1] bcast_S100000x1_S100000x64_0_1
          (maximumf (Host.sqrt (broadcastInDim S100000x1 ![0] bcast_S100000_S100000x1_0
              (Host.reduceAdd (mulf (leakArr (N := 100000) a) (leakArr (N := 100000) a)) (constant (F := Ideal) S_ .f32 0x00000000#32)
                reducesTo_S100000x64_S100000_d1 h_S_)))
            (broadcastInDim S100000x1 ![] bcast_S_S100000x1 (constant (F := Ideal) S_ .f32 0x2B8CBCCC#32)))))
      = accArr (N := 100000) a acc :=
  host_eq_accArr a acc reducesTo_S100000x64_S100000_d1 (by decide) h_S_ bcast_S100000_S100000x1_0 bcast_S_S100000x1
    bcast_S100000x1_S100000x64_0_1

/-! ## The user-item branch -/

section UI
variable (x0 : A100) (x1 : A150) (x2 : Wts) (x4 x5 : I1M) (x6 : F1M)

theorem v4_eq : val_main_v4 (F := Ideal) x0 x1 x2 = linArr (N := 250000) (val_main_v1 (F := Ideal) x0 x1) (val_main_v3 (F := Ideal) x2) :=
  lin250 _ _
theorem v17_eq : val_main_v17 (F := Ideal) x0 x1 x2 x4 x5 x6 = aggUI (val_main_v4 (F := Ideal) x0 x1 x2) x4 x5 x6 := rfl
theorem v22_eq : val_main_v22 (F := Ideal) x0 x1 x2 x4 x5 x6 = leakArr (N := 250000) (val_main_v17 (F := Ideal) x0 x1 x2 x4 x5 x6) :=
  leak250 _
theorem v59_eq : val_main_v59 (F := Ideal) x0 x1 x2 x4 x5 x6
    = accArr (N := 250000) (val_main_v17 (F := Ideal) x0 x1 x2 x4 x5 x6) (val_main_v0 (F := Ideal) x0 x1) := by
  have h := acc250 (val_main_v17 (F := Ideal) x0 x1 x2 x4 x5 x6) (val_main_v0 (F := Ideal) x0 x1)
  rw [← v22_eq x0 x1 x2 x4 x5 x6] at h
  exact h
theorem v30_eq : val_main_v30 (F := Ideal) x0 x1 x2 x4 x5 x6 = resplit (val_main_v22 (F := Ideal) x0 x1 x2 x4 x5 x6) := rfl
theorem v33_eq : val_main_v33 (F := Ideal) x0 x1 x2 x4 x5 x6
    = linArr (N := 250000) (val_main_v30 (F := Ideal) x0 x1 x2 x4 x5 x6) (val_main_v32 (F := Ideal) x2) :=
  lin250 _ _
theorem v46_eq : val_main_v46 (F := Ideal) x0 x1 x2 x4 x5 x6 = aggUI (val_main_v33 (F := Ideal) x0 x1 x2 x4 x5 x6) x4 x5 x6 := rfl
theorem v51_eq : val_main_v51 (F := Ideal) x0 x1 x2 x4 x5 x6 = leakArr (N := 250000) (val_main_v46 (F := Ideal) x0 x1 x2 x4 x5 x6) :=
  leak250 _
theorem v60_eq : val_main_v60 (F := Ideal) x0 x1 x2 x4 x5 x6
    = accArr (N := 250000) (val_main_v46 (F := Ideal) x0 x1 x2 x4 x5 x6) (val_main_v59 (F := Ideal) x0 x1 x2 x4 x5 x6) := by
  have h := acc250 (val_main_v46 (F := Ideal) x0 x1 x2 x4 x5 x6) (val_main_v59 (F := Ideal) x0 x1 x2 x4 x5 x6)
  rw [← v51_eq x0 x1 x2 x4 x5 x6] at h
  exact h

end UI

/-! ## The social branch -/

section Social
variable (x0 : A100) (x3 : Wts) (x7 x8 : I1M) (x9 : F1M)

theorem v63_eq : val_main_v63 (F := Ideal) x0 x3 = linArr (N := 100000) x0 (val_main_v62 (F := Ideal) x3) :=
  lin100 _ _
theorem v76_eq : val_main_v76 (F := Ideal) x0 x3 x7 x8 x9 = aggS (val_main_v63 (F := Ideal) x0 x3) x7 x8 x9 := rfl
theorem v81_eq : val_main_v81 (F := Ideal) x0 x3 x7 x8 x9 = leakArr (N := 100000) (val_main_v76 (F := Ideal) x0 x3 x7 x8 x9) :=
  leak100 _
theorem v113_eq : val_main_v113 (F := Ideal) x0 x3 x7 x8 x9 = accArr (N := 100000) (val_main_v76 (F := Ideal) x0 x3 x7 x8 x9) x0 := by
  have h := acc100 (val_main_v76 (F := Ideal) x0 x3 x7 x8 x9) x0
  rw [← v81_eq x0 x3 x7 x8 x9] at h
  exact h
theorem v89_eq : val_main_v89 (F := Ideal) x0 x3 x7 x8 x9
    = linArr (N := 100000) (val_main_v81 (F := Ideal) x0 x3 x7 x8 x9) (val_main_v88 (F := Ideal) x3) :=
  lin100 _ _
theorem v102_eq : val_main_v102 (F := Ideal) x0 x3 x7 x8 x9 = aggS (val_main_v89 (F := Ideal) x0 x3 x7 x8 x9) x7 x8 x9 := rfl
theorem v107_eq : val_main_v107 (F := Ideal) x0 x3 x7 x8 x9 = leakArr (N := 100000) (val_main_v102 (F := Ideal) x0 x3 x7 x8 x9) :=
  leak100 _
theorem v114_eq : val_main_v114 (F := Ideal) x0 x3 x7 x8 x9
    = accArr (N := 100000) (val_main_v102 (F := Ideal) x0 x3 x7 x8 x9) (val_main_v113 (F := Ideal) x0 x3 x7 x8 x9) := by
  have h := acc100 (val_main_v102 (F := Ideal) x0 x3 x7 x8 x9) (val_main_v113 (F := Ideal) x0 x3 x7 x8 x9)
  rw [← v107_eq x0 x3 x7 x8 x9] at h
  exact h

end Social

end Cert.ReferenceIdeal.Stage

end
-- ==== Proof.Fold.lean ====
/-
  The tiled program's two results, read through the fold of boundary contents.

  Going forward through @main: the first stretch joins the user and item features and cuts out the first weight
  matrix; region 0 projects; the second stretch aggregates over the edges; region 1 rectifies and starts the running
  sum; the next stretch re-joins the rectified rows and cuts out the second weight matrix; region 2 projects; the edge
  aggregation again; region 3 rectifies and adds the second normalized layer — the first result.  The social branch
  repeats this on the user features alone.  At every boundary the arrays the next step reads are, stage for stage,
  the arrays the plain array program computes (its stages are named `val_main_…`): a stretch's operations are the same
  operations, and a region's outputs are the layer functions of its entry arrays.
-/
import proofs.«114183_j72945724555834_1_alg».proof.Proof.Gen.KernelIdeal.Frame
import Idealize.ShloMosaic.Lib.StableHlo.Run
import proofs.«114183_j72945724555834_1_alg».proof.Proof.Keep
import proofs.«114183_j72945724555834_1_alg».proof.Proof.Region0
import proofs.«114183_j72945724555834_1_alg».proof.Proof.Region1
import proofs.«114183_j72945724555834_1_alg».proof.Proof.Region2
import proofs.«114183_j72945724555834_1_alg».proof.Proof.Region3
import proofs.«114183_j72945724555834_1_alg».proof.Proof.Region4
import proofs.«114183_j72945724555834_1_alg».proof.Proof.Region5
import proofs.«114183_j72945724555834_1_alg».proof.Proof.Region6
import proofs.«114183_j72945724555834_1_alg».proof.Proof.Region7
import proofs.«114183_j72945724555834_1_alg».proof.Proof.Stages

set_option maxRecDepth 16384

noncomputable section

namespace Cert.KernelIdeal.Val

open Cert.KernelIdeal Cert.KernelIdeal.Gen
open Idealize.ShloMosaic Idealize.ShloMosaic.TcCoe Idealize.SL.Sem Idealize.ShloMosaic.StableHlo
open Idealize.ShloMosaic.Pipeline (Dat Cfg Window)
open Cert.ReferenceIdeal.Read Cert.ReferenceIdeal.Stage Cert.Gcn

/-! ## The stretches, from any entry contents -/

section Stretch
variable (Wv : Valuation τ sig (Elt Ideal))

set_option maxHeartbeats 2000000 in
theorem s0_v0 : (StableHlo.after hostOps0 Wv (Proc.devRef .tc main_v0) : A250)
    = val_main_v0 (F := Ideal) (Wv (Proc.devRef .tc main_arg0)) (Wv (Proc.devRef .tc main_arg1)) := by
  after_results_simp <;> rfl
set_option maxHeartbeats 2000000 in
theorem s0_v1 : (StableHlo.after hostOps0 Wv (Proc.devRef .tc main_v1) : A250)
    = val_main_v1 (F := Ideal) (Wv (Proc.devRef .tc main_arg0)) (Wv (Proc.devRef .tc main_arg1)) := by
  after_results_simp <;> rfl
set_option maxHeartbeats 2000000 in
theorem s0_v3 : (StableHlo.after hostOps0 Wv (Proc.devRef .tc main_v3) : W64) = val_main_v3 (F := Ideal) (Wv (Proc.devRef .tc main_arg2)) := by
  after_results_simp <;> rfl
set_option maxHeartbeats 2000000 in
theorem s1_v17 : (StableHlo.after hostOps1 Wv (Proc.devRef .tc main_v17) : A250)
    = aggUI (Wv (Proc.devRef .tc main_v4)) (Wv (Proc.devRef .tc main_arg4)) (Wv (Proc.devRef .tc main_arg5)) (Wv (Proc.devRef .tc main_arg6)) := by
  after_results_simp <;> rfl
set_option maxHeartbeats 2000000 in
theorem s2_v21 : (StableHlo.after hostOps2 Wv (Proc.devRef .tc main_v21) : A250) = resplit (Wv (Proc.devRef .tc main_v18_0)) := by
  after_results_simp <;> rfl
set_option maxHeartbeats 2000000 in
theorem s2_v23 : (StableHlo.after hostOps2 Wv (Proc.devRef .tc main_v23) : W64) = val_main_v32 (F := Ideal) (Wv (Proc.devRef .tc main_arg2)) := by
  after_results_simp <;> rfl
set_option maxHeartbeats 2000000 in
theorem s3_v37 : (StableHlo.after hostOps3 Wv (Proc.devRef .tc main_v37) : A250)
    = aggUI (Wv (Proc.devRef .tc main_v24)) (Wv (Proc.devRef .tc main_arg4)) (Wv (Proc.devRef .tc main_arg5)) (Wv (Proc.devRef .tc main_arg6)) := by
  after_results_simp <;> rfl
set_option maxHeartbeats 2000000 in
theorem s4_v42 : (StableHlo.after hostOps4 Wv (Proc.devRef .tc main_v42) : W64) = val_main_v62 (F := Ideal) (Wv (Proc.devRef .tc main_arg3)) := by
  after_results_simp <;> rfl
set_option maxHeartbeats 2000000 in
theorem s5_v56 : (StableHlo.after hostOps5 Wv (Proc.devRef .tc main_v56) : A100)
    = aggS (Wv (Proc.devRef .tc main_v43)) (Wv (Proc.devRef .tc main_arg7)) (Wv (Proc.devRef .tc main_arg8)) (Wv (Proc.devRef .tc main_arg9)) := by
  after_results_simp <;> rfl
set_option maxHeartbeats 2000000 in
theorem s6_v59 : (StableHlo.after hostOps6 Wv (Proc.devRef .tc main_v59) : W64) = val_main_v88 (F := Ideal) (Wv (Proc.devRef .tc main_arg3)) := by
  after_results_simp <;> rfl
set_option maxHeartbeats 2000000 in
theorem s7_v73 : (StableHlo.after hostOps7 Wv (Proc.devRef .tc main_v73) : A100)
    = aggS (Wv (Proc.devRef .tc main_v60)) (Wv (Proc.devRef .tc main_arg7)) (Wv (Proc.devRef .tc main_arg8)) (Wv (Proc.devRef .tc main_arg9)) := by
  after_results_simp <;> rfl

end Stretch

variable (m : (ℓ : Loc nD τ sig) → Buf (Elt Ideal) ℓ) (ρ : Dev nD → PrngReg)

/-! ## The user-item branch -/

theorem e1_v0 (c : Dev nD) : (W1 m ρ c (Proc.devRef .tc main_v0) : A250) = val_main_v0 (F := Ideal) (m ((c : Thread nD τ).loc main_arg0)) (m ((c : Thread nD τ).loc main_arg1)) :=
  s0_v0 (W0 m ρ c)
theorem e1_v1 (c : Dev nD) : (W1 m ρ c (Proc.devRef .tc main_v1) : A250) = val_main_v1 (F := Ideal) (m ((c : Thread nD τ).loc main_arg0)) (m ((c : Thread nD τ).loc main_arg1)) :=
  s0_v1 (W0 m ρ c)
theorem e1_v3 (c : Dev nD) : (W1 m ρ c (Proc.devRef .tc main_v3) : W64) = val_main_v3 (F := Ideal) (m ((c : Thread nD τ).loc main_arg2)) :=
  s0_v3 (W0 m ρ c)

/-- Region 0 leaves the first projection. -/
theorem k4 (c : Dev nD) : (W2 m ρ c (Proc.devRef .tc main_v4) : A250) = val_main_v4 (F := Ideal) (m ((c : Thread nD τ).loc main_arg0)) (m ((c : Thread nD τ).loc main_arg1)) (m ((c : Thread nD τ).loc main_arg2)) :=
  (W2_arr m ρ c 2).trans ((Reg.final0 (V1 m ρ) c).trans
    ((congrArg₂ (linArr (N := 250000)) (e1_v1 m ρ c) (e1_v3 m ρ c)).trans (v4_eq _ _ _).symm))

/-- The first edge aggregation. -/
theorem k17 (c : Dev nD) : (W3 m ρ c (Proc.devRef .tc main_v17) : A250) = val_main_v17 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) :=
  (s1_v17 (W2 m ρ c)).trans
    ((aggUI_congr (k4 m ρ c) (W2_arg4 m ρ c) (W2_arg5 m ρ c) (W2_arg6 m ρ c)).trans (v17_eq _ _ _ _ _ _).symm)

theorem e3_v0 (c : Dev nD) : (W3 m ρ c (Proc.devRef .tc main_v0) : A250) = val_main_v0 (F := Ideal) (m ((c : Thread nD τ).loc main_arg0)) (m ((c : Thread nD τ).loc main_arg1)) :=
  (W3_v0 m ρ c).trans (e1_v0 m ρ c)

/-- Region 1 leaves the rectified first layer and the running sum after one layer. -/
theorem k18_0 (c : Dev nD) : (W4 m ρ c (Proc.devRef .tc main_v18_0) : A250) = val_main_v22 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) :=
  (W4_arr m ρ c 2).trans ((Reg.final1_2 (V3 m ρ) c).trans
    ((congrArg (leakArr (N := 250000)) (k17 m ρ c)).trans (v22_eq _ _ _ _ _ _).symm))
theorem k18_1 (c : Dev nD) : (W4 m ρ c (Proc.devRef .tc main_v18_1) : A250) = val_main_v59 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) :=
  (W4_arr m ρ c 3).trans ((Reg.final1_3 (V3 m ρ) c).trans
    ((congrArg₂ (accArr (N := 250000)) (k17 m ρ c) (e3_v0 m ρ c)).trans (v59_eq _ _ _ _ _ _).symm))

theorem e5_v21 (c : Dev nD) : (W5 m ρ c (Proc.devRef .tc main_v21) : A250) = val_main_v30 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) :=
  (s2_v21 (W4 m ρ c)).trans ((congrArg resplit (k18_0 m ρ c)).trans (v30_eq _ _ _ _ _ _).symm)
theorem e5_v23 (c : Dev nD) : (W5 m ρ c (Proc.devRef .tc main_v23) : W64) = val_main_v32 (F := Ideal) (m ((c : Thread nD τ).loc main_arg2)) :=
  (s2_v23 (W4 m ρ c)).trans (congrArg (val_main_v32 (F := Ideal)) (W4_arg2 m ρ c))

/-- Region 2 leaves the second projection. -/
theorem k24 (c : Dev nD) : (W6 m ρ c (Proc.devRef .tc main_v24) : A250) = val_main_v33 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) :=
  (W6_arr m ρ c 2).trans ((Reg.final2 (V5 m ρ) c).trans
    ((congrArg₂ (linArr (N := 250000)) (e5_v21 m ρ c) (e5_v23 m ρ c)).trans (v33_eq _ _ _ _ _ _).symm))

/-- The second edge aggregation. -/
theorem k37 (c : Dev nD) : (W7 m ρ c (Proc.devRef .tc main_v37) : A250) = val_main_v46 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) :=
  (s3_v37 (W6 m ρ c)).trans
    ((aggUI_congr (k24 m ρ c) (W6_arg4 m ρ c) (W6_arg5 m ρ c) (W6_arg6 m ρ c)).trans (v46_eq _ _ _ _ _ _).symm)

theorem e7_v18_1 (c : Dev nD) : (W7 m ρ c (Proc.devRef .tc main_v18_1) : A250) = val_main_v59 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) :=
  (W7_v18_1 m ρ c).trans (k18_1 m ρ c)

/-- Region 3 leaves the running sum after two layers: the first result. -/
theorem k38_1 (c : Dev nD) : (W8 m ρ c (Proc.devRef .tc main_v38_1) : A250) = val_main_v60 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) :=
  (W8_arr m ρ c 3).trans ((Reg.final3_3 (V7 m ρ) c).trans
    ((congrArg₂ (accArr (N := 250000)) (k37 m ρ c) (e7_v18_1 m ρ c)).trans (v60_eq _ _ _ _ _ _).symm))

/-- THE FIRST RESULT at the end of @main is the array program's first result of the same arguments. -/
theorem result0 (c : Dev nD) : (W16 m ρ c (Proc.devRef .tc main_v38_1) : A250) = val_main_v60 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) :=
  (W16_v38_1 m ρ c).trans (k38_1 m ρ c)

/-! ## The social branch -/

theorem e9_v42 (c : Dev nD) : (W9 m ρ c (Proc.devRef .tc main_v42) : W64) = val_main_v62 (F := Ideal) (m ((c : Thread nD τ).loc main_arg3)) :=
  (s4_v42 (W8 m ρ c)).trans (congrArg (val_main_v62 (F := Ideal)) (W8_arg3 m ρ c))

/-- Region 4 leaves the first projection of the user features. -/
theorem k43 (c : Dev nD) : (W10 m ρ c (Proc.devRef .tc main_v43) : A100) = val_main_v63 (F := Ideal) (m ((c : Thread nD τ).loc main_arg0)) (m ((c : Thread nD τ).loc main_arg3)) :=
  (W10_arr m ρ c 2).trans ((Reg.final4 (V9 m ρ) c).trans
    ((congrArg₂ (linArr (N := 100000)) (W9_arg0 m ρ c) (e9_v42 m ρ c)).trans (v63_eq _ _).symm))

theorem k56 (c : Dev nD) : (W11 m ρ c (Proc.devRef .tc main_v56) : A100) = val_main_v76 (F := Ideal) (m ((c : Thread nD τ).loc main_arg0)) (m ((c : Thread nD τ).loc main_arg3)) (m ((c : Thread nD τ).loc main_arg7)) (m ((c : Thread nD τ).loc main_arg8)) (m ((c : Thread nD τ).loc main_arg9)) :=
  (s5_v56 (W10 m ρ c)).trans
    ((aggS_congr (k43 m ρ c) (W10_arg7 m ρ c) (W10_arg8 m ρ c) (W10_arg9 m ρ c)).trans (v76_eq _ _ _ _ _).symm)

/-- Region 5 leaves the rectified first social layer and the running sum after one layer. -/
theorem k57_0 (c : Dev nD) : (W12 m ρ c (Proc.devRef .tc main_v57_0) : A100) = val_main_v81 (F := Ideal) (m ((c : Thread nD τ).loc main_arg0)) (m ((c : Thread nD τ).loc main_arg3)) (m ((c : Thread nD τ).loc main_arg7)) (m ((c : Thread nD τ).loc main_arg8)) (m ((c : Thread nD τ).loc main_arg9)) :=
  (W12_arr m ρ c 2).trans ((Reg.final5_2 (V11 m ρ) c).trans
    ((congrArg (leakArr (N := 100000)) (k56 m ρ c)).trans (v81_eq _ _ _ _ _).symm))
theorem k57_1 (c : Dev nD) : (W12 m ρ c (Proc.devRef .tc main_v57_1) : A100) = val_main_v113 (F := Ideal) (m ((c : Thread nD τ).loc main_arg0)) (m ((c : Thread nD τ).loc main_arg3)) (m ((c : Thread nD τ).loc main_arg7)) (m ((c : Thread nD τ).loc main_arg8)) (m ((c : Thread nD τ).loc main_arg9)) :=
  (W12_arr m ρ c 3).trans ((Reg.final5_3 (V11 m ρ) c).trans
    ((congrArg₂ (accArr (N := 100000)) (k56 m ρ c) (W11_arg0 m ρ c)).trans (v113_eq _ _ _ _ _).symm))

theorem e13_v57_0 (c : Dev nD) : (W13 m ρ c (Proc.devRef .tc main_v57_0) : A100) = val_main_v81 (F := Ideal) (m ((c : Thread nD τ).loc main_arg0)) (m ((c : Thread nD τ).loc main_arg3)) (m ((c : Thread nD τ).loc main_arg7)) (m ((c : Thread nD τ).loc main_arg8)) (m ((c : Thread nD τ).loc main_arg9)) :=
  (W13_v57_0 m ρ c).trans (k57_0 m ρ c)
theorem e13_v59 (c : Dev nD) : (W13 m ρ c (Proc.devRef .tc main_v59) : W64) = val_main_v88 (F := Ideal) (m ((c : Thread nD τ).loc main_arg3)) :=
  (s6_v59 (W12 m ρ c)).trans (congrArg (val_main_v88 (F := Ideal)) (W12_arg3 m ρ c))

/-- Region 6 leaves the second projection. -/
theorem k60 (c : Dev nD) : (W14 m ρ c (Proc.devRef .tc main_v60) : A100) = val_main_v89 (F := Ideal) (m ((c : Thread nD τ).loc main_arg0)) (m ((c : Thread nD τ).loc main_arg3)) (m ((c : Thread nD τ).loc main_arg7)) (m ((c : Thread nD τ).loc main_arg8)) (m ((c : Thread nD τ).loc main_arg9)) :=
  (W14_arr m ρ c 2).trans ((Reg.final6 (V13 m ρ) c).trans
    ((congrArg₂ (linArr (N := 100000)) (e13_v57_0 m ρ c) (e13_v59 m ρ c)).trans (v89_eq _ _ _ _ _).symm))

theorem k73 (c : Dev nD) : (W15 m ρ c (Proc.devRef .tc main_v73) : A100) = val_main_v102 (F := Ideal) (m ((c : Thread nD τ).loc main_arg0)) (m ((c : Thread nD τ).loc main_arg3)) (m ((c : Thread nD τ).loc main_arg7)) (m ((c : Thread nD τ).loc main_arg8)) (m ((c : Thread nD τ).loc main_arg9)) :=
  (s7_v73 (W14 m ρ c)).trans
    ((aggS_congr (k60 m ρ c) (W14_arg7 m ρ c) (W14_arg8 m ρ c) (W14_arg9 m ρ c)).trans (v102_eq _ _ _ _ _).symm)

theorem e15_v57_1 (c : Dev nD) : (W15 m ρ c (Proc.devRef .tc main_v57_1) : A100) = val_main_v113 (F := Ideal) (m ((c : Thread nD τ).loc main_arg0)) (m ((c : Thread nD τ).loc main_arg3)) (m ((c : Thread nD τ).loc main_arg7)) (m ((c : Thread nD τ).loc main_arg8)) (m ((c : Thread nD τ).loc main_arg9)) :=
  (W15_v57_1 m ρ c).trans (k57_1 m ρ c)

/-- THE SECOND RESULT at the end of @main is the array program's second result of the same arguments. -/
theorem result1 (c : Dev nD) : (W16 m ρ c (Proc.devRef .tc main_v74_1) : A100) = val_main_v114 (F := Ideal) (m ((c : Thread nD τ).loc main_arg0)) (m ((c : Thread nD τ).loc main_arg3)) (m ((c : Thread nD τ).loc main_arg7)) (m ((c : Thread nD τ).loc main_arg8)) (m ((c : Thread nD τ).loc main_arg9)) :=
  (W16_arr m ρ c 3).trans ((Reg.final7_3 (V15 m ρ) c).trans
    ((congrArg₂ (accArr (N := 100000)) (k73 m ρ c) (e15_v57_1 m ρ c)).trans (v114_eq _ _ _ _ _).symm))

end Cert.KernelIdeal.Val

end
-- ==== Proof.lean ====
/-
  A two-layer graph convolution on a user-item graph (250000 nodes) and on a social graph (100000 users), tiled,
  against its plain array form.

  Both programs compute, per branch and per layer:  project the node features by a 64 x 64 weight matrix; aggregate
  over the million edges (gather the source rows, weight them, scatter-add at the destination rows); apply the leaky
  rectifier of slope 1/2; and add to a running sum the rectified rows each divided by the larger of its Euclidean
  length and eps (the single-precision number nearest 1e-12).  The result of a branch is
  features + normalized layer 1 + normalized layer 2, added in that order in both programs.

  The tiled program does the projection, and the rectifier with the scaling and the running sum, in eight regions of
  5000-row tiles, and leaves the edge aggregation and the re-joining of user and item rows to the same array
  operations the plain program uses.  On the extended reals:
    * narrowing the operands of the matrix unit to bf16 is the identity, and a product into a zero accumulator is the
      contraction over the 64 inner indices — the array program's matrix product;
    * a row's sum of squares is the sum over its 64 entries in either program (the lane reduction; the sum from
      zero), and a tile of whole rows sees all of it;
    * the square root, the maximum with eps, the division, the comparison with zero and the select are the same
      scalar functions in both.
  So each region's outputs are the layer functions of the arrays it was entered with (Region0 … Region7), the
  boundary contents of the tiled program are, stage by stage, the array program's stages (Fold), and the two results
  agree.  No rearrangement of sums is used and the finiteness of the inputs is not needed.

  The frames: the tiled programs' are the launch theorem over their eight regions; the array program's is its run with
  the results forgotten.  The idealization rewrote nothing, so there is nothing to preserve.
-/
import proofs.«114183_j72945724555834_1_alg».proof.Defs
import proofs.«114183_j72945724555834_1_alg».proof.Proof.Gen.Kernel
import proofs.«114183_j72945724555834_1_alg».proof.Proof.Gen.Kernel.Skeleton
import proofs.«114183_j72945724555834_1_alg».proof.Proof.Gen.Kernel.Launch
import proofs.«114183_j72945724555834_1_alg».proof.Proof.Gen.Kernel.Points
import proofs.«114183_j72945724555834_1_alg».proof.Proof.Gen.Kernel.Frame
import proofs.«114183_j72945724555834_1_alg».proof.Proof.Gen.KernelIdeal
import proofs.«114183_j72945724555834_1_alg».proof.Proof.Gen.KernelIdeal.Skeleton
import proofs.«114183_j72945724555834_1_alg».proof.Proof.Gen.KernelIdeal.Launch
import proofs.«114183_j72945724555834_1_alg».proof.Proof.Gen.KernelIdeal.Points
import proofs.«114183_j72945724555834_1_alg».proof.Proof.Gen.KernelIdeal.Frame
import proofs.«114183_j72945724555834_1_alg».proof.Proof.Gen.ReferenceIdeal
import proofs.«114183_j72945724555834_1_alg».proof.Proof.Gen.ReferenceIdeal.Run
import proofs.«114183_j72945724555834_1_alg».proof.Proof.Gen.ReferenceIdeal.Read
import proofs.«114183_j72945724555834_1_alg».proof.Proof.Gen.Pre_finite_inputs
import proofs.«114183_j72945724555834_1_alg».proof.Proof.RunW
import proofs.«114183_j72945724555834_1_alg».proof.Proof.Fold
import Idealize.ShloMosaic.Adequacy
import Idealize.ShloMosaic.Init

set_option maxRecDepth 16384

noncomputable section

namespace Cert.Proof

open Idealize.ShloMosaic Idealize.SL.Sem

/-- The tiled program runs and leaves its arguments alone. -/
theorem frame_k : @Cert.frame_Kernel Cert.Kernel.Gen.facts Cert.Pre_finite_inputs.Gen.facts :=
  fun m ρ _ => Cert.Kernel.Gen.frame m ρ

/-- So does its reading on the extended reals. -/
theorem frame_ki : @Cert.frame_KernelIdeal Cert.KernelIdeal.Gen.facts Cert.Pre_finite_inputs.Gen.facts :=
  fun m ρ _ => Cert.KernelIdeal.Gen.frame m ρ

/-- The array program's frame is its run with the two results forgotten. -/
theorem frame_ri : @Cert.frame_ReferenceIdeal Cert.ReferenceIdeal.Gen.facts Cert.Pre_finite_inputs.Gen.facts :=
  fun m ρ _ => (θ_run Cert.ReferenceIdeal.defs _ _).mono (fun _ h c => (h c).2.2)
    (Cert.ReferenceIdeal.Value.run (F := Ideal) m ρ)

/-- On the extended reals, from memories that agree on the arguments, both programs end with the array program's two
    stage terms of those arguments in their result buffers. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.ReferenceIdeal.Read.val_main_v60 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.ReferenceIdeal.Read.val_main_v114 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Val.result0 m ρ c), (h c).2.1.trans (Cert.KernelIdeal.Val.result1 m ρ c), (h c).2.2⟩)
      (Cert.KernelIdeal.Val.run_last (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨h0, h1, h2, h3, h4, h5, h6, h7, h8, h9⟩ := hagree c
      rw [Cert.ReferenceIdeal.Read.val_main_v60_eq, h0, h1, h2, h4, h5, h6]
    · obtain ⟨h0, h1, h2, h3, h4, h5, h6, h7, h8, h9⟩ := hagree c
      rw [Cert.ReferenceIdeal.Read.val_main_v114_eq, h0, h3, h7, h8, h9]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
